-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S3x128x128 : Shape := ⟨3, ![3, 128, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S3x128x128 : S_.BroadcastsInDim S3x128x128 (![] : Fin 0 → Fin S3x128x128.rank)
  reducesTo_S3x128x128_S_d0_1_2 : S3x128x128.ReducesTo [0, 1, 2] S_

variable [Facts]

def fn {F : FTy → Type} [FloatOps F] (main_arg0 : FVec F S8192x128 .f32) (main_arg1 : FVec F S8192x8192 .f32) (main_arg2 : FVec F S3x128x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  main_v13
-- ==== Kernel.lean ====
abbrev S8192x128 : Shape := ⟨2, ![8192, 128]⟩
abbrev S8192x8192 : Shape := ⟨2, ![8192, 8192]⟩
abbrev S3x128x128 : Shape := ⟨3, ![3, 128, 128]⟩
abbrev S1024x2048 : Shape := ⟨2, ![1024, 2048]⟩
abbrev S1024x128 : Shape := ⟨2, ![1024, 128]⟩
abbrev S2048x128 : Shape := ⟨2, ![2048, 128]⟩
abbrev S1x128x128 : Shape := ⟨3, ![1, 128, 128]⟩
abbrev S128x128 : Shape := ⟨2, ![128, 128]⟩

abbrev nBuf : Space → Nat
  | .hbm => 12
  | .vmem => 17
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S3x128x128, .f32⟩
  | .hbm, ⟨3, _⟩ => ⟨S8192x128, .f32⟩
  | .hbm, ⟨4, _⟩ => ⟨S3x128x128, .f32⟩
  | .hbm, ⟨5, _⟩ => ⟨S1x128x128, .f32⟩
  | .hbm, ⟨6, _⟩ => ⟨S128x128, .f32⟩
  | .hbm, ⟨7, _⟩ => ⟨S1x128x128, .f32⟩
  | .hbm, ⟨8, _⟩ => ⟨S128x128, .f32⟩
  | .hbm, ⟨9, _⟩ => ⟨S1x128x128, .f32⟩
  | .hbm, ⟨10, _⟩ => ⟨S128x128, .f32⟩
  | .hbm, ⟨11, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S8192x128, .f32⟩
  | .local _ .vmem, ⟨3, _⟩ => ⟨S1024x128, .f32⟩
  | .local _ .vmem, ⟨4, _⟩ => ⟨S1024x128, .f32⟩
  | .local _ .vmem, ⟨5, _⟩ => ⟨S1024x128, .f32⟩
  | .local _ .vmem, ⟨6, _⟩ => ⟨S1024x2048, .f32⟩
  | .local _ .vmem, ⟨7, _⟩ => ⟨S1024x2048, .f32⟩
  | .local _ .vmem, ⟨8, _⟩ => ⟨S8192x128, .f32⟩
  | .local _ .vmem, ⟨9, _⟩ => ⟨S1024x128, .f32⟩
  | .local _ .vmem, ⟨10, _⟩ => ⟨S1024x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S1024x128, .f32⟩
  | .local _ .vmem, ⟨15, _⟩ => ⟨S1024x128, .f32⟩
  | .local _ .vmem, ⟨16, _⟩ => ⟨S1024x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem6_1 : DmaSem sig := 14

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c2048_i32 : BitVec 32 := 2048#32
  let v5 : BitVec 32 := Scalar.muli arg1 c2048_i32
  v5
def k0_off1 (i : grid0.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k0_cond2 (i : grid0.Coords) : BitVec 1 :=
  let arg1 : BitVec 32 := BitVec.ofNat 32 (i 1).val
  let c3_i32 : BitVec 32 := 3#32
  let v16 : BitVec 1 := Scalar.cmpi .eq arg1 c3_i32
  let v17 : BitVec 32 := Scalar.extui v16
  let c0_i32_7 : BitVec 32 := 0#32
  let v18 : BitVec 1 := Scalar.cmpi .ne v17 c0_i32_7
  v18

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def k1_mult1 (i : grid1.Coords) : BitVec 32 :=
  let arg1 : BitVec 32 := BitVec.ofNat 32 (i 1).val
  let c2048_i32 : BitVec 32 := 2048#32
  let v5 : BitVec 32 := Scalar.muli arg1 c2048_i32
  v5
def k1_off1 (i : grid1.Coords) : Fin 2 → Nat :=
  let arg1 : BitVec 32 := BitVec.ofNat 32 (i 1).val
  let c2048_i32 : BitVec 32 := 2048#32
  let v5 : BitVec 32 := Scalar.muli arg1 c2048_i32
  let v6 : BitVec 32 := v5
  let v7 : Index := Scalar.indexCast v6
  let c0_2 : Index := 0#32
  ![v7.toNat, 0]
def k1_cond2 (i : grid1.Coords) : BitVec 1 :=
  let arg1 : BitVec 32 := BitVec.ofNat 32 (i 1).val
  let c3_i32 : BitVec 32 := 3#32
  let v17 : BitVec 1 := Scalar.cmpi .eq arg1 c3_i32
  let v18 : BitVec 32 := Scalar.extui v17
  let c0_i32_7 : BitVec 32 := 0#32
  let v19 : BitVec 1 := Scalar.cmpi .ne v18 c0_i32_7
  v19

def k1_mult2 (i : grid1.Coords) : BitVec 32 :=
  let arg0 : BitVec 32 := BitVec.ofNat 32 (i 0).val
  let c1024_i32 : BitVec 32 := 1024#32
  let v20 : BitVec 32 := Scalar.muli arg0 c1024_i32
  v20
def k1_off2 (i : grid1.Coords) : Fin 2 → Nat :=
  let arg0 : BitVec 32 := BitVec.ofNat 32 (i 0).val
  let c1024_i32 : BitVec 32 := 1024#32
  let v20 : BitVec 32 := Scalar.muli arg0 c1024_i32
  let v21 : BitVec 32 := v20
  let v22 : Index := Scalar.indexCast v21
  let c0_8 : Index := 0#32
  ![v22.toNat, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S8192x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

class Facts₀ : Prop where
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x2048_S1024x2048_0_0 : ∀ a, (![0, 0] : Fin 2 → Nat) a + S1024x2048.size a ≤ S1024x2048.size a
  h_S1024x2048 : 0 < S1024x2048.numel
  bitsLt_bf16_f32 : FTy.bits .bf16 < FTy.bits .f32
  h_S2048x128 : 0 < S2048x128.numel
  transposes_S3x128x128_S3x128x128_0_2_1 : S3x128x128.Transposes [0, 2, 1] S3x128x128
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  shapeCasts_S2048x128_S2048x128 : S2048x128.ShapeCasts S2048x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S1024x2048_S2048x128_S1024x128_1_0_0_1_n_n_wf : DotDims.WF S1024x2048 S2048x128 S1024x128 [1] [0] [0] [1] [] []
  dot_S1024x128_S128x128_S1024x128_1_0_0_1_n_n_wf : DotDims.WF S1024x128 S128x128 S1024x128 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S2048x128.size a ≤ S8192x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x128.size a ≤ S8192x128.size a
  hwx0_2 : ∀ i : grid0.Coords, EltTy.bits .f32 = 32 ∨ (Rect.block (s := S8192x128) S1024x128.size (cc0_transform_2 i) (hinb0_2 i)).WholeWords (EltTy.packing .f32)
  hrank1 : 0 < grid1.rank
  k1_mult1_dvd : ∀ i : grid1.Coords, 2048 ∣ (k1_mult1 i).toNat
  k1_off1_inb : ∀ i : grid1.Coords, ∀ a, (k1_off1 i) a + S2048x128.size a ≤ S8192x128.size a
  k1_mult2_dvd : ∀ i : grid1.Coords, ∀ (k1_h2 : k1_cond2 i = 1#1), 1024 ∣ (k1_mult2 i).toNat
  k1_off2_inb : ∀ i : grid1.Coords, ∀ (k1_h2 : k1_cond2 i = 1#1), ∀ a, (k1_off2 i) a + S1024x128.size a ≤ S8192x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .f32 = 32 ∨ (Rect.block (s := S8192x128) S8192x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S8192x128.size a
  hwx1_2 : ∀ i : grid1.Coords, EltTy.bits .f32 = 32 ∨ (Rect.block (s := S8192x128) S1024x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x128.size a ≤ S8192x128.size a
  hwx1_6 : ∀ i : grid1.Coords, EltTy.bits .f32 = 32 ∨ (Rect.block (s := S8192x128) S1024x128.size (cc1_transform_6 i) (hinb1_6 i)).WholeWords (EltTy.packing .f32)

variable [Facts₀]

def dot_S1024x2048_S2048x128_S1024x128_1_0_0_1_n_n : DotDims S1024x2048 S2048x128 S1024x128 where
  lhsContracting := [1]
  rhsContracting := [0]
  lhsNonContracting := [0]
  rhsNonContracting := [1]
  lhsBatch := []
  rhsBatch := []
  wf := dot_S1024x2048_S2048x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v5) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v8) S1024x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun _ => false | 5 => fun _ => false | 6 => fun i => !(k1_cond2 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S3x128x128 : Shape := ⟨3, ![3, 128, 128]⟩
abbrev S1x128x128 : Shape := ⟨3, ![1, 128, 128]⟩
abbrev S128x128 : Shape := ⟨2, ![128, 128]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S3x128x128, .f32⟩
  | .hbm, ⟨3, _⟩ => ⟨S8192x128, .f32⟩
  | .hbm, ⟨4, _⟩ => ⟨S1x128x128, .f32⟩
  | .hbm, ⟨5, _⟩ => ⟨S128x128, .f32⟩
  | .hbm, ⟨6, _⟩ => ⟨S128x128, .f32⟩
  | .hbm, ⟨7, _⟩ => ⟨S8192x128, .f32⟩
  | .hbm, ⟨8, _⟩ => ⟨S1x128x128, .f32⟩
  | .hbm, ⟨9, _⟩ => ⟨S128x128, .f32⟩
  | .hbm, ⟨10, _⟩ => ⟨S128x128, .f32⟩
  | .hbm, ⟨11, _⟩ => ⟨S8192x128, .f32⟩
  | .hbm, ⟨12, _⟩ => ⟨S8192x128, .f32⟩
  | .hbm, ⟨13, _⟩ => ⟨S8192x128, .f32⟩
  | .hbm, ⟨14, _⟩ => ⟨S_, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S1x128x128, .f32⟩
  | .hbm, ⟨19, _⟩ => ⟨S128x128, .f32⟩
  | .hbm, ⟨20, _⟩ => ⟨S128x128, .f32⟩
  | .hbm, ⟨21, _⟩ => ⟨S8192x128, .f32⟩
  | .hbm, ⟨22, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]

class Facts₀ : Prop where
  slices_S3x128x128_S1x128x128_0_0_0 : S3x128x128.Slices ![0, 0, 0] S1x128x128
  shapeCasts_S1x128x128_S128x128 : S1x128x128.ShapeCasts S128x128
  transposes_S128x128_S128x128_1_0 : S128x128.Transposes [1, 0] S128x128
  slices_S3x128x128_S1x128x128_1_0_0 : S3x128x128.Slices ![1, 0, 0] S1x128x128
  bcast_S_S8192x128 : S_.BroadcastsInDim S8192x128 (![] : Fin 0 → Fin S8192x128.rank)
  slices_S3x128x128_S1x128x128_2_0_0 : S3x128x128.Slices ![2, 0, 0] S1x128x128
  dot_S8192x8192_S8192x128_S8192x128_1_0_0_1_n_n_wf : DotDims.WF S8192x8192 S8192x128 S8192x128 [1] [0] [0] [1] [] []
  dot_S8192x128_S128x128_S8192x128_1_0_0_1_n_n_wf : DotDims.WF S8192x128 S128x128 S8192x128 [1] [0] [0] [1] [] []

variable [Facts₀]

def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

class Facts : Prop extends Facts₀ where

variable [Facts]
-- ==== Proof.Spec.lean ====
/-
  The value both programs compute, as ONE function of the three argument arrays, index by index, over the
  extended reals: a Chebyshev graph convolution of order three.

  For node features `x : [8192, 128]`, an operator `L : [8192, 8192]` and weights `W : [3, 128, 128]`
  (one `[out, in]` matrix per order):

    T₀ = x,   T₁ = L · x,   T₂ = 2 · (L · T₁) − T₀,
    out = (T₀ · W₀ᵀ + T₁ · W₁ᵀ) + T₂ · W₂ᵀ.

  Every product of matrices is a plain finite sum over the contracted index, in the order of factors the
  programs use (left operand first); the two additions associate to the left. The literal `2` is kept as the
  float word that denotes it and is never evaluated. This module mentions no program.
-/
import Idealize.ShloMosaic.PureOps.Ideal
import Idealize.ShloMosaic.Lib.ValueIdx

noncomputable section

open scoped BigOperators

namespace Cert.Spec

open Idealize.ShloMosaic Idealize.ShloMosaic.ValueIdx

/-- The shape of the node features `x` and of the result: 8192 nodes, 128 channels. -/
abbrev SX : Shape := ⟨2, ![8192, 128]⟩
/-- The shape of the operator `L`: 8192 by 8192. -/
abbrev SL : Shape := ⟨2, ![8192, 8192]⟩
/-- The shape of the stacked weights `W`: three `[out, in]` matrices of 128 by 128. -/
abbrev SW : Shape := ⟨3, ![3, 128, 128]⟩

/-- The constant `2` of the recurrence, as the extended real its `f32` word denotes. -/
def two : EReal := Ideal.ofBits .f32 0x40000000#32

variable (x : SX.Idx → EReal) (L : SL.Idx → EReal) (W : SW.Idx → EReal)

/-- `T₁ = L · x`: row `r` of `L` against column `j` of `x`. -/
def T1 (r : Fin 8192) (j : Fin 128) : EReal := ∑ k : Fin 8192, L (ix2 r k) * x (ix2 k j)

/-- `L · T₁`: row `r` of `L` against column `j` of `T₁`. -/
def U (r : Fin 8192) (j : Fin 128) : EReal := ∑ k : Fin 8192, L (ix2 r k) * T1 x L k j

/-- `T₂ = 2 · (L · T₁) − x`. -/
def T2 (r : Fin 8192) (j : Fin 128) : EReal := two * U x L r j - x (ix2 r j)

/-- `A · W_sᵀ`: row `r` of `A` against row `j` of the `s`-th weight matrix. -/
def lin (A : Fin 8192 → Fin 128 → EReal) (W : SW.Idx → EReal) (s : Fin 3) (r : Fin 8192) (j : Fin 128) : EReal :=
  ∑ c : Fin 128, A r c * W (ix3 s j c)

/-- The result at row `r`, channel `j`: `(x · W₀ᵀ + T₁ · W₁ᵀ) + T₂ · W₂ᵀ`. -/
def out (r : Fin 8192) (j : Fin 128) : EReal :=
  (lin (fun r c => x (ix2 r c)) W 0 r j + lin (T1 x L) W 1 r j) + lin (T2 x L) W 2 r j

/-- The result as an array over the result shape. -/
def G : SX.Idx → EReal := fun i => out x L W (i 0) (i 1)

/-- The result array read at the index with coordinates `p`, `q`. -/
theorem G_apply (p : Fin 8192) (q : Fin 128) : G x L W (ix2 p q) = out x L W p q := rfl

end Cert.Spec

end
-- ==== Proof.RefIsSpec.lean ====
/-
  The reference program computes the specified value: read at an index with coordinates `(p, q)`, each of its
  stages is the matching piece of `Cert.Spec` — the products of matrices are the finite sums over the contracted
  index, a slice, reshape and transpose of the stacked weights reads `W[s, j, c]` at position `(c, j)`, and the
  recurrence's constant is the same float word on both sides.
-/
import proofs.«175496_j70763881168941_2_alg».proof.Proof.Gen.ReferenceIdeal.Read
import proofs.«175496_j70763881168941_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## Index bookkeeping: the operand positions of a product of matrices at `(p, q)` -/

/-- Position `(a, k)` of the left operand `[8192, 8192]` of `L · x`. -/
theorem lidx_LL (a : Fin 8192) (b : Fin 128) (k : Fin 8192) : lidx_main_v0 (ix2 a b) k = ix2 a k :=
  funext fun d => Fin.ext (by match d with | ⟨0, _⟩ => rfl | ⟨1, _⟩ => rfl)
/-- Position `(k, b)` of its right operand `[8192, 128]`. -/
theorem ridx_LL (a : Fin 8192) (b : Fin 128) (k : Fin 8192) : ridx_main_v0 (ix2 a b) k = ix2 k b :=
  funext fun d => Fin.ext (by match d with | ⟨0, _⟩ => rfl | ⟨1, _⟩ => rfl)
/-- Position `(a, k)` of the left operand `[8192, 128]` of `x · W₀ᵀ`. -/
theorem lidx_XW (a : Fin 8192) (b : Fin 128) (k : Fin 128) : lidx_main_v4 (ix2 a b) k = ix2 a k :=
  funext fun d => Fin.ext (by match d with | ⟨0, _⟩ => rfl | ⟨1, _⟩ => rfl)
/-- Position `(k, b)` of its right operand `[128, 128]`. -/
theorem ridx_XW (a : Fin 8192) (b : Fin 128) (k : Fin 128) : ridx_main_v4 (ix2 a b) k = ix2 k b :=
  funext fun d => Fin.ext (by match d with | ⟨0, _⟩ => rfl | ⟨1, _⟩ => rfl)

/-- Position `(a, k)` of the left operand `[8192, 128]` of `T₁ · W₁ᵀ`. -/
theorem lidx_T1W (a : Fin 8192) (b : Fin 128) (k : Fin 128) : lidx_main_v8 (ix2 a b) k = ix2 a k :=
  funext fun d => Fin.ext (by match d with | ⟨0, _⟩ => rfl | ⟨1, _⟩ => rfl)
/-- Position `(k, b)` of its right operand `[128, 128]`. -/
theorem ridx_T1W (a : Fin 8192) (b : Fin 128) (k : Fin 128) : ridx_main_v8 (ix2 a b) k = ix2 k b :=
  funext fun d => Fin.ext (by match d with | ⟨0, _⟩ => rfl | ⟨1, _⟩ => rfl)
/-- Position `(a, k)` of the left operand `[8192, 8192]` of `L · T₁`. -/
theorem lidx_LT1 (a : Fin 8192) (b : Fin 128) (k : Fin 8192) : lidx_main_v10 (ix2 a b) k = ix2 a k :=
  funext fun d => Fin.ext (by match d with | ⟨0, _⟩ => rfl | ⟨1, _⟩ => rfl)
/-- Position `(k, b)` of its right operand `[8192, 128]`. -/
theorem ridx_LT1 (a : Fin 8192) (b : Fin 128) (k : Fin 8192) : ridx_main_v10 (ix2 a b) k = ix2 k b :=
  funext fun d => Fin.ext (by match d with | ⟨0, _⟩ => rfl | ⟨1, _⟩ => rfl)
/-- Position `(a, k)` of the left operand `[8192, 128]` of `T₂ · W₂ᵀ`. -/
theorem lidx_T2W (a : Fin 8192) (b : Fin 128) (k : Fin 128) : lidx_main_v17 (ix2 a b) k = ix2 a k :=
  funext fun d => Fin.ext (by match d with | ⟨0, _⟩ => rfl | ⟨1, _⟩ => rfl)
/-- Position `(k, b)` of its right operand `[128, 128]`. -/
theorem ridx_T2W (a : Fin 8192) (b : Fin 128) (k : Fin 128) : ridx_main_v17 (ix2 a b) k = ix2 k b :=
  funext fun d => Fin.ext (by match d with | ⟨0, _⟩ => rfl | ⟨1, _⟩ => rfl)

/-! ## The weights: slice `s`, drop the unit axis, transpose -/

/-- The transposed `0`-th weight matrix at `(c, j)` is `W[0, j, c]`. -/
theorem w0_at (x2 : (⟨S3x128x128, .f32⟩ : BufTy).Contents (Elt Ideal)) (c j : Fin 128) :
    val_main_v3 (F := Ideal) x2 (ix2 c j) = x2 (ix3 (0 : Fin 3) j c) := by
  rw [val_main_v3_apply, val_main_v2_apply, val_main_v1_apply]
  refine congrArg x2 (funext fun d => Fin.ext ?_)
  have hj := j.isLt
  have hc := c.isLt
  match d with
  | ⟨0, _⟩ => rfl
  | ⟨1, _⟩ => show (j.val * 128 + c.val) / 128 % 128 = j.val; omega
  | ⟨2, _⟩ => show (j.val * 128 + c.val) % 128 = c.val; omega

/-- The transposed `1`-st weight matrix at `(c, j)` is `W[1, j, c]`. -/
theorem w1_at (x2 : (⟨S3x128x128, .f32⟩ : BufTy).Contents (Elt Ideal)) (c j : Fin 128) :
    val_main_v7 (F := Ideal) x2 (ix2 c j) = x2 (ix3 (1 : Fin 3) j c) := by
  rw [val_main_v7_apply, val_main_v6_apply, val_main_v5_apply]
  refine congrArg x2 (funext fun d => Fin.ext ?_)
  have hj := j.isLt
  have hc := c.isLt
  match d with
  | ⟨0, _⟩ => rfl
  | ⟨1, _⟩ => show (j.val * 128 + c.val) / 128 % 128 = j.val; omega
  | ⟨2, _⟩ => show (j.val * 128 + c.val) % 128 = c.val; omega

/-- The transposed `2`-nd weight matrix at `(c, j)` is `W[2, j, c]`. -/
theorem w2_at (x2 : (⟨S3x128x128, .f32⟩ : BufTy).Contents (Elt Ideal)) (c j : Fin 128) :
    val_main_v16 (F := Ideal) x2 (ix2 c j) = x2 (ix3 (2 : Fin 3) j c) := by
  rw [val_main_v16_apply, val_main_v15_apply, val_main_v14_apply]
  refine congrArg x2 (funext fun d => Fin.ext ?_)
  have hj := j.isLt
  have hc := c.isLt
  match d with
  | ⟨0, _⟩ => rfl
  | ⟨1, _⟩ => show (j.val * 128 + c.val) / 128 % 128 = j.val; omega
  | ⟨2, _⟩ => show (j.val * 128 + c.val) % 128 = c.val; omega

/-! ## The stages at an index -/

/-- `L · x` at `(p, q)` is `T₁`. -/
theorem v0_at (x0 : (⟨S8192x128, .f32⟩ : BufTy).Contents (Elt Ideal)) (x1 : (⟨S8192x8192, .f32⟩ : BufTy).Contents (Elt Ideal)) (p : Fin 8192) (q : Fin 128) :
    val_main_v0 (F := Ideal) x0 x1 (ix2 p q) = Cert.Spec.T1 x0 x1 p q := by
  rw [val_main_v0_apply]
  exact Finset.sum_congr rfl fun k _ => by rw [lidx_LL, ridx_LL]

/-- `x · W₀ᵀ` at `(p, q)`. -/
theorem v4_at (x0 : (⟨S8192x128, .f32⟩ : BufTy).Contents (Elt Ideal)) (x2 : (⟨S3x128x128, .f32⟩ : BufTy).Contents (Elt Ideal)) (p : Fin 8192) (q : Fin 128) :
    val_main_v4 (F := Ideal) x0 x2 (ix2 p q) = Cert.Spec.lin (fun r c => x0 (ix2 r c)) x2 0 p q := by
  rw [val_main_v4_apply]
  exact Finset.sum_congr rfl fun k _ => by rw [lidx_XW, ridx_XW, w0_at]

/-- `T₁ · W₁ᵀ` at `(p, q)`. -/
theorem v8_at (x0 : (⟨S8192x128, .f32⟩ : BufTy).Contents (Elt Ideal)) (x1 : (⟨S8192x8192, .f32⟩ : BufTy).Contents (Elt Ideal)) (x2 : (⟨S3x128x128, .f32⟩ : BufTy).Contents (Elt Ideal)) (p : Fin 8192) (q : Fin 128) :
    val_main_v8 (F := Ideal) x0 x1 x2 (ix2 p q) = Cert.Spec.lin (Cert.Spec.T1 x0 x1) x2 1 p q := by
  rw [val_main_v8_apply]
  exact Finset.sum_congr rfl fun k _ => by rw [lidx_T1W, ridx_T1W, w1_at, v0_at]

/-- `L · T₁` at `(p, q)`. -/
theorem v10_at (x0 : (⟨S8192x128, .f32⟩ : BufTy).Contents (Elt Ideal)) (x1 : (⟨S8192x8192, .f32⟩ : BufTy).Contents (Elt Ideal)) (p : Fin 8192) (q : Fin 128) :
    val_main_v10 (F := Ideal) x0 x1 (ix2 p q) = Cert.Spec.U x0 x1 p q := by
  rw [val_main_v10_apply]
  exact Finset.sum_congr rfl fun k _ => by rw [lidx_LT1, ridx_LT1, v0_at]

/-- `2 · (L · T₁) − x` at `(p, q)` is `T₂`. -/
theorem v13_at (x0 : (⟨S8192x128, .f32⟩ : BufTy).Contents (Elt Ideal)) (x1 : (⟨S8192x8192, .f32⟩ : BufTy).Contents (Elt Ideal)) (p : Fin 8192) (q : Fin 128) :
    val_main_v13 (F := Ideal) x0 x1 (ix2 p q) = Cert.Spec.T2 x0 x1 p q := by
  rw [val_main_v13_apply, val_main_v12_apply, val_main_v11_apply, val_main_cst_apply, v10_at]
  rfl

/-- `T₂ · W₂ᵀ` at `(p, q)`. -/
theorem v17_at (x0 : (⟨S8192x128, .f32⟩ : BufTy).Contents (Elt Ideal)) (x1 : (⟨S8192x8192, .f32⟩ : BufTy).Contents (Elt Ideal)) (x2 : (⟨S3x128x128, .f32⟩ : BufTy).Contents (Elt Ideal)) (p : Fin 8192) (q : Fin 128) :
    val_main_v17 (F := Ideal) x0 x1 x2 (ix2 p q) = Cert.Spec.lin (Cert.Spec.T2 x0 x1) x2 2 p q := by
  rw [val_main_v17_apply]
  exact Finset.sum_congr rfl fun k _ => by rw [lidx_T2W, ridx_T2W, w2_at, v13_at]

/-! ## The reference is the specification -/

/-- The reference program's result, as a function of its three arguments, is `Cert.Spec.G`. -/
theorem ref_eq (x0 : (⟨S8192x128, .f32⟩ : BufTy).Contents (Elt Ideal)) (x1 : (⟨S8192x8192, .f32⟩ : BufTy).Contents (Elt Ideal)) (x2 : (⟨S3x128x128, .f32⟩ : BufTy).Contents (Elt Ideal)) :
    val_main_v18 (F := Ideal) x0 x1 x2 = Cert.Spec.G x0 x1 x2 := by
  funext i
  obtain ⟨p, q, rfl⟩ : ∃ (p : Fin 8192) (q : Fin 128), i = ix2 p q := ⟨i 0, i 1, eq_ix2 i⟩
  rw [Cert.Spec.G_apply, val_main_v18_apply, val_main_v9_apply, v4_at, v8_at, v17_at]
  rfl

section RunTerm
variable {F : FTy → Type} [FloatOps F]

/-- The composed term the reference's run ends with at its result buffer, as a function of the three argument
    buffers (for any float values). -/
abbrev runTerm (x0 : (⟨S8192x128, .f32⟩ : BufTy).Contents (Elt F)) (x1 : (⟨S8192x8192, .f32⟩ : BufTy).Contents (Elt F)) (x2 : (⟨S3x128x128, .f32⟩ : BufTy).Contents (Elt F)) :
    (⟨S8192x128, .f32⟩ : BufTy).Contents (Elt F) :=
  addf (addf (Host.dotGeneral dot_S8192x128_S128x128_S8192x128_1_0_0_1_n_n none (x0) (transpose S128x128 [1, 0] (shapeCast _ (extractStridedSlice S1x128x128 ![0, 0, 0] (x2) slices_S3x128x128_S1x128x128_0_0_0) shapeCasts_S1x128x128_S128x128) transposes_S128x128_S128x128_1_0)) (Host.dotGeneral dot_S8192x128_S128x128_S8192x128_1_0_0_1_n_n none (Host.dotGeneral dot_S8192x8192_S8192x128_S8192x128_1_0_0_1_n_n none (x1) (x0)) (transpose S128x128 [1, 0] (shapeCast _ (extractStridedSlice S1x128x128 ![1, 0, 0] (x2) slices_S3x128x128_S1x128x128_1_0_0) shapeCasts_S1x128x128_S128x128) transposes_S128x128_S128x128_1_0))) (Host.dotGeneral dot_S8192x128_S128x128_S8192x128_1_0_0_1_n_n none (subf (mulf (broadcastInDim S8192x128 ![] bcast_S_S8192x128 (constant S_ .f32 0x40000000#32)) (Host.dotGeneral dot_S8192x8192_S8192x128_S8192x128_1_0_0_1_n_n none (x1) (Host.dotGeneral dot_S8192x8192_S8192x128_S8192x128_1_0_0_1_n_n none (x1) (x0)))) (x0)) (transpose S128x128 [1, 0] (shapeCast _ (extractStridedSlice S1x128x128 ![2, 0, 0] (x2) slices_S3x128x128_S1x128x128_2_0_0) shapeCasts_S1x128x128_S128x128) transposes_S128x128_S128x128_1_0))

end RunTerm

/-- Over the extended reals that term is `Cert.Spec.G` of the argument buffers. -/
theorem run_term_eq (x0 : (⟨S8192x128, .f32⟩ : BufTy).Contents (Elt Ideal)) (x1 : (⟨S8192x8192, .f32⟩ : BufTy).Contents (Elt Ideal)) (x2 : (⟨S3x128x128, .f32⟩ : BufTy).Contents (Elt Ideal)) :
    runTerm (F := Ideal) x0 x1 x2 = Cert.Spec.G x0 x1 x2 :=
  (val_main_v18_eq (F := Ideal) x0 x1 x2).trans (ref_eq x0 x1 x2)

end Cert.ReferenceIdeal.RefValue

end
-- ==== Proof.K.R0Base.lean ====
/-
  Region 0 (T1 = L·x): the blocks its windows stage, the two conditions of its body decided over the 8×4 grid
  (the accumulator is reset where k = 0, the output block is stored where k = 3), where its output window is idle,
  and the region invariant spelt with the accumulator scratch set apart.
-/
import proofs.«175496_j70763881168941_2_alg».proof.Proof.Gen.Kernel.Launch
import proofs.«175496_j70763881168941_2_alg».proof.Proof.Gen.Kernel.Skeleton
import proofs.«175496_j70763881168941_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of `L` (window 0) sits in its staging buffer at every point, fetched there or not. -/
theorem holds0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The whole of `x` (window 1, fetched once) sits in its staging buffer at every point. -/
theorem holds0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's two conditions over the grid -/

/-- "k = 0": the accumulator is reset. -/
abbrev isFirst0 (i : grid0.Coords) : Prop := (Scalar.cmpi .ne (Scalar.extui (Scalar.cmpi .eq (BitVec.ofNat 32 (i 1).val) 0#32)) 0#32) = 1#1
theorem isFirst0_iff : ∀ t : Fin cfg0.N, isFirst0 (grid0.coords t) ↔ t.val % 4 = 0 :=
  (by decide +kernel : ∀ t : Fin grid0.N, isFirst0 (grid0.coords t) ↔ t.val % 4 = 0)

/-- "k = 3": the accumulated rows are stored to the output block. -/
abbrev isLast0 (i : grid0.Coords) : Prop := k0_cond2 i = 1#1
theorem isLast0_iff : ∀ t : Fin cfg0.N, isLast0 (grid0.coords t) ↔ t.val % 4 = 3 :=
  (by decide +kernel : ∀ t : Fin grid0.N, isLast0 (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Where k ≠ 3 the output window is idle and is not written back. -/
theorem idle0_2 : ∀ t : Fin cfg0.N, ¬isLast0 (grid0.coords t) → cfg0.idle 2 (grid0.coords t) = true := by decide +kernel
theorem keep0_2 : ∀ t : Fin cfg0.N, ¬isLast0 (grid0.coords t) → (cfg0.win 2).flush t = false := by decide +kernel
/-- Where k = 3 it is live. -/
theorem live0_2 : ∀ t : Fin cfg0.N, isLast0 (grid0.coords t) → cfg0.idle 2 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev accM0 : Memref sig .tc .vmem S1024x128 .f32 := Memref.whole cc0_scratch0

/-- The rectangles the body reads and writes through. -/
abbrev rL0 : Rect S1024x2048 := Rect.unit (s := S1024x2048) ![0, 0] S1024x2048.size inb_S1024x2048_S1024x2048_0_0
abbrev rO0 : Rect S1024x128 := Rect.unit (s := S1024x128) ![0, 0] S1024x128.size inb_S1024x128_S1024x128_0_0
abbrev rX0 (i : grid0.Coords) : Rect S8192x128 := Rect.unit (s := S8192x128) (k0_off1 i) S2048x128.size (k0_off1_inb i)

/-! ## The region invariant with the accumulator set apart -/

/-- The core's other scoped buffers (the second call's staging buffers and scratch), each whole at some contents: the
    body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class invariant is: the accumulator at some contents, the other scoped buffers, the generator register. -/
theorem PhiA0_eq (c : Dev nD) :
    (Pipeline.ΦA spec0 c : sProp 𝕄)
      = iprop(iprop((∃ d, owns (c : Thread nD τ) accM0 fullShare d) ∗ others0 (F := F) c) ∗ (∃ r, prngReg c r)) := by
  unfold Pipeline.ΦA others0; rw [scopedRest0_eq]; simp only [accM0, owns_whole]; try rfl

end Cert.Kernel.Hand

end
-- ==== Proof.K.R0Step.lean ====
/-
  One step of region 0's accumulation, as a function of the tile of L, the whole of x and the sum so far.
-/
import proofs.«175496_j70763881168941_2_alg».proof.Proof.K.R0Base
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The accumulator after the body: the incoming sum `pf` plus the tile of `L` times the rows of `x` it meets. -/
abbrev step0 (i : grid0.Coords) (x0 : Vec F S1024x2048 .f32) (x1 : Vec F S8192x128 .f32) (pf : Vec F S1024x128 .f32) : Vec F S1024x128 .f32 :=
  k0_pay2 (View.ld x0 rL0) (View.ld x1 (rX0 i)) pf

end Cert.Kernel.Hand

end
-- ==== Proof.K.R0BodyTT.lean ====
/-
  Region 0's body at a grid point where k = 0 and k = 3: the accumulator is reset to the zero block and then
  gains the tile of L times the rows of x; the sum is then stored to the output block's buffer.
-/
import proofs.«175496_j70763881168941_2_alg».proof.Proof.K.R0Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body0_TT (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x128 .f32) (harg5 : arg5.IsWhole)
    (hf : isFirst0 i) (hl : isLast0 i)
    (x0 : Vec F S1024x2048 .f32) (x1 : Vec F S8192x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare prev
        ∗ (iprop(owns (c : Thread nD τ) arg2 fullShare x0 ∗ owns (c : Thread nD τ) arg3 fullShare x1 ∗ owns (c : Thread nD τ) arg4 fullShare (step0 i x0 x1 (k0_pay1 (F := F)))
            ∗ owns (c : Thread nD τ) arg5 fullShare (step0 i x0 x1 (k0_pay1 (F := F)))) -∗ K ⟨⟩))
      ⊢ wp frame (wpE (defs₀ (F := F)) Variants.none c none) E (cc0__matmul1_kernel i arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero hz2 inb_S1024x128_S1024x128_0_0 y⟩), View.canon_cons_unit_zero (S := S1024x128) hz2,
      View.readCov_eq_canon_ld _ _ _ (fun y => ⟨_, List.mem_cons_self, View.mem_set_unit_zero hz2 inb_S1024x128_S1024x128_0_0 y⟩), View.canon_cons_unit_zero (S := S1024x128) hz2, View.ld_unit_zero (S := S1024x128) hz2]
    simp only [View.readCov_unit_zero (S := S1024x128) _ hz2, View.readAt_eq_ld, harg2.read_unread, harg3.read_unread, harg5.read_unread, View.ld_unit_zero (S := S1024x128) hz2]
    rfl
  iexists _; isplitr
  swap; · iexact HS
  ipureintro
  sl_unfold_words
  rw [View.read_writes_eq_canon _ _ _ (fun y => ⟨_, List.mem_cons_self, View.mem_set_unit_zero hz2 inb_S1024x128_S1024x128_0_0 y⟩), View.canon_cons_unit_zero (S := S1024x128) hz2]
  simp only [View.readCov_unit_zero (S := S1024x128) _ hz2, View.readAt_eq_ld, harg2.read_unread, harg3.read_unread, harg5.read_unread, View.ld_unit_zero (S := S1024x128) hz2]
  rfl

end Cert.Kernel.Hand

end
-- ==== Proof.K.R0BodyTF.lean ====
/-
  Region 0's body at a grid point where k = 0 and k ≠ 3: the accumulator is reset to the zero block and then
  gains the tile of L times the rows of x; the output block's buffer is left as found.
-/
import proofs.«175496_j70763881168941_2_alg».proof.Proof.K.R0Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body0_TF (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x128 .f32) (harg5 : arg5.IsWhole)
    (hf : isFirst0 i) (hl : ¬isLast0 i)
    (x0 : Vec F S1024x2048 .f32) (x1 : Vec F S8192x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare prev
        ∗ (iprop(owns (c : Thread nD τ) arg2 fullShare x0 ∗ owns (c : Thread nD τ) arg3 fullShare x1 ∗ owns (c : Thread nD τ) arg4 fullShare xi
            ∗ owns (c : Thread nD τ) arg5 fullShare (step0 i x0 x1 (k0_pay1 (F := F)))) -∗ K ⟨⟩))
      ⊢ wp frame (wpE (defs₀ (F := F)) Variants.none c none) E (cc0__matmul1_kernel i arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (fun y => ⟨_, List.mem_cons_self, View.mem_set_unit_zero hz2 inb_S1024x128_S1024x128_0_0 y⟩), View.canon_cons_unit_zero (S := S1024x128) hz2]
  simp only [View.readCov_unit_zero (S := S1024x128) _ hz2, View.readAt_eq_ld, harg2.read_unread, harg3.read_unread, harg5.read_unread, View.ld_unit_zero (S := S1024x128) hz2]
  rfl

end Cert.Kernel.Hand

end
-- ==== Proof.K.R0BodyFT.lean ====
/-
  Region 0's body at a grid point where k ≠ 0 and k = 3: the accumulator keeps the sum so far and
  gains the tile of L times the rows of x; the sum is then stored to the output block's buffer.
-/
import proofs.«175496_j70763881168941_2_alg».proof.Proof.K.R0Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body0_FT (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x128 .f32) (harg5 : arg5.IsWhole)
    (hf : ¬isFirst0 i) (hl : isLast0 i)
    (x0 : Vec F S1024x2048 .f32) (x1 : Vec F S8192x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare prev
        ∗ (iprop(owns (c : Thread nD τ) arg2 fullShare x0 ∗ owns (c : Thread nD τ) arg3 fullShare x1 ∗ owns (c : Thread nD τ) arg4 fullShare (step0 i x0 x1 prev)
            ∗ owns (c : Thread nD τ) arg5 fullShare (step0 i x0 x1 prev)) -∗ K ⟨⟩))
      ⊢ wp frame (wpE (defs₀ (F := F)) Variants.none c none) E (cc0__matmul1_kernel i arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero hz2 inb_S1024x128_S1024x128_0_0 y⟩), View.canon_cons_unit_zero (S := S1024x128) hz2,
      View.readCov_eq_canon_ld _ _ _ (fun y => ⟨_, List.mem_cons_self, View.mem_set_unit_zero hz2 inb_S1024x128_S1024x128_0_0 y⟩), View.canon_cons_unit_zero (S := S1024x128) hz2, View.ld_unit_zero (S := S1024x128) hz2]
    simp only [View.readCov_unit_zero (S := S1024x128) _ hz2, View.readAt_eq_ld, harg2.read_unread, harg3.read_unread, harg5.read_unread, View.ld_unit_zero (S := S1024x128) hz2]
    rfl
  iexists _; isplitr
  swap; · iexact HS
  ipureintro
  sl_unfold_words
  rw [View.read_writes_eq_canon _ _ _ (fun y => ⟨_, List.mem_cons_self, View.mem_set_unit_zero hz2 inb_S1024x128_S1024x128_0_0 y⟩), View.canon_cons_unit_zero (S := S1024x128) hz2]
  simp only [View.readCov_unit_zero (S := S1024x128) _ hz2, View.readAt_eq_ld, harg2.read_unread, harg3.read_unread, harg5.read_unread, View.ld_unit_zero (S := S1024x128) hz2]
  rfl

end Cert.Kernel.Hand

end
-- ==== Proof.K.R0BodyFF.lean ====
/-
  Region 0's body at a grid point where k ≠ 0 and k ≠ 3: the accumulator keeps the sum so far and
  gains the tile of L times the rows of x; the output block's buffer is left as found.
-/
import proofs.«175496_j70763881168941_2_alg».proof.Proof.K.R0Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body0_FF (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x128 .f32) (harg5 : arg5.IsWhole)
    (hf : ¬isFirst0 i) (hl : ¬isLast0 i)
    (x0 : Vec F S1024x2048 .f32) (x1 : Vec F S8192x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare prev
        ∗ (iprop(owns (c : Thread nD τ) arg2 fullShare x0 ∗ owns (c : Thread nD τ) arg3 fullShare x1 ∗ owns (c : Thread nD τ) arg4 fullShare xi
            ∗ owns (c : Thread nD τ) arg5 fullShare (step0 i x0 x1 prev)) -∗ K ⟨⟩))
      ⊢ wp frame (wpE (defs₀ (F := F)) Variants.none c none) E (cc0__matmul1_kernel i arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (fun y => ⟨_, List.mem_cons_self, View.mem_set_unit_zero hz2 inb_S1024x128_S1024x128_0_0 y⟩), View.canon_cons_unit_zero (S := S1024x128) hz2]
  simp only [View.readCov_unit_zero (S := S1024x128) _ hz2, View.readAt_eq_ld, harg2.read_unread, harg3.read_unread, harg5.read_unread, View.ld_unit_zero (S := S1024x128) hz2]
  rfl

end Cert.Kernel.Hand

end
-- ==== Proof.K.R0Body.lean ====
/-
  Region 0's body at one grid point, as one triple for every point: from the tile of L, the whole of x, the output
  block's buffer and the accumulator at `prev`, it leaves the accumulator at  pf + tile · rows  (pf the zero block
  where k = 0, `prev` elsewhere) and, where k = 3, that same sum in the output block's buffer.
-/
import proofs.«175496_j70763881168941_2_alg».proof.Proof.K.R0BodyTT
import proofs.«175496_j70763881168941_2_alg».proof.Proof.K.R0BodyTF
import proofs.«175496_j70763881168941_2_alg».proof.Proof.K.R0BodyFT
import proofs.«175496_j70763881168941_2_alg».proof.Proof.K.R0BodyFF
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem body0 (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x128 .f32) (harg5 : arg5.IsWhole)
    (x0 : Vec F S1024x2048 .f32) (x1 : Vec F S8192x128 .f32) (xi prev pf o : Vec F S1024x128 .f32)
    (hpf1 : isFirst0 i → pf = k0_pay1) (hpf2 : ¬isFirst0 i → pf = prev)
    (ho1 : isLast0 i → o = step0 i x0 x1 pf) (ho2 : ¬isLast0 i → o = xi)
    (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare prev
        ∗ (iprop(owns (c : Thread nD τ) arg2 fullShare x0 ∗ owns (c : Thread nD τ) arg3 fullShare x1 ∗ owns (c : Thread nD τ) arg4 fullShare o
            ∗ owns (c : Thread nD τ) arg5 fullShare (step0 i x0 x1 pf)) -∗ K ⟨⟩))
      ⊢ wp frame (wpE (defs₀ (F := F)) Variants.none c none) E (cc0__matmul1_kernel i arg2 harg2 arg3 harg3 arg4 harg4 arg5 harg5) K := by
  by_cases hf : isFirst0 i
  · obtain rfl := hpf1 hf
    by_cases hl : isLast0 i
    · obtain rfl := ho1 hl
      exact body0_TT c i arg2 harg2 arg3 harg3 arg4 harg4 arg5 harg5 hf hl x0 x1 xi prev E K
    · obtain rfl := ho2 hl
      exact body0_TF c i arg2 harg2 arg3 harg3 arg4 harg4 arg5 harg5 hf hl x0 x1 _ prev E K
  · obtain rfl := hpf2 hf
    by_cases hl : isLast0 i
    · obtain rfl := ho1 hl
      exact body0_FT c i arg2 harg2 arg3 harg3 arg4 harg4 arg5 harg5 hf hl x0 x1 xi _ E K
    · obtain rfl := ho2 hl
      exact body0_FF c i arg2 harg2 arg3 harg3 arg4 harg4 arg5 harg5 hf hl x0 x1 _ _ E K

end Cert.Kernel.Hand

end
-- ==== Proof.K.R0.lean ====
/-
  Region 0 (T1 = L·x) as a pipeline: the running sum its accumulator holds after each grid point, the region invariant
  that carries it from one point to the next, the proof data, and the body obligation at every point.
-/
import proofs.«175496_j70763881168941_2_alg».proof.Proof.K.R0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum -/

/-- What the accumulator holds after the body at position `n` of the grid's row-major order (n = 4a + k): the sum over
    k' ≤ k of the tile (a, k') of `L` times rows 2048k'.. of `x`, added in order onto the zero block. -/
def acc0 (c : Dev nD) : (n : ℕ) → n < cfg0.N → Vec F S1024x128 .f32
  | 0, hn => step0 (grid0.coords ⟨0, hn⟩) (blk0 V c 0 ⟨0, hn⟩) (blk0 V c 1 ⟨0, hn⟩) k0_pay1
  | n + 1, hn => step0 (grid0.coords ⟨n + 1, hn⟩) (blk0 V c 0 ⟨n + 1, hn⟩) (blk0 V c 1 ⟨n + 1, hn⟩)
      (if (n + 1) % 4 = 0 then k0_pay1 else acc0 c n (Nat.lt_of_succ_lt hn))

/-- The sum the body at position `n` adds onto: the zero block where k = 0, the sum so far elsewhere. -/
def base0 (c : Dev nD) (n : ℕ) (hn : n < cfg0.N) : Vec F S1024x128 .f32 :=
  if n % 4 = 0 then k0_pay1 else acc0 V c (n - 1) (Nat.lt_of_le_of_lt (Nat.sub_le _ _) hn)

theorem acc0_eq (c : Dev nD) (t : Fin cfg0.N) :
    acc0 V c t.val t.isLt = step0 (grid0.coords t) (blk0 V c 0 t) (blk0 V c 1 t) (base0 V c t.val t.isLt) := by
  obtain ⟨n, hn⟩ := t
  cases n with
  | zero => rfl
  | succ n => rfl

/-! ## The invariant between points -/

/-- Before position `n`: at the region's entry the class invariant (the accumulator at anything); afterwards the
    accumulator at the running sum the point before left, the core's other scoped buffers and the generator register
    untouched. -/
def Inv0 (c : Dev nD) : (n : ℕ) → n ≤ cfg0.N → sProp 𝕄
  | 0, _ => Pipeline.ΦA spec0 c
  | n + 1, hn => iprop(iprop(owns (c : Thread nD τ) accM0 fullShare (acc0 V c n hn) ∗ others0 (F := F) c) ∗ (∃ r, prngReg c r))

theorem Inv0_zero (c : Dev nD) (n : ℕ) (h : n ≤ cfg0.N) (hz : n = 0) : Inv0 V c n h = Pipeline.ΦA spec0 c := by
  subst hz; rfl
theorem Inv0_succ (c : Dev nD) (n : ℕ) (hn : n < cfg0.N) :
    Inv0 V c (n + 1) hn = iprop(iprop(owns (c : Thread nD τ) accM0 fullShare (acc0 V c n hn) ∗ others0 (F := F) c) ∗ (∃ r, prngReg c r)) := rfl
theorem Inv0_pos (c : Dev nD) (n : ℕ) (h : n ≤ cfg0.N) (hz : n ≠ 0) :
    Inv0 V c n h = iprop(iprop(owns (c : Thread nD τ) accM0 fullShare (acc0 V c (n - 1) (by omega)) ∗ others0 (F := F) c) ∗ (∃ r, prngReg c r)) := by
  cases n with
  | zero => exact absurd rfl hz
  | succ n => rfl

/-! ## The proof data -/

/-- Region 0's proof data on core `c`: the arrays as the region finds them; after the body each input's buffer at its
    block, the output block's buffer at the running sum (it is read only where k = 3, where the sum is complete). -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => acc0 V c t.val t.isLt
  Φ t := Inv0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = acc0 V c t.val t.isLt := by dsimp only [dat0]
theorem found0_0 (c : Dev nD) (t : Fin cfg0.N) (d) : (dat0 V c).before 0 t d = blk0 V c 0 t :=
  holds0_0 V (dat0 V c) (A_eq0 V c 0) (after0_0 V c) t d
theorem found0_1 (c : Dev nD) (t : Fin cfg0.N) (d) : (dat0 V c).before 1 t d = blk0 V c 1 t :=
  holds0_1 V (dat0 V c) (A_eq0 V c 1) (after0_1 V c) t d
theorem Phi0_start (c : Dev nD) (t : Fin cfg0.N) : (dat0 V c).Φ t.castSucc = Inv0 V c t.val (Nat.le_of_lt t.isLt) := by
  dsimp only [dat0]; simp only [Fin.coe_castSucc]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- From the accumulator at ANY contents `prev` that agree with the running sum where the point adds onto it, the body
    at point `t` re-establishes everything: one application of the body's triple. -/
theorem point0 (c : Dev nD) (t : Fin cfg0.N) (prev : Vec F S1024x128 .f32)
    (hprev : ¬t.val % 4 = 0 → prev = acc0 V c (t.val - 1) (Nat.lt_of_le_of_lt (Nat.sub_le _ _) t.isLt)) (d2) :
    iprop(iprop(iprop(owns (c : Thread nD τ) accM0 fullShare prev ∗ others0 (F := F) c) ∗ (∃ r, prngReg c r)) ∗ (dat0 V c).owesAt () t.castSucc
      ∗ owns (c : Thread nD τ) (ms0_0 t) fullShare (blk0 V c 0 t)
      ∗ owns (c : Thread nD τ) (ms0_1 t) fullShare (blk0 V c 1 t)
      ∗ owns (c : Thread nD τ) (ms0_2 t) fullShare ((dat0 V c).before 2 t d2))
    ⊢ wp frame (wpE (defs₀ (F := F)) Variants.none c none) Set.univ (bodyAt0 t) (fun _ => bodyPost0 V c t) := by
  unfold bodyPost0 bodyAt0
  rw [show (dat0 V c).owesAt () t.succ = (dat0 V c).owesAt () t.castSucc from rfl]
  rw [show (dat0 V c).Φ t.succ = Inv0 V c (t.val + 1) t.isLt from rfl, Inv0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  have hbase : base0 V c t.val t.isLt = (if t.val % 4 = 0 then k0_pay1 else prev) := by
    unfold base0; split
    · rfl
    · rename_i h; exact (hprev h).symm
  by_cases hl : t.val % 4 = 3
  · rw [show (dat0 V c).leavesExact 2 t = owns (c : Thread nD τ) (ms0_2 t) fullShare ((dat0 V c).after 2 t) from by
      unfold Dat.leavesExact; rw [live0_2 t ((isLast0_iff t).mpr hl)], after0_2, acc0_eq V c t]
    iintro ⟨⟨⟨HS, Hoth⟩, Hg⟩, Ho, H0, H1, H2⟩
    iapply (body0 c (grid0.coords t) _ _ _ _ _ _ _ _ (blk0 V c 0 t) (blk0 V c 1 t) ((dat0 V c).before 2 t d2) prev (base0 V c t.val t.isLt)
      (step0 (grid0.coords t) (blk0 V c 0 t) (blk0 V c 1 t) (base0 V c t.val t.isLt))
      (fun h => by rw [hbase, if_pos ((isFirst0_iff t).mp h)]) (fun h => by rw [hbase, if_neg (fun h' => h ((isFirst0_iff t).mpr h'))])
      (fun _ => rfl) (fun h => absurd ((isLast0_iff t).mpr hl) h) Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat0 V c) 2 t (idle0_2 t (fun h => hl ((isLast0_iff t).mp h))) (keep0_2 t (fun h => hl ((isLast0_iff t).mp h))), acc0_eq V c t]
    iintro ⟨⟨⟨HS, Hoth⟩, Hg⟩, Ho, H0, H1, H2⟩
    iapply (body0 c (grid0.coords t) _ _ _ _ _ _ _ _ (blk0 V c 0 t) (blk0 V c 1 t) ((dat0 V c).before 2 t d2) prev (base0 V c t.val t.isLt)
      ((dat0 V c).before 2 t d2)
      (fun h => by rw [hbase, if_pos ((isFirst0_iff t).mp h)]) (fun h => by rw [hbase, if_neg (fun h' => h ((isFirst0_iff t).mpr h'))])
      (fun h => absurd ((isLast0_iff t).mp h) hl) (fun _ => rfl) Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2

theorem sound_body0 (c : Dev nD) (t : Fin cfg0.N) :
    bodyPre0 V c t ⊢ wp frame (wpE (defs₀ (F := F)) Variants.none c none) Set.univ (bodyAt0 t) (fun _ => bodyPost0 V c t) := by
  unfold bodyPre0
  simp only [found0_0, found0_1]
  by_cases hz : t.val = 0
  · rw [Phi0_start V c t, Inv0_zero V c _ _ hz, PhiA0_eq]
    iintro ⟨⟨⟨⟨%d, HS⟩, Hoth⟩, Hg⟩, Ho, ⟨%d0, H0⟩, ⟨%d1, H1⟩, ⟨%d2, H2⟩⟩
    iapply (point0 V c t d (fun h => absurd (by rw [hz]) h) d2)
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Phi0_start V c t, Inv0_pos V c _ _ hz]
    iintro ⟨⟨⟨HS, Hoth⟩, Hg⟩, Ho, ⟨%d0, H0⟩, ⟨%d1, H1⟩, ⟨%d2, H2⟩⟩
    iapply (point0 V c t _ (fun _ => rfl) d2)
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-! ## Into the region and out of it -/

theorem hin0 (c : Dev nD) : (Pipeline.ΦA spec0 c : sProp 𝕄) ⊢ (dat0 V c).Φ 0 := by
  rw [show (dat0 V c).Φ 0 = Inv0 V c 0 (Nat.zero_le _) from rfl, Inv0_zero V c 0 _ rfl]
  try exact Idealize.SL.BI.Entails.refl _

/-- After the last point the invariant gives the class invariant back: the running sum's name is forgotten. -/
theorem hout0 (c : Dev nD) : (dat0 V c).Φ (Fin.last cfg0.N) ⊢ (Pipeline.ΦA spec0 c : sProp 𝕄) := by
  rw [show (dat0 V c).Φ (Fin.last cfg0.N) = Inv0 V c (Fin.last cfg0.N).val (Nat.le_of_lt_succ (Fin.last cfg0.N).isLt) from rfl,
    Inv0_pos V c _ _ (by rw [Fin.val_last]; have : cfg0.N = 32 := N_0; omega), PhiA0_eq]
  iintro ⟨⟨HS, Hoth⟩, Hg⟩
  isplitl [HS Hoth]
  · isplitl [HS]
    · iexists _; iexact HS
    iexact Hoth
  iexact Hg

end Cert.Kernel.Hand

end
-- ==== Proof.K.R1Base.lean ====
/-
  Region 1 (out = (x·W0ᵀ + T1·W1ᵀ) + (2·(L·T1) − x)·W2ᵀ): the blocks its windows stage, the two conditions of its
  body decided over the 8×4 grid (the accumulator is reset where k = 0, the output block is stored where k = 3),
  where its output window is idle, and the region invariant spelt with the accumulator scratch set apart.
-/
import proofs.«175496_j70763881168941_2_alg».proof.Proof.Gen.Kernel.Launch
import proofs.«175496_j70763881168941_2_alg».proof.Proof.Gen.Kernel.Skeleton
import proofs.«175496_j70763881168941_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of `L` (window 0) sits in its staging buffer at every point, fetched there or not. -/
theorem holds1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The whole of `T1` (window 1, fetched once) sits in its staging buffer at every point. -/
theorem holds1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The block of `x` (window 2, fetched where k = 0 and kept elsewhere) sits in its staging buffer at every point. -/
theorem holds1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The first weight matrix (window 3, fetched once) sits in its staging buffer at every point. -/
theorem holds1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The second weight matrix (window 4, fetched once) sits in its staging buffer at every point. -/
theorem holds1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- The third weight matrix (window 5, fetched once) sits in its staging buffer at every point. -/
theorem holds1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## The body's two conditions over the grid -/

/-- "k = 0": the accumulator is reset. -/
abbrev isFirst1 (i : grid1.Coords) : Prop := (Scalar.cmpi .ne (Scalar.extui (Scalar.cmpi .eq (BitVec.ofNat 32 (i 1).val) 0#32)) 0#32) = 1#1
theorem isFirst1_iff : ∀ t : Fin cfg1.N, isFirst1 (grid1.coords t) ↔ t.val % 4 = 0 :=
  (by decide +kernel : ∀ t : Fin grid1.N, isFirst1 (grid1.coords t) ↔ t.val % 4 = 0)

/-- "k = 3": the output block is computed from the accumulated rows and stored. -/
abbrev isLast1 (i : grid1.Coords) : Prop := k1_cond2 i = 1#1
theorem isLast1_iff : ∀ t : Fin cfg1.N, isLast1 (grid1.coords t) ↔ t.val % 4 = 3 :=
  (by decide +kernel : ∀ t : Fin grid1.N, isLast1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
/-- Where k ≠ 3 the output window is idle and is not written back. -/
theorem idle1_6 : ∀ t : Fin cfg1.N, ¬isLast1 (grid1.coords t) → cfg1.idle 6 (grid1.coords t) = true := by decide +kernel
theorem keep1_6 : ∀ t : Fin cfg1.N, ¬isLast1 (grid1.coords t) → (cfg1.win 6).flush t = false := by decide +kernel
/-- Where k = 3 it is live. -/
theorem live1_6 : ∀ t : Fin cfg1.N, isLast1 (grid1.coords t) → cfg1.idle 6 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a whole scoped buffer of the kernel's own. -/
abbrev accM1 : Memref sig .tc .vmem S1024x128 .f32 := Memref.whole cc1_scratch0

/-- The rectangles the body reads and writes through. -/
abbrev rL1 : Rect S1024x2048 := Rect.unit (s := S1024x2048) ![0, 0] S1024x2048.size inb_S1024x2048_S1024x2048_0_0
abbrev rO1 : Rect S1024x128 := Rect.unit (s := S1024x128) ![0, 0] S1024x128.size inb_S1024x128_S1024x128_0_0
abbrev rW1 : Rect S128x128 := Rect.unit (s := S128x128) ![0, 0] S128x128.size inb_S128x128_S128x128_0_0
/-- The 2048 rows of `T1` the tile of `L` meets. -/
abbrev rX1 (i : grid1.Coords) : Rect S8192x128 := Rect.unit (s := S8192x128) (k1_off1 i) S2048x128.size (k1_off1_inb i)
/-- The 1024 rows of `T1` of the output block (read where k = 3). -/
abbrev rT1 (i : grid1.Coords) (hl : k1_cond2 i = 1#1) : Rect S8192x128 := Rect.unit (s := S8192x128) (k1_off2 i) S1024x128.size (k1_off2_inb i hl)

/-! ## The region invariant with the accumulator set apart -/

/-- The core's scoped buffers that are no staging buffer of this call: the first call's staging buffers and scratch,
    each whole at some contents (the body never touches them), and last the accumulator, at `P`. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ P)

/-- The class invariant is: the other scoped buffers with the accumulator at some contents, the generator register. -/
theorem PhiA1_eq (c : Dev nD) :
    (Pipeline.ΦA spec1 c : sProp 𝕄)
      = iprop(scoped1 (F := F) c iprop(∃ d, owns (c : Thread nD τ) accM1 fullShare d) ∗ (∃ r, prngReg c r)) := by
  unfold Pipeline.ΦA scoped1; rw [scopedRest1_eq]; simp only [accM1, owns_whole]; try rfl

end Cert.Kernel.Hand

end
-- ==== Proof.K.R1Step.lean ====
/-
  Region 1's body in values: what it leaves in the accumulator (the incoming sum plus the tile of L times the rows of
  T1 it meets) and, where k = 3, in the output block.
-/
import proofs.«175496_j70763881168941_2_alg».proof.Proof.K.R1Base
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1 : (![0, 0] : Fin 2 → Nat) = fun _ => 0 := funext fun a => by fin_cases a <;> rfl

/-- The accumulator after the body: the incoming sum `pf` plus the tile of `L` times the rows of `T1` it meets. -/
abbrev step1 (i : grid1.Coords) (x0 : Vec F S1024x2048 .f32) (x1 : Vec F S8192x128 .f32) (pf : Vec F S1024x128 .f32) : Vec F S1024x128 .f32 :=
  k1_pay2 (View.ld x0 rL1) (View.ld x1 (rX1 i)) pf

/-- The output block where k = 3: from the block's 1024 rows of `T1`, the block `x2` of `x`, the finished sum `acc` (the
    block's rows of L·T1) and the three weight matrices:  (x2·x3 + T1rows·x4) + (2·acc − x2)·x5. -/
abbrev fin1 (i : grid1.Coords) (hl : isLast1 i) (x1 : Vec F S8192x128 .f32) (x2 : Vec F S1024x128 .f32) (x3 x4 x5 : Vec F S128x128 .f32) (acc : Vec F S1024x128 .f32) : Vec F S1024x128 .f32 :=
  k1_pay3 (View.ld x1 (rT1 i hl)) x2 acc x3 x4 x5

end Cert.Kernel.Hand

end
-- ==== Proof.K.R1BodyTT.lean ====
/-
  Region 1's body at a grid point where k = 0 and k = 3: the accumulator is reset to the zero block, then receives the
  tile of L times the rows of T1 it meets, and the output block is computed from the finished sum and stored.
-/
import proofs.«175496_j70763881168941_2_alg».proof.Proof.K.R1Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body1_TT (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1024x128 .f32) (harg8 : arg8.IsWhole) (arg9 : Memref sig .tc .vmem S1024x128 .f32) (harg9 : arg9.IsWhole)
    (hf : isFirst1 i) (hl : isLast1 i)
    (x0 : Vec F S1024x2048 .f32) (x1 : Vec F S8192x128 .f32) (x2 : Vec F S1024x128 .f32) (x3 x4 x5 : Vec F S128x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin1 i hl x1 x2 x3 x4 x5 (step1 i x0 x1 (k1_pay1 (F := F))))
            ∗ owns (c : Thread nD τ) arg9 fullShare (step1 i x0 x1 (k1_pay1 (F := F)))) -∗ K ⟨⟩))
      ⊢ wp frame (wpE (defs₀ (F := F)) Variants.none c none) E (cc1__matmul2_combine_kernel i arg2 harg2 arg3 harg3 arg4 harg4 arg5 harg5 arg6 harg6 arg7 harg7 arg8 harg8 arg9 harg9) K := by
  simp only [cc1__matmul2_combine_kernel_eq_skeleton]; unfold cc1__matmul2_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words
    rw [View.read_writes_eq_canon _ _ _ (fun y => ⟨_, List.mem_cons_self, View.mem_set_unit_zero hz2_1 inb_S1024x128_S1024x128_0_0 y⟩), View.canon_cons_unit_zero (S := S1024x128) hz2_1,
      View.readCov_eq_canon_ld _ _ _ (fun y => ⟨_, List.mem_cons_self, View.mem_set_unit_zero hz2_1 inb_S1024x128_S1024x128_0_0 y⟩), View.canon_cons_unit_zero (S := S1024x128) hz2_1, View.ld_unit_zero (S := S1024x128) hz2_1]
    simp only [View.readCov_unit_zero (S := S1024x128) _ hz2_1, View.readAt_eq_ld, harg2.read_unread, harg3.read_unread, harg4.read_unread, harg5.read_unread, harg6.read_unread, harg7.read_unread, harg9.read_unread, View.ld_unit_zero (S := S1024x128) hz2_1, View.ld_unit_zero (S := S128x128) hz2_1]
    rfl
  iexists _; isplitr
  swap; · iexact HS
  ipureintro
  sl_unfold_words
  rw [View.read_writes_eq_canon _ _ _ (fun y => ⟨_, List.mem_cons_self, View.mem_set_unit_zero hz2_1 inb_S1024x128_S1024x128_0_0 y⟩), View.canon_cons_unit_zero (S := S1024x128) hz2_1]
  simp only [View.readCov_unit_zero (S := S1024x128) _ hz2_1, View.readAt_eq_ld, harg2.read_unread, harg3.read_unread, harg4.read_unread, harg5.read_unread, harg6.read_unread, harg7.read_unread, harg9.read_unread, View.ld_unit_zero (S := S1024x128) hz2_1, View.ld_unit_zero (S := S128x128) hz2_1]
  rfl

end Cert.Kernel.Hand

end
-- ==== Proof.K.R1BodyTF.lean ====
/-
  Region 1's body at a grid point where k = 0 and k ≠ 3: the accumulator is reset to the zero block, then receives the
  tile of L times the rows of T1 it meets; the output block's buffer is left as found.
-/
import proofs.«175496_j70763881168941_2_alg».proof.Proof.K.R1Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body1_TF (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1024x128 .f32) (harg8 : arg8.IsWhole) (arg9 : Memref sig .tc .vmem S1024x128 .f32) (harg9 : arg9.IsWhole)
    (hf : isFirst1 i) (hl : ¬isLast1 i)
    (x0 : Vec F S1024x2048 .f32) (x1 : Vec F S8192x128 .f32) (x2 : Vec F S1024x128 .f32) (x3 x4 x5 : Vec F S128x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi
            ∗ owns (c : Thread nD τ) arg9 fullShare (step1 i x0 x1 (k1_pay1 (F := F)))) -∗ K ⟨⟩))
      ⊢ wp frame (wpE (defs₀ (F := F)) Variants.none c none) E (cc1__matmul2_combine_kernel i arg2 harg2 arg3 harg3 arg4 harg4 arg5 harg5 arg6 harg6 arg7 harg7 arg8 harg8 arg9 harg9) K := by
  simp only [cc1__matmul2_combine_kernel_eq_skeleton]; unfold cc1__matmul2_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    exact harg8.read_unread _
  iexists _; isplitr
  swap; · iexact HS
  ipureintro
  sl_unfold_words
  rw [View.read_writes_eq_canon _ _ _ (fun y => ⟨_, List.mem_cons_self, View.mem_set_unit_zero hz2_1 inb_S1024x128_S1024x128_0_0 y⟩), View.canon_cons_unit_zero (S := S1024x128) hz2_1]
  simp only [View.readCov_unit_zero (S := S1024x128) _ hz2_1, View.readAt_eq_ld, harg2.read_unread, harg3.read_unread, harg4.read_unread, harg5.read_unread, harg6.read_unread, harg7.read_unread, harg9.read_unread, View.ld_unit_zero (S := S1024x128) hz2_1, View.ld_unit_zero (S := S128x128) hz2_1]
  rfl

end Cert.Kernel.Hand

end
-- ==== Proof.K.R1BodyFT.lean ====
/-
  Region 1's body at a grid point where k ≠ 0 and k = 3: the accumulator receives the
  tile of L times the rows of T1 it meets, and the output block is computed from the finished sum and stored.
-/
import proofs.«175496_j70763881168941_2_alg».proof.Proof.K.R1Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body1_FT (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1024x128 .f32) (harg8 : arg8.IsWhole) (arg9 : Memref sig .tc .vmem S1024x128 .f32) (harg9 : arg9.IsWhole)
    (hf : ¬isFirst1 i) (hl : isLast1 i)
    (x0 : Vec F S1024x2048 .f32) (x1 : Vec F S8192x128 .f32) (x2 : Vec F S1024x128 .f32) (x3 x4 x5 : Vec F S128x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin1 i hl x1 x2 x3 x4 x5 (step1 i x0 x1 prev))
            ∗ owns (c : Thread nD τ) arg9 fullShare (step1 i x0 x1 prev)) -∗ K ⟨⟩))
      ⊢ wp frame (wpE (defs₀ (F := F)) Variants.none c none) E (cc1__matmul2_combine_kernel i arg2 harg2 arg3 harg3 arg4 harg4 arg5 harg5 arg6 harg6 arg7 harg7 arg8 harg8 arg9 harg9) K := by
  simp only [cc1__matmul2_combine_kernel_eq_skeleton]; unfold cc1__matmul2_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words
    rw [View.read_writes_eq_canon _ _ _ (fun y => ⟨_, List.mem_cons_self, View.mem_set_unit_zero hz2_1 inb_S1024x128_S1024x128_0_0 y⟩), View.canon_cons_unit_zero (S := S1024x128) hz2_1,
      View.readCov_eq_canon_ld _ _ _ (fun y => ⟨_, List.mem_cons_self, View.mem_set_unit_zero hz2_1 inb_S1024x128_S1024x128_0_0 y⟩), View.canon_cons_unit_zero (S := S1024x128) hz2_1, View.ld_unit_zero (S := S1024x128) hz2_1]
    simp only [View.readCov_unit_zero (S := S1024x128) _ hz2_1, View.readAt_eq_ld, harg2.read_unread, harg3.read_unread, harg4.read_unread, harg5.read_unread, harg6.read_unread, harg7.read_unread, harg9.read_unread, View.ld_unit_zero (S := S1024x128) hz2_1, View.ld_unit_zero (S := S128x128) hz2_1]
    rfl
  iexists _; isplitr
  swap; · iexact HS
  ipureintro
  sl_unfold_words
  rw [View.read_writes_eq_canon _ _ _ (fun y => ⟨_, List.mem_cons_self, View.mem_set_unit_zero hz2_1 inb_S1024x128_S1024x128_0_0 y⟩), View.canon_cons_unit_zero (S := S1024x128) hz2_1]
  simp only [View.readCov_unit_zero (S := S1024x128) _ hz2_1, View.readAt_eq_ld, harg2.read_unread, harg3.read_unread, harg4.read_unread, harg5.read_unread, harg6.read_unread, harg7.read_unread, harg9.read_unread, View.ld_unit_zero (S := S1024x128) hz2_1, View.ld_unit_zero (S := S128x128) hz2_1]
  rfl

end Cert.Kernel.Hand

end
-- ==== Proof.K.R1BodyFF.lean ====
/-
  Region 1's body at a grid point where k ≠ 0 and k ≠ 3: the accumulator receives the
  tile of L times the rows of T1 it meets; the output block's buffer is left as found.
-/
import proofs.«175496_j70763881168941_2_alg».proof.Proof.K.R1Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body1_FF (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1024x128 .f32) (harg8 : arg8.IsWhole) (arg9 : Memref sig .tc .vmem S1024x128 .f32) (harg9 : arg9.IsWhole)
    (hf : ¬isFirst1 i) (hl : ¬isLast1 i)
    (x0 : Vec F S1024x2048 .f32) (x1 : Vec F S8192x128 .f32) (x2 : Vec F S1024x128 .f32) (x3 x4 x5 : Vec F S128x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi
            ∗ owns (c : Thread nD τ) arg9 fullShare (step1 i x0 x1 prev)) -∗ K ⟨⟩))
      ⊢ wp frame (wpE (defs₀ (F := F)) Variants.none c none) E (cc1__matmul2_combine_kernel i arg2 harg2 arg3 harg3 arg4 harg4 arg5 harg5 arg6 harg6 arg7 harg7 arg8 harg8 arg9 harg9) K := by
  simp only [cc1__matmul2_combine_kernel_eq_skeleton]; unfold cc1__matmul2_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    exact harg8.read_unread _
  iexists _; isplitr
  swap; · iexact HS
  ipureintro
  sl_unfold_words
  rw [View.read_writes_eq_canon _ _ _ (fun y => ⟨_, List.mem_cons_self, View.mem_set_unit_zero hz2_1 inb_S1024x128_S1024x128_0_0 y⟩), View.canon_cons_unit_zero (S := S1024x128) hz2_1]
  simp only [View.readCov_unit_zero (S := S1024x128) _ hz2_1, View.readAt_eq_ld, harg2.read_unread, harg3.read_unread, harg4.read_unread, harg5.read_unread, harg6.read_unread, harg7.read_unread, harg9.read_unread, View.ld_unit_zero (S := S1024x128) hz2_1, View.ld_unit_zero (S := S128x128) hz2_1]
  rfl

end Cert.Kernel.Hand

end
-- ==== Proof.K.R1Body.lean ====
/-
  Region 1's body at one grid point, as one triple for every point: from the tile of L, the whole of T1, the block of x,
  the three weight matrices, the output block's buffer and the accumulator at `prev`, it leaves the accumulator at
  pf + tile · rows  (pf the zero block where k = 0, `prev` elsewhere) and, where k = 3, the output block computed from
  that finished sum in the output block's buffer.
-/
import proofs.«175496_j70763881168941_2_alg».proof.Proof.K.R1BodyTT
import proofs.«175496_j70763881168941_2_alg».proof.Proof.K.R1BodyTF
import proofs.«175496_j70763881168941_2_alg».proof.Proof.K.R1BodyFT
import proofs.«175496_j70763881168941_2_alg».proof.Proof.K.R1BodyFF
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem body1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1024x128 .f32) (harg8 : arg8.IsWhole) (arg9 : Memref sig .tc .vmem S1024x128 .f32) (harg9 : arg9.IsWhole)
    (x0 : Vec F S1024x2048 .f32) (x1 : Vec F S8192x128 .f32) (x2 : Vec F S1024x128 .f32) (x3 x4 x5 : Vec F S128x128 .f32) (xi prev pf o : Vec F S1024x128 .f32)
    (hpf1 : isFirst1 i → pf = k1_pay1) (hpf2 : ¬isFirst1 i → pf = prev)
    (ho1 : ∀ hl : isLast1 i, o = fin1 i hl x1 x2 x3 x4 x5 (step1 i x0 x1 pf)) (ho2 : ¬isLast1 i → o = xi)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o
            ∗ owns (c : Thread nD τ) arg9 fullShare (step1 i x0 x1 pf)) -∗ K ⟨⟩))
      ⊢ wp frame (wpE (defs₀ (F := F)) Variants.none c none) E (cc1__matmul2_combine_kernel i arg2 harg2 arg3 harg3 arg4 harg4 arg5 harg5 arg6 harg6 arg7 harg7 arg8 harg8 arg9 harg9) K := by
  by_cases hf : isFirst1 i
  · obtain rfl := hpf1 hf
    by_cases hl : isLast1 i
    · obtain rfl := ho1 hl
      exact body1_TT c i arg2 harg2 arg3 harg3 arg4 harg4 arg5 harg5 arg6 harg6 arg7 harg7 arg8 harg8 arg9 harg9 hf hl x0 x1 x2 x3 x4 x5 xi prev E K
    · obtain rfl := ho2 hl
      exact body1_TF c i arg2 harg2 arg3 harg3 arg4 harg4 arg5 harg5 arg6 harg6 arg7 harg7 arg8 harg8 arg9 harg9 hf hl x0 x1 x2 x3 x4 x5 _ prev E K
  · obtain rfl := hpf2 hf
    by_cases hl : isLast1 i
    · obtain rfl := ho1 hl
      exact body1_FT c i arg2 harg2 arg3 harg3 arg4 harg4 arg5 harg5 arg6 harg6 arg7 harg7 arg8 harg8 arg9 harg9 hf hl x0 x1 x2 x3 x4 x5 xi _ E K
    · obtain rfl := ho2 hl
      exact body1_FF c i arg2 harg2 arg3 harg3 arg4 harg4 arg5 harg5 arg6 harg6 arg7 harg7 arg8 harg8 arg9 harg9 hf hl x0 x1 x2 x3 x4 x5 _ _ E K

end Cert.Kernel.Hand

end
-- ==== Proof.K.R1.lean ====
/-
  Region 1 (the output from T1, x and the weights) as a pipeline: the running sum its accumulator holds after each grid
  point, the output block where k = 3, the region invariant that carries the sum from one point to the next, the proof
  data, and the body obligation at every point.
-/
import proofs.«175496_j70763881168941_2_alg».proof.Proof.K.R1Body
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum -/

/-- What the accumulator holds after the body at position `n` of the grid's row-major order (n = 4a + k): the sum over
    k' ≤ k of the tile (a, k') of `L` times rows 2048k'.. of `T1`, added in order onto the zero block. -/
def acc1 (c : Dev nD) : (n : ℕ) → n < cfg1.N → Vec F S1024x128 .f32
  | 0, hn => step1 (grid1.coords ⟨0, hn⟩) (blk1 V c 0 ⟨0, hn⟩) (blk1 V c 1 ⟨0, hn⟩) k1_pay1
  | n + 1, hn => step1 (grid1.coords ⟨n + 1, hn⟩) (blk1 V c 0 ⟨n + 1, hn⟩) (blk1 V c 1 ⟨n + 1, hn⟩)
      (if (n + 1) % 4 = 0 then k1_pay1 else acc1 c n (Nat.lt_of_succ_lt hn))

/-- The sum the body at position `n` adds onto: the zero block where k = 0, the sum so far elsewhere. -/
def base1 (c : Dev nD) (n : ℕ) (hn : n < cfg1.N) : Vec F S1024x128 .f32 :=
  if n % 4 = 0 then k1_pay1 else acc1 V c (n - 1) (Nat.lt_of_le_of_lt (Nat.sub_le _ _) hn)

theorem acc1_eq (c : Dev nD) (t : Fin cfg1.N) :
    acc1 V c t.val t.isLt = step1 (grid1.coords t) (blk1 V c 0 t) (blk1 V c 1 t) (base1 V c t.val t.isLt) := by
  obtain ⟨n, hn⟩ := t
  cases n with
  | zero => rfl
  | succ n => rfl

/-- What the output block's buffer holds after the body at point `t`: where k = 3 the output block computed from the
    finished sum; elsewhere it is not named by anything (the running sum stands in). -/
def res1 (c : Dev nD) (t : Fin cfg1.N) : Vec F S1024x128 .f32 :=
  if h : t.val % 4 = 3 then
    fin1 (grid1.coords t) ((isLast1_iff t).mpr h) (blk1 V c 1 t) (blk1 V c 2 t) (blk1 V c 3 t) (blk1 V c 4 t) (blk1 V c 5 t) (acc1 V c t.val t.isLt)
  else acc1 V c t.val t.isLt

/-- At a point with k = 3: the output block, explicitly. -/
theorem res1_last (c : Dev nD) (t : Fin cfg1.N) (h : t.val % 4 = 3) :
    res1 V c t = fin1 (grid1.coords t) ((isLast1_iff t).mpr h) (blk1 V c 1 t) (blk1 V c 2 t) (blk1 V c 3 t) (blk1 V c 4 t) (blk1 V c 5 t) (acc1 V c t.val t.isLt) := by
  unfold res1; exact dif_pos h

/-! ## The invariant between points -/

/-- Before position `n`: at the region's entry the class invariant (the accumulator at anything); afterwards the
    accumulator at the running sum the point before left, the core's other scoped buffers and the generator register
    untouched. -/
def Inv1 (c : Dev nD) : (n : ℕ) → n ≤ cfg1.N → sProp 𝕄
  | 0, _ => Pipeline.ΦA spec1 c
  | n + 1, hn => iprop(scoped1 (F := F) c (owns (c : Thread nD τ) accM1 fullShare (acc1 V c n hn)) ∗ (∃ r, prngReg c r))

theorem Inv1_zero (c : Dev nD) (n : ℕ) (h : n ≤ cfg1.N) (hz : n = 0) : Inv1 V c n h = Pipeline.ΦA spec1 c := by
  subst hz; rfl
theorem Inv1_succ (c : Dev nD) (n : ℕ) (hn : n < cfg1.N) :
    Inv1 V c (n + 1) hn = iprop(scoped1 (F := F) c (owns (c : Thread nD τ) accM1 fullShare (acc1 V c n hn)) ∗ (∃ r, prngReg c r)) := rfl
theorem Inv1_pos (c : Dev nD) (n : ℕ) (h : n ≤ cfg1.N) (hz : n ≠ 0) :
    Inv1 V c n h = iprop(scoped1 (F := F) c (owns (c : Thread nD τ) accM1 fullShare (acc1 V c (n - 1) (by omega))) ∗ (∃ r, prngReg c r)) := by
  cases n with
  | zero => exact absurd rfl hz
  | succ n => rfl

/-! ## The proof data -/

/-- Region 1's proof data on core `c`: the arrays as the region finds them; after the body each input's buffer at its
    block, the output block's buffer at `res1` (it is written back only where k = 3, where it is the output block). -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => res1 V c t
  Φ t := Inv1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem q_eq1 (c : Dev nD) (w : Fin cfg1.W) : (dat1 V c).q w = fullShare := rfl
theorem owed_eq1 (c : Dev nD) (t : Fin (cfg1.N + 1)) : (dat1 V c).owed t = 0 := rfl
theorem recorded_eq1 (c : Dev nD) (t : Fin (cfg1.N + 1)) : (dat1 V c).recorded t = Set.univ := rfl
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = res1 V c t := by dsimp only [dat1]
theorem found1_0 (c : Dev nD) (t : Fin cfg1.N) (d) : (dat1 V c).before 0 t d = blk1 V c 0 t :=
  holds1_0 V (dat1 V c) (A_eq1 V c 0) (after1_0 V c) t d
theorem found1_1 (c : Dev nD) (t : Fin cfg1.N) (d) : (dat1 V c).before 1 t d = blk1 V c 1 t :=
  holds1_1 V (dat1 V c) (A_eq1 V c 1) (after1_1 V c) t d
theorem found1_2 (c : Dev nD) (t : Fin cfg1.N) (d) : (dat1 V c).before 2 t d = blk1 V c 2 t :=
  holds1_2 V (dat1 V c) (A_eq1 V c 2) (after1_2 V c) t d
theorem found1_3 (c : Dev nD) (t : Fin cfg1.N) (d) : (dat1 V c).before 3 t d = blk1 V c 3 t :=
  holds1_3 V (dat1 V c) (A_eq1 V c 3) (after1_3 V c) t d
theorem found1_4 (c : Dev nD) (t : Fin cfg1.N) (d) : (dat1 V c).before 4 t d = blk1 V c 4 t :=
  holds1_4 V (dat1 V c) (A_eq1 V c 4) (after1_4 V c) t d
theorem found1_5 (c : Dev nD) (t : Fin cfg1.N) (d) : (dat1 V c).before 5 t d = blk1 V c 5 t :=
  holds1_5 V (dat1 V c) (A_eq1 V c 5) (after1_5 V c) t d
theorem Phi1_start (c : Dev nD) (t : Fin cfg1.N) : (dat1 V c).Φ t.castSucc = Inv1 V c t.val (Nat.le_of_lt t.isLt) := by
  dsimp only [dat1]; simp only [Fin.coe_castSucc]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 1600000 in
/-- From the accumulator at ANY contents `prev` that agree with the running sum where the point adds onto it, the body
    at point `t` re-establishes everything: one application of the body's triple. -/
theorem point1 (c : Dev nD) (t : Fin cfg1.N) (prev : Vec F S1024x128 .f32)
    (hprev : ¬t.val % 4 = 0 → prev = acc1 V c (t.val - 1) (Nat.lt_of_le_of_lt (Nat.sub_le _ _) t.isLt)) (d6) :
    iprop(iprop(scoped1 (F := F) c (owns (c : Thread nD τ) accM1 fullShare prev) ∗ (∃ r, prngReg c r)) ∗ (dat1 V c).owesAt () t.castSucc
      ∗ owns (c : Thread nD τ) (ms1_0 t) fullShare (blk1 V c 0 t)
      ∗ owns (c : Thread nD τ) (ms1_1 t) fullShare (blk1 V c 1 t)
      ∗ owns (c : Thread nD τ) (ms1_2 t) fullShare (blk1 V c 2 t)
      ∗ owns (c : Thread nD τ) (ms1_3 t) fullShare (blk1 V c 3 t)
      ∗ owns (c : Thread nD τ) (ms1_4 t) fullShare (blk1 V c 4 t)
      ∗ owns (c : Thread nD τ) (ms1_5 t) fullShare (blk1 V c 5 t)
      ∗ owns (c : Thread nD τ) (ms1_6 t) fullShare ((dat1 V c).before 6 t d6))
    ⊢ wp frame (wpE (defs₀ (F := F)) Variants.none c none) Set.univ (bodyAt1 t) (fun _ => bodyPost1 V c t) := by
  unfold bodyPost1 bodyAt1
  rw [show (dat1 V c).owesAt () t.succ = (dat1 V c).owesAt () t.castSucc from rfl]
  rw [show (dat1 V c).Φ t.succ = Inv1 V c (t.val + 1) t.isLt from rfl, Inv1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [show (dat1 V c).leavesExact 5 t = owns (c : Thread nD τ) (ms1_5 t) fullShare ((dat1 V c).after 5 t) from by
    unfold Dat.leavesExact; rw [live1_5 t], after1_5]
  have hbase : base1 V c t.val t.isLt = (if t.val % 4 = 0 then k1_pay1 else prev) := by
    unfold base1; split
    · rfl
    · rename_i h; exact (hprev h).symm
  unfold scoped1
  by_cases hl : t.val % 4 = 3
  · rw [show (dat1 V c).leavesExact 6 t = owns (c : Thread nD τ) (ms1_6 t) fullShare ((dat1 V c).after 6 t) from by
      unfold Dat.leavesExact; rw [live1_6 t ((isLast1_iff t).mpr hl)], after1_6, res1_last V c t hl, acc1_eq V c t]
    iintro ⟨⟨⟨Hb0, Hb1, Hb2, Hb3, Hb4, Hb5, HS⟩, Hg⟩, Ho, H0, H1, H2, H3, H4, H5, H6⟩
    iapply (body1 c (grid1.coords t) _ _ _ _ _ _ _ _ _ _ _ _ _ _ _ _ (blk1 V c 0 t) (blk1 V c 1 t) (blk1 V c 2 t) (blk1 V c 3 t) (blk1 V c 4 t) (blk1 V c 5 t) ((dat1 V c).before 6 t d6) prev (base1 V c t.val t.isLt)
      (fin1 (grid1.coords t) ((isLast1_iff t).mpr hl) (blk1 V c 1 t) (blk1 V c 2 t) (blk1 V c 3 t) (blk1 V c 4 t) (blk1 V c 5 t) (step1 (grid1.coords t) (blk1 V c 0 t) (blk1 V c 1 t) (base1 V c t.val t.isLt)))
      (fun h => by rw [hbase, if_pos ((isFirst1_iff t).mp h)]) (fun h => by rw [hbase, if_neg (fun h' => h ((isFirst1_iff t).mpr h'))])
      (fun _ => rfl) (fun h => absurd ((isLast1_iff t).mpr hl) h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [Hb0 Hb1 Hb2 Hb3 Hb4 Hb5 HS Hg]
    · isplitl [Hb0 Hb1 Hb2 Hb3 Hb4 Hb5 HS]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat1 V c) 6 t (idle1_6 t (fun h => hl ((isLast1_iff t).mp h))) (keep1_6 t (fun h => hl ((isLast1_iff t).mp h))), acc1_eq V c t]
    iintro ⟨⟨⟨Hb0, Hb1, Hb2, Hb3, Hb4, Hb5, HS⟩, Hg⟩, Ho, H0, H1, H2, H3, H4, H5, H6⟩
    iapply (body1 c (grid1.coords t) _ _ _ _ _ _ _ _ _ _ _ _ _ _ _ _ (blk1 V c 0 t) (blk1 V c 1 t) (blk1 V c 2 t) (blk1 V c 3 t) (blk1 V c 4 t) (blk1 V c 5 t) ((dat1 V c).before 6 t d6) prev (base1 V c t.val t.isLt)
      ((dat1 V c).before 6 t d6)
      (fun h => by rw [hbase, if_pos ((isFirst1_iff t).mp h)]) (fun h => by rw [hbase, if_neg (fun h' => h ((isFirst1_iff t).mpr h'))])
      (fun h => absurd ((isLast1_iff t).mp h) hl) (fun _ => rfl) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [Hb0 Hb1 Hb2 Hb3 Hb4 Hb5 HS Hg]
    · isplitl [Hb0 Hb1 Hb2 Hb3 Hb4 Hb5 HS]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

theorem sound_body1 (c : Dev nD) (t : Fin cfg1.N) :
    bodyPre1 V c t ⊢ wp frame (wpE (defs₀ (F := F)) Variants.none c none) Set.univ (bodyAt1 t) (fun _ => bodyPost1 V c t) := by
  unfold bodyPre1
  simp only [found1_0, found1_1, found1_2, found1_3, found1_4, found1_5]
  by_cases hz : t.val = 0
  · rw [Phi1_start V c t, Inv1_zero V c _ _ hz, PhiA1_eq]
    unfold scoped1
    iintro ⟨⟨⟨Hb0, Hb1, Hb2, Hb3, Hb4, Hb5, ⟨%d, HS⟩⟩, Hg⟩, Ho, ⟨%d0, H0⟩, ⟨%d1, H1⟩, ⟨%d2, H2⟩, ⟨%d3, H3⟩, ⟨%d4, H4⟩, ⟨%d5, H5⟩, ⟨%d6, H6⟩⟩
    iapply (point1 V c t d (fun h => absurd (by rw [hz]) h) d6)
    unfold scoped1
    isplitl [Hb0 Hb1 Hb2 Hb3 Hb4 Hb5 HS Hg]
    · isplitl [Hb0 Hb1 Hb2 Hb3 Hb4 Hb5 HS]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi1_start V c t, Inv1_pos V c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (point1 V c t _ (fun _ => rfl) d6)
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation at every point. -/
theorem body_obligation1 (c : Dev nD) : BodyObligation (dat1 (F := F) V c) (defs₀ (F := F)) Variants.none () Set.univ := fun t => by
  rw [bigSep_W1, bigSep_W1]
  exact sound_body1 V c t

/-! ## Into the region and out of it -/

theorem hin1 (c : Dev nD) : (Pipeline.ΦA spec1 c : sProp 𝕄) ⊢ (dat1 V c).Φ 0 := by
  rw [show (dat1 V c).Φ 0 = Inv1 V c 0 (Nat.zero_le _) from rfl, Inv1_zero V c 0 _ rfl]
  try exact Idealize.SL.BI.Entails.refl _

/-- After the last point the invariant gives the class invariant back: the running sum's name is forgotten. -/
theorem hout1 (c : Dev nD) : (dat1 V c).Φ (Fin.last cfg1.N) ⊢ (Pipeline.ΦA spec1 c : sProp 𝕄) := by
  rw [show (dat1 V c).Φ (Fin.last cfg1.N) = Inv1 V c (Fin.last cfg1.N).val (Nat.le_of_lt_succ (Fin.last cfg1.N).isLt) from rfl,
    Inv1_pos V c _ _ (by rw [Fin.val_last]; have : cfg1.N = 32 := N_1; omega), PhiA1_eq]
  unfold scoped1
  iintro ⟨⟨Hb0, Hb1, Hb2, Hb3, Hb4, Hb5, HS⟩, Hg⟩
  isplitl [Hb0 Hb1 Hb2 Hb3 Hb4 Hb5 HS]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexists _; iexact HS
  iexact Hg

end Cert.Kernel.Hand

end
-- ==== Proof.K.Run.lean ====
/-
  The run of the program: the first product T1 = L·x, the seven host operations that cut the weight tensor into its three
  matrices, and the second product with the combination; every unscoped buffer followed from the launch to the return,
  at any float instance.
-/
import proofs.«175496_j70763881168941_2_alg».proof.Proof.K.R0
import proofs.«175496_j70763881168941_2_alg».proof.Proof.K.R1
import proofs.«175496_j70763881168941_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the program: first product, the weights cut into three matrices, second product and combination

The program is three items in order: the first product `T1 = L·x` (region 0), seven host operations that
transpose the weight tensor and cut it into its three `128 × 128` matrices, and the second product with the
combination (region 1). This module follows every unscoped buffer through the three items, from the memory
at launch to the return, at any float instance. -/

/-! ## The buffer contents at the four boundaries -/

/-- Core `c`'s buffers at launch. -/
abbrev E0 (m : (ℓ : Loc nD τ sig) → Buf (Elt F) ℓ) (ρ : Dev nD → PrngReg) : Dev nD → Valuation τ sig (Elt F) :=
  fun c b => m ((c : Dev nD), b)
/-- The same read at the TensorCore's references: what the first product is entered from. -/
abbrev E0' (m : (ℓ : Loc nD τ sig) → Buf (Elt F) ℓ) (ρ : Dev nD → PrngReg) :
    (c : Dev nD) → (b : Ref sig .tc) → Buf (Elt F) ((c : Thread nD τ).loc b) := fun c b => E0 m ρ c b
/-- After the first product: its three arrays at what the pipeline leaves (`L` and `x` as entered, `T1`'s buffer at
    its write-backs folded), every other buffer as at launch. -/
def E1 (m : (ℓ : Loc nD τ sig) → Buf (Elt F) ℓ) (ρ : Dev nD → PrngReg) (c : Dev nD) : Valuation τ sig (Elt F) :=
  Pipeline.withArrays spec0 c (E0 m ρ c) fun w => (dat0 (E0' m ρ) c).arrAt w cfg0.N
/-- After the seven host operations on the weight tensor. -/
abbrev E2 (m : (ℓ : Loc nD τ sig) → Buf (Elt F) ℓ) (ρ : Dev nD → PrngReg) : Dev nD → Valuation τ sig (Elt F) :=
  fun c => StableHlo.after hostOps1 (E1 m ρ c)
/-- The same read at the TensorCore's references: what the second product is entered from. -/
abbrev E2' (m : (ℓ : Loc nD τ sig) → Buf (Elt F) ℓ) (ρ : Dev nD → PrngReg) :
    (c : Dev nD) → (b : Ref sig .tc) → Buf (Elt F) ((c : Thread nD τ).loc b) := fun c b => E2 m ρ c b
/-- At the return: the second region's seven arrays at what its pipeline leaves (the six inputs as entered, the
    result's buffer at its write-backs folded), every other buffer as the host operations left it. -/
def E3 (m : (ℓ : Loc nD τ sig) → Buf (Elt F) ℓ) (ρ : Dev nD → PrngReg) (c : Dev nD) : Valuation τ sig (Elt F) :=
  Pipeline.withArrays spec1 c (E2 m ρ c) fun w => (dat1 (E2' m ρ) c).arrAt w cfg1.N
/-- The same read at the TensorCore's references. -/
abbrev E1' (m : (ℓ : Loc nD τ sig) → Buf (Elt F) ℓ) (ρ : Dev nD → PrngReg) :
    (c : Dev nD) → (b : Ref sig .tc) → Buf (Elt F) ((c : Thread nD τ).loc b) := fun c b => E1 m ρ c b
abbrev E3' (m : (ℓ : Loc nD τ sig) → Buf (Elt F) ℓ) (ρ : Dev nD → PrngReg) :
    (c : Dev nD) → (b : Ref sig .tc) → Buf (Elt F) ((c : Thread nD τ).loc b) := fun c b => E3 m ρ c b

variable (m : (ℓ : Loc nD τ sig) → Buf (Elt F) ℓ) (ρ : Dev nD → PrngReg)

/-- After the first product each of its arrays holds what the pipeline leaves there, -/
theorem E1_arr (c : Dev nD) (w : Fin cfg0.W) :
    E1 m ρ c (Proc.devRef .tc (Pipeline.arrRef spec0 w)) = (dat0 (E0' m ρ) c).arrAt w cfg0.N := by
  unfold E1; exact Pipeline.withArrays_arr spec0 launch0.win.arr_inj c _ _ w
/-- and a buffer that is none of them what it held at launch. -/
theorem E1_of_ne (c : Dev nD) (b : Ref sig .tc) (hb : ∀ w, Pipeline.arrRef spec0 w ≠ b) :
    E1 m ρ c (Proc.devRef .tc b) = E0 m ρ c (Proc.devRef .tc b) := by
  unfold E1; exact Pipeline.withArrays_of_ne spec0 c _ _ b hb
theorem E1_final (c : Dev nD) (w : Fin cfg0.W) : (dat0 (E0' m ρ) c).arrAt w cfg0.N = E1' m ρ c (Pipeline.arrRef spec0 w) :=
  (E1_arr m ρ c w).symm
theorem E1_rest (c : Dev nD) : ∀ b, b ∉ Finset.univ.image (Pipeline.arrRef spec0) → E1' m ρ c b = E0' m ρ c b :=
  fun b hb => E1_of_ne m ρ c b fun w e => hb (Finset.mem_image.mpr ⟨w, Finset.mem_univ _, e⟩)

/-- At the return each array of the second region holds what its pipeline leaves there, -/
theorem E3_arr (c : Dev nD) (w : Fin cfg1.W) :
    E3 m ρ c (Proc.devRef .tc (Pipeline.arrRef spec1 w)) = (dat1 (E2' m ρ) c).arrAt w cfg1.N := by
  unfold E3; exact Pipeline.withArrays_arr spec1 launch1.win.arr_inj c _ _ w
/-- and a buffer that is none of them what the host operations left in it. -/
theorem E3_of_ne (c : Dev nD) (b : Ref sig .tc) (hb : ∀ w, Pipeline.arrRef spec1 w ≠ b) :
    E3 m ρ c (Proc.devRef .tc b) = E2 m ρ c (Proc.devRef .tc b) := by
  unfold E3; exact Pipeline.withArrays_of_ne spec1 c _ _ b hb
theorem E3_final (c : Dev nD) (w : Fin cfg1.W) : (dat1 (E2' m ρ) c).arrAt w cfg1.N = E3' m ρ c (Pipeline.arrRef spec1 w) :=
  (E3_arr m ρ c w).symm
theorem E3_rest (c : Dev nD) : ∀ b, b ∉ Finset.univ.image (Pipeline.arrRef spec1) → E3' m ρ c b = E2' m ρ c b :=
  fun b hb => E3_of_ne m ρ c b fun w e => hb (Finset.mem_image.mpr ⟨w, Finset.mem_univ _, e⟩)

/-- The host operations write only the transposed weights, the three slices and the three matrices: any other buffer
    keeps what the first product left. -/
theorem E2_of_not_written (c : Dev nD) (r : Ref sig .tc) (h : r ∉ hostOps1_W) :
    E2 m ρ c (Proc.devRef .tc r) = E1 m ρ c (Proc.devRef .tc r) :=
  StableHlo.after_of_writes_sub hostOps1 _ hostOps1_writes h

/-! ## What the second product is entered from -/

/-- `T1`'s buffer: the first pipeline's write-backs folded. -/
theorem E2'_main_v0 (c : Dev nD) : E2' m ρ c main_v0 = (dat0 (E0' m ρ) c).arrAt 2 cfg0.N :=
  (E2_of_not_written m ρ c main_v0 (by decide)).trans (E1_arr m ρ c 2)
/-- `x`'s buffer as launched: an input of the first product, not written by the host operations. -/
theorem E2'_main_arg0 (c : Dev nD) : E2' m ρ c main_arg0 = m ((c : Thread nD τ).loc main_arg0) :=
  (E2_of_not_written m ρ c main_arg0 (by decide)).trans
    ((E1_arr m ρ c 1).trans (((dat0 (E0' m ρ) c).arrAt_in 1 rfl _).trans (A_eq0 (E0' m ρ) c 1)))
/-- `L`'s buffer as launched. -/
theorem E2'_main_arg1 (c : Dev nD) : E2' m ρ c main_arg1 = m ((c : Thread nD τ).loc main_arg1) :=
  (E2_of_not_written m ρ c main_arg1 (by decide)).trans
    ((E1_arr m ρ c 0).trans (((dat0 (E0' m ρ) c).arrAt_in 0 rfl _).trans (A_eq0 (E0' m ρ) c 0)))
/-- The weight tensor's buffer as launched: no array of the first product, not written by the host operations. -/
theorem E2'_main_arg2 (c : Dev nD) : E2' m ρ c main_arg2 = m ((c : Thread nD τ).loc main_arg2) :=
  (E2_of_not_written m ρ c main_arg2 (by decide)).trans (E1_of_ne m ρ c main_arg2 (by decide))
/-- The first product leaves the weight tensor's buffer as launched. -/
theorem E1_main_arg2 (c : Dev nD) : E1 m ρ c (Proc.devRef .tc main_arg2) = m ((c : Thread nD τ).loc main_arg2) :=
  E1_of_ne m ρ c main_arg2 (by decide)

/-! ## The three weight matrices the second product is entered with -/

/-- The weight tensor with its last two axes exchanged. -/
abbrev weightsT (m : (ℓ : Loc nD τ sig) → Buf (Elt F) ℓ) (c : Dev nD) : (⟨S3x128x128, .f32⟩ : BufTy).Contents (Elt F) :=
  transpose S3x128x128 [0, 2, 1] (m ((c : Thread nD τ).loc main_arg2)) transposes_S3x128x128_S3x128x128_0_2_1

/-- The first matrix: slice 0 of the transposed weights, read as `128 × 128`. -/
theorem E2'_main_v3 (c : Dev nD) : E2' m ρ c main_v3 = fun i =>
    shapeCast S128x128 (extractStridedSlice S1x128x128 ![0, 0, 0] (weightsT m c) slices_S3x128x128_S1x128x128_0_0_0)
      shapeCasts_S1x128x128_S128x128 i := by
  show StableHlo.after hostOps1 (E1 m ρ c) (Proc.devRef .tc main_v3) = _
  after_results
  rw [E1_main_arg2]
  rfl
/-- The second matrix: slice 1. -/
theorem E2'_main_v5 (c : Dev nD) : E2' m ρ c main_v5 = fun i =>
    shapeCast S128x128 (extractStridedSlice S1x128x128 ![1, 0, 0] (weightsT m c) slices_S3x128x128_S1x128x128_1_0_0)
      shapeCasts_S1x128x128_S128x128 i := by
  show StableHlo.after hostOps1 (E1 m ρ c) (Proc.devRef .tc main_v5) = _
  after_results
  rw [E1_main_arg2]
  rfl
/-- The third matrix: slice 2. -/
theorem E2'_main_v7 (c : Dev nD) : E2' m ρ c main_v7 = fun i =>
    shapeCast S128x128 (extractStridedSlice S1x128x128 ![2, 0, 0] (weightsT m c) slices_S3x128x128_S1x128x128_2_0_0)
      shapeCasts_S1x128x128_S128x128 i := by
  show StableHlo.after hostOps1 (E1 m ρ c) (Proc.devRef .tc main_v7) = _
  after_results
  rw [E1_main_arg2]
  rfl

/-! ## The proof data of both regions and the thread state -/

/-- Neither region has a prefetched table. -/
abbrev tablesNone : (p : Fin 2) → (pcfgs (F := F) p).Adm := fun p => (cfgs p).toPCfg_adm
/-- Both regions' proof data, each at the contents its region is entered from. -/
def regionData : (p : Fin 2) → (c : Dev nD) → Dat τ (Elt F) Unit ℕ (UR sig nD τ) ℕ (Pipeline.pin (pcfgs (F := F)) tablesNone p) c
  | ⟨0, _⟩ => fun c => dat0 (E0' m ρ) c
  | ⟨1, _⟩ => fun c => dat1 (E2' m ρ) c
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through the three items: the core's generator register at some state and its
    `owes`, at nothing. -/
abbrev Beside (c : Dev nD) : sProp 𝕄 := iprop((∃ r, prngReg c r) ∗ ∃ W, owes (c : Thread nD τ) (0 : CellTallies nD τ sig Unit) W)
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register
    at some state. -/
abbrev AtReturn (c : Dev nD) : sProp 𝕄 := iprop(StableHlo.held (c : Thread nD τ) (Pipeline.ucRefs τ sig) (E3 m ρ c) ∗ ∃ r, prngReg c r)

/-- A core owing nothing, its recorded pairs unknown, owes a proof data's tallies at a point where these are zero
    and the data bound the recorded pairs by nothing. -/
theorem owesAt_of_nothing {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, HO⟩; iexists W; isplitr; · ipureintro; exact fun _ _ => Or.inl trivial
  iexact HO
/-- Conversely the tallies at a point where they are zero are the core owing nothing. -/
theorem nothing_of_owesAt {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-- The region invariant of a body that uses only its staging buffers — the scoped buffers no window stages and the
    generator register — from the register, anything else, and those scoped buffers. -/
theorem classInv_of_parts {gr W : Nat} (win : Fin W → Pipeline.WinSpec sig gr) (c : Dev nD) (T : sProp 𝕄) :
    (iprop((∃ r, prngReg c r) ∗ T
        ∗ Pipeline.scopedRest (Ix := Unit) (Name := ℕ) (U := UR sig nD τ) (Lvl := ℕ) (Val := Elt F) win c) : sProp 𝕄)
      ⊢ Pipeline.ΦA win c := by
  unfold Pipeline.ΦA
  iintro ⟨Hp, -, Hr⟩
  isplitl [Hr]; · iexact Hr
  iexact Hp
/-- and back: the register, nothing, and those scoped buffers. -/
theorem parts_of_classInv {gr W : Nat} (win : Fin W → Pipeline.WinSpec sig gr) (c : Dev nD) :
    (Pipeline.ΦA win c : sProp 𝕄)
      ⊢ iprop((∃ r, prngReg c r) ∗ BI.emp
        ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-- The seven host operations as a segment over the unscoped buffers from the first product's exit contents. -/
abbrev weightsSeg : Pipeline.HostSeg (Name := ℕ) (U := UR sig nD τ) (pcfgs (F := F)) defs₀ noVariants noPairs noLevel :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (E1 m ρ) Beside

/-! ## The two products as segments -/

set_option backward.isDefEq.respectTransparency.types false in
/-- THE FIRST PRODUCT over the thread state: entered from every unscoped buffer at launch, left at `E1`. Its arrays split
    out of the unscoped buffers and put back at the exit contents; the generator register into the region's invariant
    and out; nothing owed; no semaphore of the kernel's own. -/
def firstProduct : Pipeline.RegionSeg (pcfgs (F := F)) tablesNone (regionData m ρ) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (E0' m ρ) c).loose
  hwaits := Pipeline.hwaits_of_owed_zero _ _ _ _ noPairs noLevel 0 fun c t => owed_eq0 (E0' m ρ) c t
  pre c := iprop(StableHlo.held (c : Thread nD τ) (Pipeline.ucRefs τ sig) (E0 m ρ c) ∗ Beside c)
  post c := iprop(StableHlo.held (c : Thread nD τ) (Pipeline.ucRefs τ sig) (E1 m ρ c) ∗ Beside c)
  X c := iprop(∃ r, prngReg c r)
  Y c := iprop(∃ r, prngReg c r)
  Z c := Pipeline.unscopedRest (Ix := Unit) (Name := ℕ) (U := UR sig nD τ) (Lvl := ℕ) spec0 c (E0' m ρ c)
  hentry c := by
    rw [Pipeline.ownSems0_none]
    have hsplit := Pipeline.arrays_of_unscopedBufs (p := 0) (pcfgs (F := F)) tablesNone (regionData m ρ) launch0.win launch0.arr_whole c
      ((regionData m ρ 0 c).share_full fun w => q_eq0 (E0' m ρ) c w) (E0' m ρ c) fun w => A_eq0 (E0' m ρ) c w
    rw [Pipeline.unscopedBufs_held] at hsplit
    have howes := owesAt_of_nothing (regionData m ρ 0 c) 0 (owed_eq0 (E0' m ρ) c 0) (recorded_eq0 (E0' m ρ) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := (classInv_of_parts spec0 c _).trans (hin0 (E0' m ρ) c)
  hout c := by
    rw [Pipeline.ownSems0_none]
    exact (hout0 (E0' m ρ) c).trans (parts_of_classInv spec0 c)
  hexit c := by
    have hjoin := Pipeline.unscopedBufs_of_arrays (p := 0) (pcfgs (F := F)) tablesNone (Ix := Unit) (Name := ℕ) (U := UR sig nD τ) (Lvl := ℕ)
      launch0.win launch0.arr_whole c (regionData m ρ) ((regionData m ρ 0 c).share_full fun w => q_eq0 (E0' m ρ) c w)
      (E0' m ρ c) (E1' m ρ c) ((regionData m ρ 0 c).arrAt · cfg0.N) (E1_final m ρ c) (E1_rest m ρ c)
    rw [Pipeline.unscopedBufs_held] at hjoin
    have howes := nothing_of_owesAt (regionData m ρ 0 c) (Fin.last _) (owed_eq0 (E0' m ρ) c (Fin.last _))
    iintro ⟨Ha, HO, HY, Hrest⟩
    imodintro
    isplitl [Ha Hrest]
    · iapply hjoin; isplitl [Ha] <;> iassumption
    isplitl [HY]; · iexact HY
    iapply howes; iexact HO

set_option backward.isDefEq.respectTransparency.types false in
/-- THE SECOND PRODUCT AND THE COMBINATION over the thread state: entered from every unscoped buffer at `E2`, left at
    `E3` (what the launch reads at the end). -/
def secondProduct : Pipeline.RegionSeg (pcfgs (F := F)) tablesNone (regionData m ρ) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (E2' m ρ) c).loose
  hwaits := Pipeline.hwaits_of_owed_zero _ _ _ _ noPairs noLevel 1 fun c t => owed_eq1 (E2' m ρ) c t
  pre c := iprop(StableHlo.held (c : Thread nD τ) (Pipeline.ucRefs τ sig) (E2 m ρ c) ∗ Beside c)
  post c := iprop(AtReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2' m ρ c)
  hentry c := by
    rw [Pipeline.ownSems0_none]
    have hsplit := Pipeline.arrays_of_unscopedBufs (p := 1) (pcfgs (F := F)) tablesNone (regionData m ρ) launch1.win launch1.arr_whole c
      ((regionData m ρ 1 c).share_full fun w => q_eq1 (E2' m ρ) c w) (E2' m ρ c) fun w => A_eq1 (E2' m ρ) c w
    rw [Pipeline.unscopedBufs_held] at hsplit
    have howes := owesAt_of_nothing (regionData m ρ 1 c) 0 (owed_eq1 (E2' m ρ) c 0) (recorded_eq1 (E2' m ρ) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := (classInv_of_parts spec1 c _).trans (hin1 (E2' m ρ) c)
  hout c := by
    rw [Pipeline.ownSems0_none]
    exact (hout1 (E2' m ρ) c).trans (parts_of_classInv spec1 c)
  hexit c := by
    have hjoin := Pipeline.unscopedBufs_of_arrays (p := 1) (pcfgs (F := F)) tablesNone (Ix := Unit) (Name := ℕ) (U := UR sig nD τ) (Lvl := ℕ)
      launch1.win launch1.arr_whole c (regionData m ρ) ((regionData m ρ 1 c).share_full fun w => q_eq1 (E2' m ρ) c w)
      (E2' m ρ c) (E3' m ρ c) ((regionData m ρ 1 c).arrAt · cfg1.N) (E3_final m ρ c) (E3_rest m ρ c)
    rw [Pipeline.unscopedBufs_held] at hjoin
    have howes := nothing_of_owesAt (regionData m ρ 1 c) (Fin.last _) (owed_eq1 (E2' m ρ) c (Fin.last _))
    iintro ⟨Ha, HO, HY, Hrest⟩
    imodintro
    isplitl [Ha Hrest HY]
    · isplitl [Ha Hrest]
      · iapply hjoin; isplitl [Ha] <;> iassumption
      iexact HY
    iapply howes; iexact HO

/-! ## The program as its three segments, and the launch -/

/-- The program's three segments in order: the first product, the host operations on the weights, the second product
    with the combination. -/
abbrev items : List (Pipeline.Seg (pcfgs (F := F)) tablesNone (regionData m ρ) () defs₀ noVariants noPairs noLevel) :=
  [ .region (firstProduct m ρ),
    .host (weightsSeg m ρ),
    .region (secondProduct m ρ) ]
/-- The program IS the run of the three segments. -/
theorem main_run (c : Dev nD) : main (F := F) c = Pipeline.Seg.run (items m ρ) := (main_chain c).trans (by chain_rfl)

set_option backward.isDefEq.respectTransparency.types false in
/-- THE RUN: at the compiled mesh, from any memory with zero counters, every weakly fair execution of the program on
    the TensorCores terminates, nothing faulting, and in every final state each unscoped buffer holds what the fold
    `E3` says: the launch over the three segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = E3 m ρ c b) :=
  Pipeline.θ_run_regions_kit (pcfgs (F := F)) tablesNone (regionData m ρ) () cellOf_inj emb₁ defs₀ noVariants noPairs noLevel m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ Beside c)) (Tₙ := AtReturn m ρ)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m ρ c b)
    (hfin := fun c s' => by
      iintro ⟨⟨Hh, -⟩, HSI⟩
      unfold StableHlo.held
      imodintro
      iapply (pointsTo_read_all (Pipeline.ucRefs τ sig) (fun b => (((c : Thread nD τ)).1, b)) (E3 m ρ c) s')
      isplitl [Hh] <;> iassumption)
    (hQ := fun s h c => h c)

/-! ## The return's contents at the buffers the value is read from -/

/-- The result's buffer: the second pipeline's write-backs folded. -/
theorem E3_main_v8 (c : Dev nD) : E3 m ρ c (Proc.devRef .tc main_v8) = (dat1 (E2' m ρ) c).arrAt 6 cfg1.N :=
  E3_arr m ρ c 6
/-- `x` ends as launched: an input of both regions, not written by the host operations. -/
theorem E3_main_arg0 (c : Dev nD) : E3 m ρ c (Proc.devRef .tc main_arg0) = m ((c : Thread nD τ).loc main_arg0) :=
  ((E3_arr m ρ c 2).trans (((dat1 (E2' m ρ) c).arrAt_in 2 rfl _).trans (A_eq1 (E2' m ρ) c 2))).trans (E2'_main_arg0 m ρ c)
/-- `L` ends as launched. -/
theorem E3_main_arg1 (c : Dev nD) : E3 m ρ c (Proc.devRef .tc main_arg1) = m ((c : Thread nD τ).loc main_arg1) :=
  ((E3_arr m ρ c 0).trans (((dat1 (E2' m ρ) c).arrAt_in 0 rfl _).trans (A_eq1 (E2' m ρ) c 0))).trans (E2'_main_arg1 m ρ c)
/-- The weight tensor ends as launched: no array of either region, not written by the host operations. -/
theorem E3_main_arg2 (c : Dev nD) : E3 m ρ c (Proc.devRef .tc main_arg2) = m ((c : Thread nD τ).loc main_arg2) :=
  (E3_of_ne m ρ c main_arg2 (by decide)).trans (E2'_main_arg2 m ρ c)

/-- THE FRAME: every execution terminates and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_unscoped main_arg0 (by decide))).trans (E3_main_arg0 m ρ c),
     (h c _ (mem_unscoped main_arg1 (by decide))).trans (E3_main_arg1 m ρ c),
     (h c _ (mem_unscoped main_arg2 (by decide))).trans (E3_main_arg2 m ρ c)⟩) (run_all m ρ)

end Cert.Kernel.Hand

end
-- ==== Proof.KI.R0Base.lean ====
/-
  Region 0 (T1 = L·x): the blocks its windows stage, the two conditions of its body decided over the 8×4 grid
  (the accumulator is reset where k = 0, the output block is stored where k = 3), where its output window is idle,
  and the region invariant spelt with the accumulator scratch set apart.
-/
import proofs.«175496_j70763881168941_2_alg».proof.Proof.Gen.KernelIdeal.Launch
import proofs.«175496_j70763881168941_2_alg».proof.Proof.Gen.KernelIdeal.Skeleton
import proofs.«175496_j70763881168941_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at grid point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile of `L` (window 0) sits in its staging buffer at every point, fetched there or not. -/
theorem holds0_0 {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The whole of `x` (window 1, fetched once) sits in its staging buffer at every point. -/
theorem holds0_1 {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## The body's two conditions over the grid -/

/-- "k = 0": the accumulator is reset. -/
abbrev isFirst0 (i : grid0.Coords) : Prop := (Scalar.cmpi .ne (Scalar.extui (Scalar.cmpi .eq (BitVec.ofNat 32 (i 1).val) 0#32)) 0#32) = 1#1
theorem isFirst0_iff : ∀ t : Fin cfg0.N, isFirst0 (grid0.coords t) ↔ t.val % 4 = 0 :=
  (by decide +kernel : ∀ t : Fin grid0.N, isFirst0 (grid0.coords t) ↔ t.val % 4 = 0)

/-- "k = 3": the accumulated rows are stored to the output block. -/
abbrev isLast0 (i : grid0.Coords) : Prop := k0_cond2 i = 1#1
theorem isLast0_iff : ∀ t : Fin cfg0.N, isLast0 (grid0.coords t) ↔ t.val % 4 = 3 :=
  (by decide +kernel : ∀ t : Fin grid0.N, isLast0 (grid0.coords t) ↔ t.val % 4 = 3)

/-! ## Where the windows are idle -/

theorem live0_0 : ∀ t : Fin cfg0.N, cfg0.idle 0 (grid0.coords t) = false := by decide +kernel
theorem live0_1 : ∀ t : Fin cfg0.N, cfg0.idle 1 (grid0.coords t) = false := by decide +kernel
/-- Where k ≠ 3 the output window is idle and is not written back. -/
theorem idle0_2 : ∀ t : Fin cfg0.N, ¬isLast0 (grid0.coords t) → cfg0.idle 2 (grid0.coords t) = true := by decide +kernel
theorem keep0_2 : ∀ t : Fin cfg0.N, ¬isLast0 (grid0.coords t) → (cfg0.win 2).flush t = false := by decide +kernel
/-- Where k = 3 it is live. -/
theorem live0_2 : ∀ t : Fin cfg0.N, isLast0 (grid0.coords t) → cfg0.idle 2 (grid0.coords t) = false := by decide +kernel

/-! ## The memrefs the body is called with -/

abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8192x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .f32 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev accM0 : Memref sig .tc .vmem S1024x128 .f32 := Memref.whole cc0_scratch0

/-- The rectangles the body reads and writes through. -/
abbrev rL0 : Rect S1024x2048 := Rect.unit (s := S1024x2048) ![0, 0] S1024x2048.size inb_S1024x2048_S1024x2048_0_0
abbrev rO0 : Rect S1024x128 := Rect.unit (s := S1024x128) ![0, 0] S1024x128.size inb_S1024x128_S1024x128_0_0
abbrev rX0 (i : grid0.Coords) : Rect S8192x128 := Rect.unit (s := S8192x128) (k0_off1 i) S2048x128.size (k0_off1_inb i)

/-! ## The region invariant with the accumulator set apart -/

/-- The core's other scoped buffers (the second call's staging buffers and scratch), each whole at some contents: the
    body never touches them. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_scratch0), ((c : Thread nD τ).loc cc1_scratch0) ↦{fullShare} f))

/-- The class invariant is: the accumulator at some contents, the other scoped buffers, the generator register. -/
theorem PhiA0_eq (c : Dev nD) :
    (Pipeline.ΦA spec0 c : sProp 𝕄)
      = iprop(iprop((∃ d, owns (c : Thread nD τ) accM0 fullShare d) ∗ others0 (F := F) c) ∗ (∃ r, prngReg c r)) := by
  unfold Pipeline.ΦA others0; rw [scopedRest0_eq]; simp only [accM0, owns_whole]; try rfl

end Cert.KernelIdeal.Hand

end
-- ==== Proof.KI.R0Step.lean ====
/-
  One step of region 0's accumulation, as a function of the tile of L, the whole of x and the sum so far.
-/
import proofs.«175496_j70763881168941_2_alg».proof.Proof.KI.R0Base
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

/-- The accumulator after the body: the incoming sum `pf` plus the tile of `L` times the rows of `x` it meets. -/
abbrev step0 (i : grid0.Coords) (x0 : Vec F S1024x2048 .f32) (x1 : Vec F S8192x128 .f32) (pf : Vec F S1024x128 .f32) : Vec F S1024x128 .f32 :=
  k0_pay2 (View.ld x0 rL0) (View.ld x1 (rX0 i)) pf

end Cert.KernelIdeal.Hand

end
-- ==== Proof.KI.R0BodyTT.lean ====
/-
  Region 0's body at a grid point where k = 0 and k = 3: the accumulator is reset to the zero block and then
  gains the tile of L times the rows of x; the sum is then stored to the output block's buffer.
-/
import proofs.«175496_j70763881168941_2_alg».proof.Proof.KI.R0Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body0_TT (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x128 .f32) (harg5 : arg5.IsWhole)
    (hf : isFirst0 i) (hl : isLast0 i)
    (x0 : Vec F S1024x2048 .f32) (x1 : Vec F S8192x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare prev
        ∗ (iprop(owns (c : Thread nD τ) arg2 fullShare x0 ∗ owns (c : Thread nD τ) arg3 fullShare x1 ∗ owns (c : Thread nD τ) arg4 fullShare (step0 i x0 x1 (k0_pay1 (F := F)))
            ∗ owns (c : Thread nD τ) arg5 fullShare (step0 i x0 x1 (k0_pay1 (F := F)))) -∗ K ⟨⟩))
      ⊢ wp frame (wpE (defs₀ (F := F)) Variants.none c none) E (cc0__matmul1_kernel i arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero hz2 inb_S1024x128_S1024x128_0_0 y⟩), View.canon_cons_unit_zero (S := S1024x128) hz2,
      View.readCov_eq_canon_ld _ _ _ (fun y => ⟨_, List.mem_cons_self, View.mem_set_unit_zero hz2 inb_S1024x128_S1024x128_0_0 y⟩), View.canon_cons_unit_zero (S := S1024x128) hz2, View.ld_unit_zero (S := S1024x128) hz2]
    simp only [View.readCov_unit_zero (S := S1024x128) _ hz2, View.readAt_eq_ld, harg2.read_unread, harg3.read_unread, harg5.read_unread, View.ld_unit_zero (S := S1024x128) hz2]
    rfl
  iexists _; isplitr
  swap; · iexact HS
  ipureintro
  sl_unfold_words
  rw [View.read_writes_eq_canon _ _ _ (fun y => ⟨_, List.mem_cons_self, View.mem_set_unit_zero hz2 inb_S1024x128_S1024x128_0_0 y⟩), View.canon_cons_unit_zero (S := S1024x128) hz2]
  simp only [View.readCov_unit_zero (S := S1024x128) _ hz2, View.readAt_eq_ld, harg2.read_unread, harg3.read_unread, harg5.read_unread, View.ld_unit_zero (S := S1024x128) hz2]
  rfl

end Cert.KernelIdeal.Hand

end
-- ==== Proof.KI.R0BodyTF.lean ====
/-
  Region 0's body at a grid point where k = 0 and k ≠ 3: the accumulator is reset to the zero block and then
  gains the tile of L times the rows of x; the output block's buffer is left as found.
-/
import proofs.«175496_j70763881168941_2_alg».proof.Proof.KI.R0Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body0_TF (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x128 .f32) (harg5 : arg5.IsWhole)
    (hf : isFirst0 i) (hl : ¬isLast0 i)
    (x0 : Vec F S1024x2048 .f32) (x1 : Vec F S8192x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare prev
        ∗ (iprop(owns (c : Thread nD τ) arg2 fullShare x0 ∗ owns (c : Thread nD τ) arg3 fullShare x1 ∗ owns (c : Thread nD τ) arg4 fullShare xi
            ∗ owns (c : Thread nD τ) arg5 fullShare (step0 i x0 x1 (k0_pay1 (F := F)))) -∗ K ⟨⟩))
      ⊢ wp frame (wpE (defs₀ (F := F)) Variants.none c none) E (cc0__matmul1_kernel i arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (fun y => ⟨_, List.mem_cons_self, View.mem_set_unit_zero hz2 inb_S1024x128_S1024x128_0_0 y⟩), View.canon_cons_unit_zero (S := S1024x128) hz2]
  simp only [View.readCov_unit_zero (S := S1024x128) _ hz2, View.readAt_eq_ld, harg2.read_unread, harg3.read_unread, harg5.read_unread, View.ld_unit_zero (S := S1024x128) hz2]
  rfl

end Cert.KernelIdeal.Hand

end
-- ==== Proof.KI.R0BodyFT.lean ====
/-
  Region 0's body at a grid point where k ≠ 0 and k = 3: the accumulator keeps the sum so far and
  gains the tile of L times the rows of x; the sum is then stored to the output block's buffer.
-/
import proofs.«175496_j70763881168941_2_alg».proof.Proof.KI.R0Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body0_FT (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x128 .f32) (harg5 : arg5.IsWhole)
    (hf : ¬isFirst0 i) (hl : isLast0 i)
    (x0 : Vec F S1024x2048 .f32) (x1 : Vec F S8192x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare prev
        ∗ (iprop(owns (c : Thread nD τ) arg2 fullShare x0 ∗ owns (c : Thread nD τ) arg3 fullShare x1 ∗ owns (c : Thread nD τ) arg4 fullShare (step0 i x0 x1 prev)
            ∗ owns (c : Thread nD τ) arg5 fullShare (step0 i x0 x1 prev)) -∗ K ⟨⟩))
      ⊢ wp frame (wpE (defs₀ (F := F)) Variants.none c none) E (cc0__matmul1_kernel i arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    sl_unfold_words
    rw [View.read_writes_eq_canon _ _ _ (fun y => ⟨_, List.mem_cons_self, View.mem_set_unit_zero hz2 inb_S1024x128_S1024x128_0_0 y⟩), View.canon_cons_unit_zero (S := S1024x128) hz2,
      View.readCov_eq_canon_ld _ _ _ (fun y => ⟨_, List.mem_cons_self, View.mem_set_unit_zero hz2 inb_S1024x128_S1024x128_0_0 y⟩), View.canon_cons_unit_zero (S := S1024x128) hz2, View.ld_unit_zero (S := S1024x128) hz2]
    simp only [View.readCov_unit_zero (S := S1024x128) _ hz2, View.readAt_eq_ld, harg2.read_unread, harg3.read_unread, harg5.read_unread, View.ld_unit_zero (S := S1024x128) hz2]
    rfl
  iexists _; isplitr
  swap; · iexact HS
  ipureintro
  sl_unfold_words
  rw [View.read_writes_eq_canon _ _ _ (fun y => ⟨_, List.mem_cons_self, View.mem_set_unit_zero hz2 inb_S1024x128_S1024x128_0_0 y⟩), View.canon_cons_unit_zero (S := S1024x128) hz2]
  simp only [View.readCov_unit_zero (S := S1024x128) _ hz2, View.readAt_eq_ld, harg2.read_unread, harg3.read_unread, harg5.read_unread, View.ld_unit_zero (S := S1024x128) hz2]
  rfl

end Cert.KernelIdeal.Hand

end
-- ==== Proof.KI.R0BodyFF.lean ====
/-
  Region 0's body at a grid point where k ≠ 0 and k ≠ 3: the accumulator keeps the sum so far and
  gains the tile of L times the rows of x; the output block's buffer is left as found.
-/
import proofs.«175496_j70763881168941_2_alg».proof.Proof.KI.R0Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body0_FF (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x128 .f32) (harg5 : arg5.IsWhole)
    (hf : ¬isFirst0 i) (hl : ¬isLast0 i)
    (x0 : Vec F S1024x2048 .f32) (x1 : Vec F S8192x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare prev
        ∗ (iprop(owns (c : Thread nD τ) arg2 fullShare x0 ∗ owns (c : Thread nD τ) arg3 fullShare x1 ∗ owns (c : Thread nD τ) arg4 fullShare xi
            ∗ owns (c : Thread nD τ) arg5 fullShare (step0 i x0 x1 prev)) -∗ K ⟨⟩))
      ⊢ wp frame (wpE (defs₀ (F := F)) Variants.none c none) E (cc0__matmul1_kernel i arg2 harg2 arg3 harg3 arg4 harg4 arg5 harg5) K := by
  simp only [cc0__matmul1_kernel_eq_skeleton]; unfold cc0__matmul1_kernel_skel
  unfold owns
  iintro ⟨⟨%f0, %hf0, H0⟩, ⟨%f1, %hf1, H1⟩, ⟨%f2, %hf2, H2⟩, ⟨%fs, %hfs, HS⟩, Hk⟩
  obtain rfl := harg2.eq_unread hf0; obtain rfl := harg3.eq_unread hf1; obtain rfl := harg4.eq_unread hf2; obtain rfl := harg5.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr
    swap; · iexact H2
    ipureintro
    exact harg4.read_unread _
  iexists _; isplitr
  swap; · iexact HS
  ipureintro
  sl_unfold_words
  rw [View.read_writes_eq_canon _ _ _ (fun y => ⟨_, List.mem_cons_self, View.mem_set_unit_zero hz2 inb_S1024x128_S1024x128_0_0 y⟩), View.canon_cons_unit_zero (S := S1024x128) hz2]
  simp only [View.readCov_unit_zero (S := S1024x128) _ hz2, View.readAt_eq_ld, harg2.read_unread, harg3.read_unread, harg5.read_unread, View.ld_unit_zero (S := S1024x128) hz2]
  rfl

end Cert.KernelIdeal.Hand

end
-- ==== Proof.KI.R0Body.lean ====
/-
  Region 0's body at one grid point, as one triple for every point: from the tile of L, the whole of x, the output
  block's buffer and the accumulator at `prev`, it leaves the accumulator at  pf + tile · rows  (pf the zero block
  where k = 0, `prev` elsewhere) and, where k = 3, that same sum in the output block's buffer.
-/
import proofs.«175496_j70763881168941_2_alg».proof.Proof.KI.R0BodyTT
import proofs.«175496_j70763881168941_2_alg».proof.Proof.KI.R0BodyTF
import proofs.«175496_j70763881168941_2_alg».proof.Proof.KI.R0BodyFT
import proofs.«175496_j70763881168941_2_alg».proof.Proof.KI.R0BodyFF
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem body0 (c : Dev nD) (i : grid0.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S1024x128 .f32) (harg5 : arg5.IsWhole)
    (x0 : Vec F S1024x2048 .f32) (x1 : Vec F S8192x128 .f32) (xi prev pf o : Vec F S1024x128 .f32)
    (hpf1 : isFirst0 i → pf = k0_pay1) (hpf2 : ¬isFirst0 i → pf = prev)
    (ho1 : isLast0 i → o = step0 i x0 x1 pf) (ho2 : ¬isLast0 i → o = xi)
    (E : Set ℕ) (K : PUnit → sProp 𝕄) :
    iprop(owns (c : Thread nD τ) arg2 fullShare x0 ∗ owns (c : Thread nD τ) arg3 fullShare x1 ∗ owns (c : Thread nD τ) arg4 fullShare xi ∗ owns (c : Thread nD τ) arg5 fullShare prev
        ∗ (iprop(owns (c : Thread nD τ) arg2 fullShare x0 ∗ owns (c : Thread nD τ) arg3 fullShare x1 ∗ owns (c : Thread nD τ) arg4 fullShare o
            ∗ owns (c : Thread nD τ) arg5 fullShare (step0 i x0 x1 pf)) -∗ K ⟨⟩))
      ⊢ wp frame (wpE (defs₀ (F := F)) Variants.none c none) E (cc0__matmul1_kernel i arg2 harg2 arg3 harg3 arg4 harg4 arg5 harg5) K := by
  by_cases hf : isFirst0 i
  · obtain rfl := hpf1 hf
    by_cases hl : isLast0 i
    · obtain rfl := ho1 hl
      exact body0_TT c i arg2 harg2 arg3 harg3 arg4 harg4 arg5 harg5 hf hl x0 x1 xi prev E K
    · obtain rfl := ho2 hl
      exact body0_TF c i arg2 harg2 arg3 harg3 arg4 harg4 arg5 harg5 hf hl x0 x1 _ prev E K
  · obtain rfl := hpf2 hf
    by_cases hl : isLast0 i
    · obtain rfl := ho1 hl
      exact body0_FT c i arg2 harg2 arg3 harg3 arg4 harg4 arg5 harg5 hf hl x0 x1 xi _ E K
    · obtain rfl := ho2 hl
      exact body0_FF c i arg2 harg2 arg3 harg3 arg4 harg4 arg5 harg5 hf hl x0 x1 _ _ E K

end Cert.KernelIdeal.Hand

end
-- ==== Proof.KI.R0.lean ====
/-
  Region 0 (T1 = L·x) as a pipeline: the running sum its accumulator holds after each grid point, the region invariant
  that carries it from one point to the next, the proof data, and the body obligation at every point.
-/
import proofs.«175496_j70763881168941_2_alg».proof.Proof.KI.R0Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum -/

/-- What the accumulator holds after the body at position `n` of the grid's row-major order (n = 4a + k): the sum over
    k' ≤ k of the tile (a, k') of `L` times rows 2048k'.. of `x`, added in order onto the zero block. -/
def acc0 (c : Dev nD) : (n : ℕ) → n < cfg0.N → Vec F S1024x128 .f32
  | 0, hn => step0 (grid0.coords ⟨0, hn⟩) (blk0 V c 0 ⟨0, hn⟩) (blk0 V c 1 ⟨0, hn⟩) k0_pay1
  | n + 1, hn => step0 (grid0.coords ⟨n + 1, hn⟩) (blk0 V c 0 ⟨n + 1, hn⟩) (blk0 V c 1 ⟨n + 1, hn⟩)
      (if (n + 1) % 4 = 0 then k0_pay1 else acc0 c n (Nat.lt_of_succ_lt hn))

/-- The sum the body at position `n` adds onto: the zero block where k = 0, the sum so far elsewhere. -/
def base0 (c : Dev nD) (n : ℕ) (hn : n < cfg0.N) : Vec F S1024x128 .f32 :=
  if n % 4 = 0 then k0_pay1 else acc0 V c (n - 1) (Nat.lt_of_le_of_lt (Nat.sub_le _ _) hn)

theorem acc0_eq (c : Dev nD) (t : Fin cfg0.N) :
    acc0 V c t.val t.isLt = step0 (grid0.coords t) (blk0 V c 0 t) (blk0 V c 1 t) (base0 V c t.val t.isLt) := by
  obtain ⟨n, hn⟩ := t
  cases n with
  | zero => rfl
  | succ n => rfl

/-! ## The invariant between points -/

/-- Before position `n`: at the region's entry the class invariant (the accumulator at anything); afterwards the
    accumulator at the running sum the point before left, the core's other scoped buffers and the generator register
    untouched. -/
def Inv0 (c : Dev nD) : (n : ℕ) → n ≤ cfg0.N → sProp 𝕄
  | 0, _ => Pipeline.ΦA spec0 c
  | n + 1, hn => iprop(iprop(owns (c : Thread nD τ) accM0 fullShare (acc0 V c n hn) ∗ others0 (F := F) c) ∗ (∃ r, prngReg c r))

theorem Inv0_zero (c : Dev nD) (n : ℕ) (h : n ≤ cfg0.N) (hz : n = 0) : Inv0 V c n h = Pipeline.ΦA spec0 c := by
  subst hz; rfl
theorem Inv0_succ (c : Dev nD) (n : ℕ) (hn : n < cfg0.N) :
    Inv0 V c (n + 1) hn = iprop(iprop(owns (c : Thread nD τ) accM0 fullShare (acc0 V c n hn) ∗ others0 (F := F) c) ∗ (∃ r, prngReg c r)) := rfl
theorem Inv0_pos (c : Dev nD) (n : ℕ) (h : n ≤ cfg0.N) (hz : n ≠ 0) :
    Inv0 V c n h = iprop(iprop(owns (c : Thread nD τ) accM0 fullShare (acc0 V c (n - 1) (by omega)) ∗ others0 (F := F) c) ∗ (∃ r, prngReg c r)) := by
  cases n with
  | zero => exact absurd rfl hz
  | succ n => rfl

/-! ## The proof data -/

/-- Region 0's proof data on core `c`: the arrays as the region finds them; after the body each input's buffer at its
    block, the output block's buffer at the running sum (it is read only where k = 3, where the sum is complete). -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => acc0 V c t.val t.isLt
  Φ t := Inv0 V c t.val (Nat.le_of_lt_succ t.isLt)
  q _ := fullShare
  owed _ := 0

theorem A_eq0 (c : Dev nD) (w : Fin cfg0.W) : (dat0 V c).A w = V c (Pipeline.arrRef spec0 w) := by dsimp only [dat0]
theorem q_eq0 (c : Dev nD) (w : Fin cfg0.W) : (dat0 V c).q w = fullShare := rfl
theorem owed_eq0 (c : Dev nD) (t : Fin (cfg0.N + 1)) : (dat0 V c).owed t = 0 := rfl
theorem recorded_eq0 (c : Dev nD) (t : Fin (cfg0.N + 1)) : (dat0 V c).recorded t = Set.univ := rfl
theorem after0_0 (c : Dev nD) (t : Fin cfg0.N) : (dat0 V c).after 0 t = blk0 V c 0 t := by dsimp only [dat0]
theorem after0_1 (c : Dev nD) (t : Fin cfg0.N) : (dat0 V c).after 1 t = blk0 V c 1 t := by dsimp only [dat0]
theorem after0_2 (c : Dev nD) (t : Fin cfg0.N) : (dat0 V c).after 2 t = acc0 V c t.val t.isLt := by dsimp only [dat0]
theorem found0_0 (c : Dev nD) (t : Fin cfg0.N) (d) : (dat0 V c).before 0 t d = blk0 V c 0 t :=
  holds0_0 V (dat0 V c) (A_eq0 V c 0) (after0_0 V c) t d
theorem found0_1 (c : Dev nD) (t : Fin cfg0.N) (d) : (dat0 V c).before 1 t d = blk0 V c 1 t :=
  holds0_1 V (dat0 V c) (A_eq0 V c 1) (after0_1 V c) t d
theorem Phi0_start (c : Dev nD) (t : Fin cfg0.N) : (dat0 V c).Φ t.castSucc = Inv0 V c t.val (Nat.le_of_lt t.isLt) := by
  dsimp only [dat0]; simp only [Fin.coe_castSucc]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- From the accumulator at ANY contents `prev` that agree with the running sum where the point adds onto it, the body
    at point `t` re-establishes everything: one application of the body's triple. -/
theorem point0 (c : Dev nD) (t : Fin cfg0.N) (prev : Vec F S1024x128 .f32)
    (hprev : ¬t.val % 4 = 0 → prev = acc0 V c (t.val - 1) (Nat.lt_of_le_of_lt (Nat.sub_le _ _) t.isLt)) (d2) :
    iprop(iprop(iprop(owns (c : Thread nD τ) accM0 fullShare prev ∗ others0 (F := F) c) ∗ (∃ r, prngReg c r)) ∗ (dat0 V c).owesAt () t.castSucc
      ∗ owns (c : Thread nD τ) (ms0_0 t) fullShare (blk0 V c 0 t)
      ∗ owns (c : Thread nD τ) (ms0_1 t) fullShare (blk0 V c 1 t)
      ∗ owns (c : Thread nD τ) (ms0_2 t) fullShare ((dat0 V c).before 2 t d2))
    ⊢ wp frame (wpE (defs₀ (F := F)) Variants.none c none) Set.univ (bodyAt0 t) (fun _ => bodyPost0 V c t) := by
  unfold bodyPost0 bodyAt0
  rw [show (dat0 V c).owesAt () t.succ = (dat0 V c).owesAt () t.castSucc from rfl]
  rw [show (dat0 V c).Φ t.succ = Inv0 V c (t.val + 1) t.isLt from rfl, Inv0_succ]
  rw [show (dat0 V c).leavesExact 0 t = owns (c : Thread nD τ) (ms0_0 t) fullShare ((dat0 V c).after 0 t) from by
    unfold Dat.leavesExact; rw [live0_0 t], after0_0]
  rw [show (dat0 V c).leavesExact 1 t = owns (c : Thread nD τ) (ms0_1 t) fullShare ((dat0 V c).after 1 t) from by
    unfold Dat.leavesExact; rw [live0_1 t], after0_1]
  have hbase : base0 V c t.val t.isLt = (if t.val % 4 = 0 then k0_pay1 else prev) := by
    unfold base0; split
    · rfl
    · rename_i h; exact (hprev h).symm
  by_cases hl : t.val % 4 = 3
  · rw [show (dat0 V c).leavesExact 2 t = owns (c : Thread nD τ) (ms0_2 t) fullShare ((dat0 V c).after 2 t) from by
      unfold Dat.leavesExact; rw [live0_2 t ((isLast0_iff t).mpr hl)], after0_2, acc0_eq V c t]
    iintro ⟨⟨⟨HS, Hoth⟩, Hg⟩, Ho, H0, H1, H2⟩
    iapply (body0 c (grid0.coords t) _ _ _ _ _ _ _ _ (blk0 V c 0 t) (blk0 V c 1 t) ((dat0 V c).before 2 t d2) prev (base0 V c t.val t.isLt)
      (step0 (grid0.coords t) (blk0 V c 0 t) (blk0 V c 1 t) (base0 V c t.val t.isLt))
      (fun h => by rw [hbase, if_pos ((isFirst0_iff t).mp h)]) (fun h => by rw [hbase, if_neg (fun h' => h ((isFirst0_iff t).mpr h'))])
      (fun _ => rfl) (fun h => absurd ((isLast0_iff t).mpr hl) h) Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Dat.leavesExact_idle (dat0 V c) 2 t (idle0_2 t (fun h => hl ((isLast0_iff t).mp h))) (keep0_2 t (fun h => hl ((isLast0_iff t).mp h))), acc0_eq V c t]
    iintro ⟨⟨⟨HS, Hoth⟩, Hg⟩, Ho, H0, H1, H2⟩
    iapply (body0 c (grid0.coords t) _ _ _ _ _ _ _ _ (blk0 V c 0 t) (blk0 V c 1 t) ((dat0 V c).before 2 t d2) prev (base0 V c t.val t.isLt)
      ((dat0 V c).before 2 t d2)
      (fun h => by rw [hbase, if_pos ((isFirst0_iff t).mp h)]) (fun h => by rw [hbase, if_neg (fun h' => h ((isFirst0_iff t).mpr h'))])
      (fun h => absurd ((isLast0_iff t).mp h) hl) (fun _ => rfl) Set.univ _)
    isplitl [H0]; · iexact H0
    isplitl [H1]; · iexact H1
    isplitl [H2]; · iexact H2
    isplitl [HS]; · iexact HS
    iintro ⟨H0, H1, H2, HS⟩
    isplitl [HS Hoth Hg]
    · isplitl [HS Hoth]
      · isplitl [HS]; · iexact HS
        iexact Hoth
      iexact Hg
    isplitl [Ho]; · iexact Ho
    isplitl [H0]; · iexact H0
    isplitl [H1]; · iexact H1
    iexists _; iexact H2

theorem sound_body0 (c : Dev nD) (t : Fin cfg0.N) :
    bodyPre0 V c t ⊢ wp frame (wpE (defs₀ (F := F)) Variants.none c none) Set.univ (bodyAt0 t) (fun _ => bodyPost0 V c t) := by
  unfold bodyPre0
  simp only [found0_0, found0_1]
  by_cases hz : t.val = 0
  · rw [Phi0_start V c t, Inv0_zero V c _ _ hz, PhiA0_eq]
    iintro ⟨⟨⟨⟨%d, HS⟩, Hoth⟩, Hg⟩, Ho, ⟨%d0, H0⟩, ⟨%d1, H1⟩, ⟨%d2, H2⟩⟩
    iapply (point0 V c t d (fun h => absurd (by rw [hz]) h) d2)
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2
  · rw [Phi0_start V c t, Inv0_pos V c _ _ hz]
    iintro ⟨⟨⟨HS, Hoth⟩, Hg⟩, Ho, ⟨%d0, H0⟩, ⟨%d1, H1⟩, ⟨%d2, H2⟩⟩
    iapply (point0 V c t _ (fun _ => rfl) d2)
    isplitl [HS Hoth Hg]
    · isplitl [HS Hoth]
      · isplitl [HS]; · iexact HS
        iexact Hoth
      iexact Hg
    isplitl [Ho]; · iexact Ho
    isplitl [H0]; · iexact H0
    isplitl [H1]; · iexact H1
    iexact H2

/-- The body obligation at every point. -/
theorem body_obligation0 (c : Dev nD) : BodyObligation (dat0 (F := F) V c) (defs₀ (F := F)) Variants.none () Set.univ := fun t => by
  rw [bigSep_W0, bigSep_W0]
  exact sound_body0 V c t

/-! ## Into the region and out of it -/

theorem hin0 (c : Dev nD) : (Pipeline.ΦA spec0 c : sProp 𝕄) ⊢ (dat0 V c).Φ 0 := by
  rw [show (dat0 V c).Φ 0 = Inv0 V c 0 (Nat.zero_le _) from rfl, Inv0_zero V c 0 _ rfl]
  try exact Idealize.SL.BI.Entails.refl _

/-- After the last point the invariant gives the class invariant back: the running sum's name is forgotten. -/
theorem hout0 (c : Dev nD) : (dat0 V c).Φ (Fin.last cfg0.N) ⊢ (Pipeline.ΦA spec0 c : sProp 𝕄) := by
  rw [show (dat0 V c).Φ (Fin.last cfg0.N) = Inv0 V c (Fin.last cfg0.N).val (Nat.le_of_lt_succ (Fin.last cfg0.N).isLt) from rfl,
    Inv0_pos V c _ _ (by rw [Fin.val_last]; have : cfg0.N = 32 := N_0; omega), PhiA0_eq]
  iintro ⟨⟨HS, Hoth⟩, Hg⟩
  isplitl [HS Hoth]
  · isplitl [HS]
    · iexists _; iexact HS
    iexact Hoth
  iexact Hg

end Cert.KernelIdeal.Hand

end
-- ==== Proof.KI.R1Base.lean ====
/-
  Region 1 (out = (x·W0ᵀ + T1·W1ᵀ) + (2·(L·T1) − x)·W2ᵀ): the blocks its windows stage, the two conditions of its
  body decided over the 8×4 grid (the accumulator is reset where k = 0, the output block is stored where k = 3),
  where its output window is idle, and the region invariant spelt with the accumulator scratch set apart.
-/
import proofs.«175496_j70763881168941_2_alg».proof.Proof.Gen.KernelIdeal.Launch
import proofs.«175496_j70763881168941_2_alg».proof.Proof.Gen.KernelIdeal.Skeleton
import proofs.«175496_j70763881168941_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The blocks the windows stage -/

/-- Window `w`'s block at grid point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The tile of `L` (window 0) sits in its staging buffer at every point, fetched there or not. -/
theorem holds1_0 {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The whole of `T1` (window 1, fetched once) sits in its staging buffer at every point. -/
theorem holds1_1 {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The block of `x` (window 2, fetched where k = 0 and kept elsewhere) sits in its staging buffer at every point. -/
theorem holds1_2 {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-- The first weight matrix (window 3, fetched once) sits in its staging buffer at every point. -/
theorem holds1_3 {c : Dev nD} (dat : Dat τ (Elt F) Unit ℕ (UR sig nD τ) ℕ cfg1 c) (hA : dat.A 3 = V c (Pipeline.arrRef spec1 3))
    (hafter : ∀ t, dat.after 3 t = blk1 V c 3 t) (t : Fin cfg1.N) (d) : dat.before 3 t d = blk1 V c 3 t :=
  (dat.before_in_eq_fetched 3 rfl (fun _ => rfl) (fun _ _ _ => rfl) (fun t => by rw [hafter]; unfold Dat.blockOf blk1; rw [hA]; try rfl) t d).trans
    (by unfold Dat.fetched Dat.blockOf blk1; rw [hA]; try rfl)

/-- The second weight matrix (window 4, fetched once) sits in its staging buffer at every point. -/
theorem holds1_4 {c : Dev nD} (dat : Dat τ (Elt F) Unit ℕ (UR sig nD τ) ℕ cfg1 c) (hA : dat.A 4 = V c (Pipeline.arrRef spec1 4))
    (hafter : ∀ t, dat.after 4 t = blk1 V c 4 t) (t : Fin cfg1.N) (d) : dat.before 4 t d = blk1 V c 4 t :=
  (dat.before_in_eq_fetched 4 rfl (fun _ => rfl) (fun _ _ _ => rfl) (fun t => by rw [hafter]; unfold Dat.blockOf blk1; rw [hA]; try rfl) t d).trans
    (by unfold Dat.fetched Dat.blockOf blk1; rw [hA]; try rfl)

/-- The third weight matrix (window 5, fetched once) sits in its staging buffer at every point. -/
theorem holds1_5 {c : Dev nD} (dat : Dat τ (Elt F) Unit ℕ (UR sig nD τ) ℕ cfg1 c) (hA : dat.A 5 = V c (Pipeline.arrRef spec1 5))
    (hafter : ∀ t, dat.after 5 t = blk1 V c 5 t) (t : Fin cfg1.N) (d) : dat.before 5 t d = blk1 V c 5 t :=
  (dat.before_in_eq_fetched 5 rfl (fun _ => rfl) (fun _ _ _ => rfl) (fun t => by rw [hafter]; unfold Dat.blockOf blk1; rw [hA]; try rfl) t d).trans
    (by unfold Dat.fetched Dat.blockOf blk1; rw [hA]; try rfl)

/-! ## The body's two conditions over the grid -/

/-- "k = 0": the accumulator is reset. -/
abbrev isFirst1 (i : grid1.Coords) : Prop := (Scalar.cmpi .ne (Scalar.extui (Scalar.cmpi .eq (BitVec.ofNat 32 (i 1).val) 0#32)) 0#32) = 1#1
theorem isFirst1_iff : ∀ t : Fin cfg1.N, isFirst1 (grid1.coords t) ↔ t.val % 4 = 0 :=
  (by decide +kernel : ∀ t : Fin grid1.N, isFirst1 (grid1.coords t) ↔ t.val % 4 = 0)

/-- "k = 3": the output block is computed from the accumulated rows and stored. -/
abbrev isLast1 (i : grid1.Coords) : Prop := k1_cond2 i = 1#1
theorem isLast1_iff : ∀ t : Fin cfg1.N, isLast1 (grid1.coords t) ↔ t.val % 4 = 3 :=
  (by decide +kernel : ∀ t : Fin grid1.N, isLast1 (grid1.coords t) ↔ t.val % 4 = 3)

/-! ## Where the windows are idle -/

theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel
theorem live1_3 : ∀ t : Fin cfg1.N, cfg1.idle 3 (grid1.coords t) = false := by decide +kernel
theorem live1_4 : ∀ t : Fin cfg1.N, cfg1.idle 4 (grid1.coords t) = false := by decide +kernel
theorem live1_5 : ∀ t : Fin cfg1.N, cfg1.idle 5 (grid1.coords t) = false := by decide +kernel
/-- Where k ≠ 3 the output window is idle and is not written back. -/
theorem idle1_6 : ∀ t : Fin cfg1.N, ¬isLast1 (grid1.coords t) → cfg1.idle 6 (grid1.coords t) = true := by decide +kernel
theorem keep1_6 : ∀ t : Fin cfg1.N, ¬isLast1 (grid1.coords t) → (cfg1.win 6).flush t = false := by decide +kernel
/-- Where k = 3 it is live. -/
theorem live1_6 : ∀ t : Fin cfg1.N, isLast1 (grid1.coords t) → cfg1.idle 6 (grid1.coords t) = false := by decide +kernel

/-! ## The memrefs the body is called with -/

abbrev ms1_0 (t : Fin cfg1.N) : Memref sig .tc .vmem S1024x2048 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8192x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1024x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S128x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S128x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x128 .f32 := win1_6.stage (cfg1.slots t 6)
abbrev hs1_6 (t : Fin cfg1.N) : (ms1_6 t).IsWhole := hstage1_6 ((cfg1.slots t 6).cast nbuf1_6)
/-- The accumulator: a whole scoped buffer of the kernel's own. -/
abbrev accM1 : Memref sig .tc .vmem S1024x128 .f32 := Memref.whole cc1_scratch0

/-- The rectangles the body reads and writes through. -/
abbrev rL1 : Rect S1024x2048 := Rect.unit (s := S1024x2048) ![0, 0] S1024x2048.size inb_S1024x2048_S1024x2048_0_0
abbrev rO1 : Rect S1024x128 := Rect.unit (s := S1024x128) ![0, 0] S1024x128.size inb_S1024x128_S1024x128_0_0
abbrev rW1 : Rect S128x128 := Rect.unit (s := S128x128) ![0, 0] S128x128.size inb_S128x128_S128x128_0_0
/-- The 2048 rows of `T1` the tile of `L` meets. -/
abbrev rX1 (i : grid1.Coords) : Rect S8192x128 := Rect.unit (s := S8192x128) (k1_off1 i) S2048x128.size (k1_off1_inb i)
/-- The 1024 rows of `T1` of the output block (read where k = 3). -/
abbrev rT1 (i : grid1.Coords) (hl : k1_cond2 i = 1#1) : Rect S8192x128 := Rect.unit (s := S8192x128) (k1_off2 i) S1024x128.size (k1_off2_inb i hl)

/-! ## The region invariant with the accumulator set apart -/

/-- The core's scoped buffers that are no staging buffer of this call: the first call's staging buffers and scratch,
    each whole at some contents (the body never touches them), and last the accumulator, at `P`. -/
def scoped1 (c : Dev nD) (P : sProp 𝕄) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f) ∗ P)

/-- The class invariant is: the other scoped buffers with the accumulator at some contents, the generator register. -/
theorem PhiA1_eq (c : Dev nD) :
    (Pipeline.ΦA spec1 c : sProp 𝕄)
      = iprop(scoped1 (F := F) c iprop(∃ d, owns (c : Thread nD τ) accM1 fullShare d) ∗ (∃ r, prngReg c r)) := by
  unfold Pipeline.ΦA scoped1; rw [scopedRest1_eq]; simp only [accM1, owns_whole]; try rfl

end Cert.KernelIdeal.Hand

end
-- ==== Proof.KI.R1Step.lean ====
/-
  Region 1's body in values: what it leaves in the accumulator (the incoming sum plus the tile of L times the rows of
  T1 it meets) and, where k = 3, in the output block.
-/
import proofs.«175496_j70763881168941_2_alg».proof.Proof.KI.R1Base
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2_1 : (![0, 0] : Fin 2 → Nat) = fun _ => 0 := funext fun a => by fin_cases a <;> rfl

/-- The accumulator after the body: the incoming sum `pf` plus the tile of `L` times the rows of `T1` it meets. -/
abbrev step1 (i : grid1.Coords) (x0 : Vec F S1024x2048 .f32) (x1 : Vec F S8192x128 .f32) (pf : Vec F S1024x128 .f32) : Vec F S1024x128 .f32 :=
  k1_pay2 (View.ld x0 rL1) (View.ld x1 (rX1 i)) pf

/-- The output block where k = 3: from the block's 1024 rows of `T1`, the block `x2` of `x`, the finished sum `acc` (the
    block's rows of L·T1) and the three weight matrices:  (x2·x3 + T1rows·x4) + (2·acc − x2)·x5. -/
abbrev fin1 (i : grid1.Coords) (hl : isLast1 i) (x1 : Vec F S8192x128 .f32) (x2 : Vec F S1024x128 .f32) (x3 x4 x5 : Vec F S128x128 .f32) (acc : Vec F S1024x128 .f32) : Vec F S1024x128 .f32 :=
  k1_pay3 (View.ld x1 (rT1 i hl)) x2 acc x3 x4 x5

end Cert.KernelIdeal.Hand

end
-- ==== Proof.KI.R1BodyTT.lean ====
/-
  Region 1's body at a grid point where k = 0 and k = 3: the accumulator is reset to the zero block, then receives the
  tile of L times the rows of T1 it meets, and the output block is computed from the finished sum and stored.
-/
import proofs.«175496_j70763881168941_2_alg».proof.Proof.KI.R1Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body1_TT (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1024x128 .f32) (harg8 : arg8.IsWhole) (arg9 : Memref sig .tc .vmem S1024x128 .f32) (harg9 : arg9.IsWhole)
    (hf : isFirst1 i) (hl : isLast1 i)
    (x0 : Vec F S1024x2048 .f32) (x1 : Vec F S8192x128 .f32) (x2 : Vec F S1024x128 .f32) (x3 x4 x5 : Vec F S128x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin1 i hl x1 x2 x3 x4 x5 (step1 i x0 x1 (k1_pay1 (F := F))))
            ∗ owns (c : Thread nD τ) arg9 fullShare (step1 i x0 x1 (k1_pay1 (F := F)))) -∗ K ⟨⟩))
      ⊢ wp frame (wpE (defs₀ (F := F)) Variants.none c none) E (cc1__matmul2_combine_kernel i arg2 harg2 arg3 harg3 arg4 harg4 arg5 harg5 arg6 harg6 arg7 harg7 arg8 harg8 arg9 harg9) K := by
  simp only [cc1__matmul2_combine_kernel_eq_skeleton]; unfold cc1__matmul2_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words
    rw [View.read_writes_eq_canon _ _ _ (fun y => ⟨_, List.mem_cons_self, View.mem_set_unit_zero hz2_1 inb_S1024x128_S1024x128_0_0 y⟩), View.canon_cons_unit_zero (S := S1024x128) hz2_1,
      View.readCov_eq_canon_ld _ _ _ (fun y => ⟨_, List.mem_cons_self, View.mem_set_unit_zero hz2_1 inb_S1024x128_S1024x128_0_0 y⟩), View.canon_cons_unit_zero (S := S1024x128) hz2_1, View.ld_unit_zero (S := S1024x128) hz2_1]
    simp only [View.readCov_unit_zero (S := S1024x128) _ hz2_1, View.readAt_eq_ld, harg2.read_unread, harg3.read_unread, harg4.read_unread, harg5.read_unread, harg6.read_unread, harg7.read_unread, harg9.read_unread, View.ld_unit_zero (S := S1024x128) hz2_1, View.ld_unit_zero (S := S128x128) hz2_1]
    rfl
  iexists _; isplitr
  swap; · iexact HS
  ipureintro
  sl_unfold_words
  rw [View.read_writes_eq_canon _ _ _ (fun y => ⟨_, List.mem_cons_self, View.mem_set_unit_zero hz2_1 inb_S1024x128_S1024x128_0_0 y⟩), View.canon_cons_unit_zero (S := S1024x128) hz2_1]
  simp only [View.readCov_unit_zero (S := S1024x128) _ hz2_1, View.readAt_eq_ld, harg2.read_unread, harg3.read_unread, harg4.read_unread, harg5.read_unread, harg6.read_unread, harg7.read_unread, harg9.read_unread, View.ld_unit_zero (S := S1024x128) hz2_1, View.ld_unit_zero (S := S128x128) hz2_1]
  rfl

end Cert.KernelIdeal.Hand

end
-- ==== Proof.KI.R1BodyTF.lean ====
/-
  Region 1's body at a grid point where k = 0 and k ≠ 3: the accumulator is reset to the zero block, then receives the
  tile of L times the rows of T1 it meets; the output block's buffer is left as found.
-/
import proofs.«175496_j70763881168941_2_alg».proof.Proof.KI.R1Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body1_TF (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1024x128 .f32) (harg8 : arg8.IsWhole) (arg9 : Memref sig .tc .vmem S1024x128 .f32) (harg9 : arg9.IsWhole)
    (hf : isFirst1 i) (hl : ¬isLast1 i)
    (x0 : Vec F S1024x2048 .f32) (x1 : Vec F S8192x128 .f32) (x2 : Vec F S1024x128 .f32) (x3 x4 x5 : Vec F S128x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi
            ∗ owns (c : Thread nD τ) arg9 fullShare (step1 i x0 x1 (k1_pay1 (F := F)))) -∗ K ⟨⟩))
      ⊢ wp frame (wpE (defs₀ (F := F)) Variants.none c none) E (cc1__matmul2_combine_kernel i arg2 harg2 arg3 harg3 arg4 harg4 arg5 harg5 arg6 harg6 arg7 harg7 arg8 harg8 arg9 harg9) K := by
  simp only [cc1__matmul2_combine_kernel_eq_skeleton]; unfold cc1__matmul2_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    exact harg8.read_unread _
  iexists _; isplitr
  swap; · iexact HS
  ipureintro
  sl_unfold_words
  rw [View.read_writes_eq_canon _ _ _ (fun y => ⟨_, List.mem_cons_self, View.mem_set_unit_zero hz2_1 inb_S1024x128_S1024x128_0_0 y⟩), View.canon_cons_unit_zero (S := S1024x128) hz2_1]
  simp only [View.readCov_unit_zero (S := S1024x128) _ hz2_1, View.readAt_eq_ld, harg2.read_unread, harg3.read_unread, harg4.read_unread, harg5.read_unread, harg6.read_unread, harg7.read_unread, harg9.read_unread, View.ld_unit_zero (S := S1024x128) hz2_1, View.ld_unit_zero (S := S128x128) hz2_1]
  rfl

end Cert.KernelIdeal.Hand

end
-- ==== Proof.KI.R1BodyFT.lean ====
/-
  Region 1's body at a grid point where k ≠ 0 and k = 3: the accumulator receives the
  tile of L times the rows of T1 it meets, and the output block is computed from the finished sum and stored.
-/
import proofs.«175496_j70763881168941_2_alg».proof.Proof.KI.R1Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body1_FT (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1024x128 .f32) (harg8 : arg8.IsWhole) (arg9 : Memref sig .tc .vmem S1024x128 .f32) (harg9 : arg9.IsWhole)
    (hf : ¬isFirst1 i) (hl : isLast1 i)
    (x0 : Vec F S1024x2048 .f32) (x1 : Vec F S8192x128 .f32) (x2 : Vec F S1024x128 .f32) (x3 x4 x5 : Vec F S128x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (fin1 i hl x1 x2 x3 x4 x5 (step1 i x0 x1 prev))
            ∗ owns (c : Thread nD τ) arg9 fullShare (step1 i x0 x1 prev)) -∗ K ⟨⟩))
      ⊢ wp frame (wpE (defs₀ (F := F)) Variants.none c none) E (cc1__matmul2_combine_kernel i arg2 harg2 arg3 harg3 arg4 harg4 arg5 harg5 arg6 harg6 arg7 harg7 arg8 harg8 arg9 harg9) K := by
  simp only [cc1__matmul2_combine_kernel_eq_skeleton]; unfold cc1__matmul2_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    sl_unfold_words
    rw [View.read_writes_eq_canon _ _ _ (fun y => ⟨_, List.mem_cons_self, View.mem_set_unit_zero hz2_1 inb_S1024x128_S1024x128_0_0 y⟩), View.canon_cons_unit_zero (S := S1024x128) hz2_1,
      View.readCov_eq_canon_ld _ _ _ (fun y => ⟨_, List.mem_cons_self, View.mem_set_unit_zero hz2_1 inb_S1024x128_S1024x128_0_0 y⟩), View.canon_cons_unit_zero (S := S1024x128) hz2_1, View.ld_unit_zero (S := S1024x128) hz2_1]
    simp only [View.readCov_unit_zero (S := S1024x128) _ hz2_1, View.readAt_eq_ld, harg2.read_unread, harg3.read_unread, harg4.read_unread, harg5.read_unread, harg6.read_unread, harg7.read_unread, harg9.read_unread, View.ld_unit_zero (S := S1024x128) hz2_1, View.ld_unit_zero (S := S128x128) hz2_1]
    rfl
  iexists _; isplitr
  swap; · iexact HS
  ipureintro
  sl_unfold_words
  rw [View.read_writes_eq_canon _ _ _ (fun y => ⟨_, List.mem_cons_self, View.mem_set_unit_zero hz2_1 inb_S1024x128_S1024x128_0_0 y⟩), View.canon_cons_unit_zero (S := S1024x128) hz2_1]
  simp only [View.readCov_unit_zero (S := S1024x128) _ hz2_1, View.readAt_eq_ld, harg2.read_unread, harg3.read_unread, harg4.read_unread, harg5.read_unread, harg6.read_unread, harg7.read_unread, harg9.read_unread, View.ld_unit_zero (S := S1024x128) hz2_1, View.ld_unit_zero (S := S128x128) hz2_1]
  rfl

end Cert.KernelIdeal.Hand

end
-- ==== Proof.KI.R1BodyFF.lean ====
/-
  Region 1's body at a grid point where k ≠ 0 and k ≠ 3: the accumulator receives the
  tile of L times the rows of T1 it meets; the output block's buffer is left as found.
-/
import proofs.«175496_j70763881168941_2_alg».proof.Proof.KI.R1Step
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
theorem body1_FF (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1024x128 .f32) (harg8 : arg8.IsWhole) (arg9 : Memref sig .tc .vmem S1024x128 .f32) (harg9 : arg9.IsWhole)
    (hf : ¬isFirst1 i) (hl : ¬isLast1 i)
    (x0 : Vec F S1024x2048 .f32) (x1 : Vec F S8192x128 .f32) (x2 : Vec F S1024x128 .f32) (x3 x4 x5 : Vec F S128x128 .f32) (xi prev : Vec F S1024x128 .f32)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi
            ∗ owns (c : Thread nD τ) arg9 fullShare (step1 i x0 x1 prev)) -∗ K ⟨⟩))
      ⊢ wp frame (wpE (defs₀ (F := F)) Variants.none c none) E (cc1__matmul2_combine_kernel i arg2 harg2 arg3 harg3 arg4 harg4 arg5 harg5 arg6 harg6 arg7 harg7 arg8 harg8 arg9 harg9) K := by
  simp only [cc1__matmul2_combine_kernel_eq_skeleton]; unfold cc1__matmul2_combine_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs, %hfs, HS⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hfs
  sl_exec (disch := first | exact hf | exact hl)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr
    swap; · iexact H6
    ipureintro
    exact harg8.read_unread _
  iexists _; isplitr
  swap; · iexact HS
  ipureintro
  sl_unfold_words
  rw [View.read_writes_eq_canon _ _ _ (fun y => ⟨_, List.mem_cons_self, View.mem_set_unit_zero hz2_1 inb_S1024x128_S1024x128_0_0 y⟩), View.canon_cons_unit_zero (S := S1024x128) hz2_1]
  simp only [View.readCov_unit_zero (S := S1024x128) _ hz2_1, View.readAt_eq_ld, harg2.read_unread, harg3.read_unread, harg4.read_unread, harg5.read_unread, harg6.read_unread, harg7.read_unread, harg9.read_unread, View.ld_unit_zero (S := S1024x128) hz2_1, View.ld_unit_zero (S := S128x128) hz2_1]
  rfl

end Cert.KernelIdeal.Hand

end
-- ==== Proof.KI.R1Body.lean ====
/-
  Region 1's body at one grid point, as one triple for every point: from the tile of L, the whole of T1, the block of x,
  the three weight matrices, the output block's buffer and the accumulator at `prev`, it leaves the accumulator at
  pf + tile · rows  (pf the zero block where k = 0, `prev` elsewhere) and, where k = 3, the output block computed from
  that finished sum in the output block's buffer.
-/
import proofs.«175496_j70763881168941_2_alg».proof.Proof.KI.R1BodyTT
import proofs.«175496_j70763881168941_2_alg».proof.Proof.KI.R1BodyTF
import proofs.«175496_j70763881168941_2_alg».proof.Proof.KI.R1BodyFT
import proofs.«175496_j70763881168941_2_alg».proof.Proof.KI.R1BodyFF
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem body1 (c : Dev nD) (i : grid1.Coords) (arg2 : Memref sig .tc .vmem S1024x2048 .f32) (harg2 : arg2.IsWhole) (arg3 : Memref sig .tc .vmem S8192x128 .f32) (harg3 : arg3.IsWhole) (arg4 : Memref sig .tc .vmem S1024x128 .f32) (harg4 : arg4.IsWhole) (arg5 : Memref sig .tc .vmem S128x128 .f32) (harg5 : arg5.IsWhole) (arg6 : Memref sig .tc .vmem S128x128 .f32) (harg6 : arg6.IsWhole) (arg7 : Memref sig .tc .vmem S128x128 .f32) (harg7 : arg7.IsWhole) (arg8 : Memref sig .tc .vmem S1024x128 .f32) (harg8 : arg8.IsWhole) (arg9 : Memref sig .tc .vmem S1024x128 .f32) (harg9 : arg9.IsWhole)
    (x0 : Vec F S1024x2048 .f32) (x1 : Vec F S8192x128 .f32) (x2 : Vec F S1024x128 .f32) (x3 x4 x5 : Vec F S128x128 .f32) (xi prev pf o : Vec F S1024x128 .f32)
    (hpf1 : isFirst1 i → pf = k1_pay1) (hpf2 : ¬isFirst1 i → pf = prev)
    (ho1 : ∀ hl : isLast1 i, o = fin1 i hl x1 x2 x3 x4 x5 (step1 i x0 x1 pf)) (ho2 : ¬isLast1 i → o = xi)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi ∗ owns (c : Thread nD τ) arg9 fullShare prev
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare o
            ∗ owns (c : Thread nD τ) arg9 fullShare (step1 i x0 x1 pf)) -∗ K ⟨⟩))
      ⊢ wp frame (wpE (defs₀ (F := F)) Variants.none c none) E (cc1__matmul2_combine_kernel i arg2 harg2 arg3 harg3 arg4 harg4 arg5 harg5 arg6 harg6 arg7 harg7 arg8 harg8 arg9 harg9) K := by
  by_cases hf : isFirst1 i
  · obtain rfl := hpf1 hf
    by_cases hl : isLast1 i
    · obtain rfl := ho1 hl
      exact body1_TT c i arg2 harg2 arg3 harg3 arg4 harg4 arg5 harg5 arg6 harg6 arg7 harg7 arg8 harg8 arg9 harg9 hf hl x0 x1 x2 x3 x4 x5 xi prev E K
    · obtain rfl := ho2 hl
      exact body1_TF c i arg2 harg2 arg3 harg3 arg4 harg4 arg5 harg5 arg6 harg6 arg7 harg7 arg8 harg8 arg9 harg9 hf hl x0 x1 x2 x3 x4 x5 _ prev E K
  · obtain rfl := hpf2 hf
    by_cases hl : isLast1 i
    · obtain rfl := ho1 hl
      exact body1_FT c i arg2 harg2 arg3 harg3 arg4 harg4 arg5 harg5 arg6 harg6 arg7 harg7 arg8 harg8 arg9 harg9 hf hl x0 x1 x2 x3 x4 x5 xi _ E K
    · obtain rfl := ho2 hl
      exact body1_FF c i arg2 harg2 arg3 harg3 arg4 harg4 arg5 harg5 arg6 harg6 arg7 harg7 arg8 harg8 arg9 harg9 hf hl x0 x1 x2 x3 x4 x5 _ _ E K

end Cert.KernelIdeal.Hand

end
-- ==== Proof.KI.R1.lean ====
/-
  Region 1 (the output from T1, x and the weights) as a pipeline: the running sum its accumulator holds after each grid
  point, the output block where k = 3, the region invariant that carries the sum from one point to the next, the proof
  data, and the body obligation at every point.
-/
import proofs.«175496_j70763881168941_2_alg».proof.Proof.KI.R1Body
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The running sum -/

/-- What the accumulator holds after the body at position `n` of the grid's row-major order (n = 4a + k): the sum over
    k' ≤ k of the tile (a, k') of `L` times rows 2048k'.. of `T1`, added in order onto the zero block. -/
def acc1 (c : Dev nD) : (n : ℕ) → n < cfg1.N → Vec F S1024x128 .f32
  | 0, hn => step1 (grid1.coords ⟨0, hn⟩) (blk1 V c 0 ⟨0, hn⟩) (blk1 V c 1 ⟨0, hn⟩) k1_pay1
  | n + 1, hn => step1 (grid1.coords ⟨n + 1, hn⟩) (blk1 V c 0 ⟨n + 1, hn⟩) (blk1 V c 1 ⟨n + 1, hn⟩)
      (if (n + 1) % 4 = 0 then k1_pay1 else acc1 c n (Nat.lt_of_succ_lt hn))

/-- The sum the body at position `n` adds onto: the zero block where k = 0, the sum so far elsewhere. -/
def base1 (c : Dev nD) (n : ℕ) (hn : n < cfg1.N) : Vec F S1024x128 .f32 :=
  if n % 4 = 0 then k1_pay1 else acc1 V c (n - 1) (Nat.lt_of_le_of_lt (Nat.sub_le _ _) hn)

theorem acc1_eq (c : Dev nD) (t : Fin cfg1.N) :
    acc1 V c t.val t.isLt = step1 (grid1.coords t) (blk1 V c 0 t) (blk1 V c 1 t) (base1 V c t.val t.isLt) := by
  obtain ⟨n, hn⟩ := t
  cases n with
  | zero => rfl
  | succ n => rfl

/-- What the output block's buffer holds after the body at point `t`: where k = 3 the output block computed from the
    finished sum; elsewhere it is not named by anything (the running sum stands in). -/
def res1 (c : Dev nD) (t : Fin cfg1.N) : Vec F S1024x128 .f32 :=
  if h : t.val % 4 = 3 then
    fin1 (grid1.coords t) ((isLast1_iff t).mpr h) (blk1 V c 1 t) (blk1 V c 2 t) (blk1 V c 3 t) (blk1 V c 4 t) (blk1 V c 5 t) (acc1 V c t.val t.isLt)
  else acc1 V c t.val t.isLt

/-- At a point with k = 3: the output block, explicitly. -/
theorem res1_last (c : Dev nD) (t : Fin cfg1.N) (h : t.val % 4 = 3) :
    res1 V c t = fin1 (grid1.coords t) ((isLast1_iff t).mpr h) (blk1 V c 1 t) (blk1 V c 2 t) (blk1 V c 3 t) (blk1 V c 4 t) (blk1 V c 5 t) (acc1 V c t.val t.isLt) := by
  unfold res1; exact dif_pos h

/-! ## The invariant between points -/

/-- Before position `n`: at the region's entry the class invariant (the accumulator at anything); afterwards the
    accumulator at the running sum the point before left, the core's other scoped buffers and the generator register
    untouched. -/
def Inv1 (c : Dev nD) : (n : ℕ) → n ≤ cfg1.N → sProp 𝕄
  | 0, _ => Pipeline.ΦA spec1 c
  | n + 1, hn => iprop(scoped1 (F := F) c (owns (c : Thread nD τ) accM1 fullShare (acc1 V c n hn)) ∗ (∃ r, prngReg c r))

theorem Inv1_zero (c : Dev nD) (n : ℕ) (h : n ≤ cfg1.N) (hz : n = 0) : Inv1 V c n h = Pipeline.ΦA spec1 c := by
  subst hz; rfl
theorem Inv1_succ (c : Dev nD) (n : ℕ) (hn : n < cfg1.N) :
    Inv1 V c (n + 1) hn = iprop(scoped1 (F := F) c (owns (c : Thread nD τ) accM1 fullShare (acc1 V c n hn)) ∗ (∃ r, prngReg c r)) := rfl
theorem Inv1_pos (c : Dev nD) (n : ℕ) (h : n ≤ cfg1.N) (hz : n ≠ 0) :
    Inv1 V c n h = iprop(scoped1 (F := F) c (owns (c : Thread nD τ) accM1 fullShare (acc1 V c (n - 1) (by omega))) ∗ (∃ r, prngReg c r)) := by
  cases n with
  | zero => exact absurd rfl hz
  | succ n => rfl

/-! ## The proof data -/

/-- Region 1's proof data on core `c`: the arrays as the region finds them; after the body each input's buffer at its
    block, the output block's buffer at `res1` (it is written back only where k = 3, where it is the output block). -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => res1 V c t
  Φ t := Inv1 V c t.val (Nat.le_of_lt_succ t.isLt)
  q _ := fullShare
  owed _ := 0

theorem A_eq1 (c : Dev nD) (w : Fin cfg1.W) : (dat1 V c).A w = V c (Pipeline.arrRef spec1 w) := by dsimp only [dat1]
theorem q_eq1 (c : Dev nD) (w : Fin cfg1.W) : (dat1 V c).q w = fullShare := rfl
theorem owed_eq1 (c : Dev nD) (t : Fin (cfg1.N + 1)) : (dat1 V c).owed t = 0 := rfl
theorem recorded_eq1 (c : Dev nD) (t : Fin (cfg1.N + 1)) : (dat1 V c).recorded t = Set.univ := rfl
theorem after1_0 (c : Dev nD) (t : Fin cfg1.N) : (dat1 V c).after 0 t = blk1 V c 0 t := by dsimp only [dat1]
theorem after1_1 (c : Dev nD) (t : Fin cfg1.N) : (dat1 V c).after 1 t = blk1 V c 1 t := by dsimp only [dat1]
theorem after1_2 (c : Dev nD) (t : Fin cfg1.N) : (dat1 V c).after 2 t = blk1 V c 2 t := by dsimp only [dat1]
theorem after1_3 (c : Dev nD) (t : Fin cfg1.N) : (dat1 V c).after 3 t = blk1 V c 3 t := by dsimp only [dat1]
theorem after1_4 (c : Dev nD) (t : Fin cfg1.N) : (dat1 V c).after 4 t = blk1 V c 4 t := by dsimp only [dat1]
theorem after1_5 (c : Dev nD) (t : Fin cfg1.N) : (dat1 V c).after 5 t = blk1 V c 5 t := by dsimp only [dat1]
theorem after1_6 (c : Dev nD) (t : Fin cfg1.N) : (dat1 V c).after 6 t = res1 V c t := by dsimp only [dat1]
theorem found1_0 (c : Dev nD) (t : Fin cfg1.N) (d) : (dat1 V c).before 0 t d = blk1 V c 0 t :=
  holds1_0 V (dat1 V c) (A_eq1 V c 0) (after1_0 V c) t d
theorem found1_1 (c : Dev nD) (t : Fin cfg1.N) (d) : (dat1 V c).before 1 t d = blk1 V c 1 t :=
  holds1_1 V (dat1 V c) (A_eq1 V c 1) (after1_1 V c) t d
theorem found1_2 (c : Dev nD) (t : Fin cfg1.N) (d) : (dat1 V c).before 2 t d = blk1 V c 2 t :=
  holds1_2 V (dat1 V c) (A_eq1 V c 2) (after1_2 V c) t d
theorem found1_3 (c : Dev nD) (t : Fin cfg1.N) (d) : (dat1 V c).before 3 t d = blk1 V c 3 t :=
  holds1_3 V (dat1 V c) (A_eq1 V c 3) (after1_3 V c) t d
theorem found1_4 (c : Dev nD) (t : Fin cfg1.N) (d) : (dat1 V c).before 4 t d = blk1 V c 4 t :=
  holds1_4 V (dat1 V c) (A_eq1 V c 4) (after1_4 V c) t d
theorem found1_5 (c : Dev nD) (t : Fin cfg1.N) (d) : (dat1 V c).before 5 t d = blk1 V c 5 t :=
  holds1_5 V (dat1 V c) (A_eq1 V c 5) (after1_5 V c) t d
theorem Phi1_start (c : Dev nD) (t : Fin cfg1.N) : (dat1 V c).Φ t.castSucc = Inv1 V c t.val (Nat.le_of_lt t.isLt) := by
  dsimp only [dat1]; simp only [Fin.coe_castSucc]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 1600000 in
/-- From the accumulator at ANY contents `prev` that agree with the running sum where the point adds onto it, the body
    at point `t` re-establishes everything: one application of the body's triple. -/
theorem point1 (c : Dev nD) (t : Fin cfg1.N) (prev : Vec F S1024x128 .f32)
    (hprev : ¬t.val % 4 = 0 → prev = acc1 V c (t.val - 1) (Nat.lt_of_le_of_lt (Nat.sub_le _ _) t.isLt)) (d6) :
    iprop(iprop(scoped1 (F := F) c (owns (c : Thread nD τ) accM1 fullShare prev) ∗ (∃ r, prngReg c r)) ∗ (dat1 V c).owesAt () t.castSucc
      ∗ owns (c : Thread nD τ) (ms1_0 t) fullShare (blk1 V c 0 t)
      ∗ owns (c : Thread nD τ) (ms1_1 t) fullShare (blk1 V c 1 t)
      ∗ owns (c : Thread nD τ) (ms1_2 t) fullShare (blk1 V c 2 t)
      ∗ owns (c : Thread nD τ) (ms1_3 t) fullShare (blk1 V c 3 t)
      ∗ owns (c : Thread nD τ) (ms1_4 t) fullShare (blk1 V c 4 t)
      ∗ owns (c : Thread nD τ) (ms1_5 t) fullShare (blk1 V c 5 t)
      ∗ owns (c : Thread nD τ) (ms1_6 t) fullShare ((dat1 V c).before 6 t d6))
    ⊢ wp frame (wpE (defs₀ (F := F)) Variants.none c none) Set.univ (bodyAt1 t) (fun _ => bodyPost1 V c t) := by
  unfold bodyPost1 bodyAt1
  rw [show (dat1 V c).owesAt () t.succ = (dat1 V c).owesAt () t.castSucc from rfl]
  rw [show (dat1 V c).Φ t.succ = Inv1 V c (t.val + 1) t.isLt from rfl, Inv1_succ]
  rw [show (dat1 V c).leavesExact 0 t = owns (c : Thread nD τ) (ms1_0 t) fullShare ((dat1 V c).after 0 t) from by
    unfold Dat.leavesExact; rw [live1_0 t], after1_0]
  rw [show (dat1 V c).leavesExact 1 t = owns (c : Thread nD τ) (ms1_1 t) fullShare ((dat1 V c).after 1 t) from by
    unfold Dat.leavesExact; rw [live1_1 t], after1_1]
  rw [show (dat1 V c).leavesExact 2 t = owns (c : Thread nD τ) (ms1_2 t) fullShare ((dat1 V c).after 2 t) from by
    unfold Dat.leavesExact; rw [live1_2 t], after1_2]
  rw [show (dat1 V c).leavesExact 3 t = owns (c : Thread nD τ) (ms1_3 t) fullShare ((dat1 V c).after 3 t) from by
    unfold Dat.leavesExact; rw [live1_3 t], after1_3]
  rw [show (dat1 V c).leavesExact 4 t = owns (c : Thread nD τ) (ms1_4 t) fullShare ((dat1 V c).after 4 t) from by
    unfold Dat.leavesExact; rw [live1_4 t], after1_4]
  rw [show (dat1 V c).leavesExact 5 t = owns (c : Thread nD τ) (ms1_5 t) fullShare ((dat1 V c).after 5 t) from by
    unfold Dat.leavesExact; rw [live1_5 t], after1_5]
  have hbase : base1 V c t.val t.isLt = (if t.val % 4 = 0 then k1_pay1 else prev) := by
    unfold base1; split
    · rfl
    · rename_i h; exact (hprev h).symm
  unfold scoped1
  by_cases hl : t.val % 4 = 3
  · rw [show (dat1 V c).leavesExact 6 t = owns (c : Thread nD τ) (ms1_6 t) fullShare ((dat1 V c).after 6 t) from by
      unfold Dat.leavesExact; rw [live1_6 t ((isLast1_iff t).mpr hl)], after1_6, res1_last V c t hl, acc1_eq V c t]
    iintro ⟨⟨⟨Hb0, Hb1, Hb2, Hb3, Hb4, Hb5, HS⟩, Hg⟩, Ho, H0, H1, H2, H3, H4, H5, H6⟩
    iapply (body1 c (grid1.coords t) _ _ _ _ _ _ _ _ _ _ _ _ _ _ _ _ (blk1 V c 0 t) (blk1 V c 1 t) (blk1 V c 2 t) (blk1 V c 3 t) (blk1 V c 4 t) (blk1 V c 5 t) ((dat1 V c).before 6 t d6) prev (base1 V c t.val t.isLt)
      (fin1 (grid1.coords t) ((isLast1_iff t).mpr hl) (blk1 V c 1 t) (blk1 V c 2 t) (blk1 V c 3 t) (blk1 V c 4 t) (blk1 V c 5 t) (step1 (grid1.coords t) (blk1 V c 0 t) (blk1 V c 1 t) (base1 V c t.val t.isLt)))
      (fun h => by rw [hbase, if_pos ((isFirst1_iff t).mp h)]) (fun h => by rw [hbase, if_neg (fun h' => h ((isFirst1_iff t).mpr h'))])
      (fun _ => rfl) (fun h => absurd ((isLast1_iff t).mpr hl) h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [Hb0 Hb1 Hb2 Hb3 Hb4 Hb5 HS Hg]
    · isplitl [Hb0 Hb1 Hb2 Hb3 Hb4 Hb5 HS]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat1 V c) 6 t (idle1_6 t (fun h => hl ((isLast1_iff t).mp h))) (keep1_6 t (fun h => hl ((isLast1_iff t).mp h))), acc1_eq V c t]
    iintro ⟨⟨⟨Hb0, Hb1, Hb2, Hb3, Hb4, Hb5, HS⟩, Hg⟩, Ho, H0, H1, H2, H3, H4, H5, H6⟩
    iapply (body1 c (grid1.coords t) _ _ _ _ _ _ _ _ _ _ _ _ _ _ _ _ (blk1 V c 0 t) (blk1 V c 1 t) (blk1 V c 2 t) (blk1 V c 3 t) (blk1 V c 4 t) (blk1 V c 5 t) ((dat1 V c).before 6 t d6) prev (base1 V c t.val t.isLt)
      ((dat1 V c).before 6 t d6)
      (fun h => by rw [hbase, if_pos ((isFirst1_iff t).mp h)]) (fun h => by rw [hbase, if_neg (fun h' => h ((isFirst1_iff t).mpr h'))])
      (fun h => absurd ((isLast1_iff t).mp h) hl) (fun _ => rfl) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS]; · iexact HS
    iintro ⟨H0, H1, H2, H3, H4, H5, H6, HS⟩
    isplitl [Hb0 Hb1 Hb2 Hb3 Hb4 Hb5 HS Hg]
    · isplitl [Hb0 Hb1 Hb2 Hb3 Hb4 Hb5 HS]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexists _; iexact H6

theorem sound_body1 (c : Dev nD) (t : Fin cfg1.N) :
    bodyPre1 V c t ⊢ wp frame (wpE (defs₀ (F := F)) Variants.none c none) Set.univ (bodyAt1 t) (fun _ => bodyPost1 V c t) := by
  unfold bodyPre1
  simp only [found1_0, found1_1, found1_2, found1_3, found1_4, found1_5]
  by_cases hz : t.val = 0
  · rw [Phi1_start V c t, Inv1_zero V c _ _ hz, PhiA1_eq]
    unfold scoped1
    iintro ⟨⟨⟨Hb0, Hb1, Hb2, Hb3, Hb4, Hb5, ⟨%d, HS⟩⟩, Hg⟩, Ho, ⟨%d0, H0⟩, ⟨%d1, H1⟩, ⟨%d2, H2⟩, ⟨%d3, H3⟩, ⟨%d4, H4⟩, ⟨%d5, H5⟩, ⟨%d6, H6⟩⟩
    iapply (point1 V c t d (fun h => absurd (by rw [hz]) h) d6)
    unfold scoped1
    isplitl [Hb0 Hb1 Hb2 Hb3 Hb4 Hb5 HS Hg]
    · isplitl [Hb0 Hb1 Hb2 Hb3 Hb4 Hb5 HS]
      · isplitl [Hb0]; · iexact Hb0
        isplitl [Hb1]; · iexact Hb1
        isplitl [Hb2]; · iexact Hb2
        isplitl [Hb3]; · iexact Hb3
        isplitl [Hb4]; · iexact Hb4
        isplitl [Hb5]; · iexact Hb5
        iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Phi1_start V c t, Inv1_pos V c _ _ hz]
    iintro ⟨⟨HS, Hg⟩, Ho, ⟨%d0, H0⟩, ⟨%d1, H1⟩, ⟨%d2, H2⟩, ⟨%d3, H3⟩, ⟨%d4, H4⟩, ⟨%d5, H5⟩, ⟨%d6, H6⟩⟩
    iapply (point1 V c t _ (fun _ => rfl) d6)
    isplitl [HS Hg]
    · isplitl [HS]; · iexact HS
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body obligation at every point. -/
theorem body_obligation1 (c : Dev nD) : BodyObligation (dat1 (F := F) V c) (defs₀ (F := F)) Variants.none () Set.univ := fun t => by
  rw [bigSep_W1, bigSep_W1]
  exact sound_body1 V c t

/-! ## Into the region and out of it -/

theorem hin1 (c : Dev nD) : (Pipeline.ΦA spec1 c : sProp 𝕄) ⊢ (dat1 V c).Φ 0 := by
  rw [show (dat1 V c).Φ 0 = Inv1 V c 0 (Nat.zero_le _) from rfl, Inv1_zero V c 0 _ rfl]
  try exact Idealize.SL.BI.Entails.refl _

/-- After the last point the invariant gives the class invariant back: the running sum's name is forgotten. -/
theorem hout1 (c : Dev nD) : (dat1 V c).Φ (Fin.last cfg1.N) ⊢ (Pipeline.ΦA spec1 c : sProp 𝕄) := by
  rw [show (dat1 V c).Φ (Fin.last cfg1.N) = Inv1 V c (Fin.last cfg1.N).val (Nat.le_of_lt_succ (Fin.last cfg1.N).isLt) from rfl,
    Inv1_pos V c _ _ (by rw [Fin.val_last]; have : cfg1.N = 32 := N_1; omega), PhiA1_eq]
  unfold scoped1
  iintro ⟨⟨Hb0, Hb1, Hb2, Hb3, Hb4, Hb5, HS⟩, Hg⟩
  isplitl [Hb0 Hb1 Hb2 Hb3 Hb4 Hb5 HS]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    iexists _; iexact HS
  iexact Hg

end Cert.KernelIdeal.Hand

end
-- ==== Proof.KI.Run.lean ====
/-
  The run of the program: the first product T1 = L·x, the seven host operations that cut the weight tensor into its three
  matrices, and the second product with the combination; every unscoped buffer followed from the launch to the return,
  at any float instance.
-/
import proofs.«175496_j70763881168941_2_alg».proof.Proof.KI.R0
import proofs.«175496_j70763881168941_2_alg».proof.Proof.KI.R1
import proofs.«175496_j70763881168941_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The run of the program: first product, the weights cut into three matrices, second product and combination

The program is three items in order: the first product `T1 = L·x` (region 0), seven host operations that
transpose the weight tensor and cut it into its three `128 × 128` matrices, and the second product with the
combination (region 1). This module follows every unscoped buffer through the three items, from the memory
at launch to the return, at any float instance. -/

/-! ## The buffer contents at the four boundaries -/

/-- Core `c`'s buffers at launch. -/
abbrev E0 (m : (ℓ : Loc nD τ sig) → Buf (Elt F) ℓ) (ρ : Dev nD → PrngReg) : Dev nD → Valuation τ sig (Elt F) :=
  fun c b => m ((c : Dev nD), b)
/-- The same read at the TensorCore's references: what the first product is entered from. -/
abbrev E0' (m : (ℓ : Loc nD τ sig) → Buf (Elt F) ℓ) (ρ : Dev nD → PrngReg) :
    (c : Dev nD) → (b : Ref sig .tc) → Buf (Elt F) ((c : Thread nD τ).loc b) := fun c b => E0 m ρ c b
/-- After the first product: its three arrays at what the pipeline leaves (`L` and `x` as entered, `T1`'s buffer at
    its write-backs folded), every other buffer as at launch. -/
def E1 (m : (ℓ : Loc nD τ sig) → Buf (Elt F) ℓ) (ρ : Dev nD → PrngReg) (c : Dev nD) : Valuation τ sig (Elt F) :=
  Pipeline.withArrays spec0 c (E0 m ρ c) fun w => (dat0 (E0' m ρ) c).arrAt w cfg0.N
/-- After the seven host operations on the weight tensor. -/
abbrev E2 (m : (ℓ : Loc nD τ sig) → Buf (Elt F) ℓ) (ρ : Dev nD → PrngReg) : Dev nD → Valuation τ sig (Elt F) :=
  fun c => StableHlo.after hostOps1 (E1 m ρ c)
/-- The same read at the TensorCore's references: what the second product is entered from. -/
abbrev E2' (m : (ℓ : Loc nD τ sig) → Buf (Elt F) ℓ) (ρ : Dev nD → PrngReg) :
    (c : Dev nD) → (b : Ref sig .tc) → Buf (Elt F) ((c : Thread nD τ).loc b) := fun c b => E2 m ρ c b
/-- At the return: the second region's seven arrays at what its pipeline leaves (the six inputs as entered, the
    result's buffer at its write-backs folded), every other buffer as the host operations left it. -/
def E3 (m : (ℓ : Loc nD τ sig) → Buf (Elt F) ℓ) (ρ : Dev nD → PrngReg) (c : Dev nD) : Valuation τ sig (Elt F) :=
  Pipeline.withArrays spec1 c (E2 m ρ c) fun w => (dat1 (E2' m ρ) c).arrAt w cfg1.N
/-- The same read at the TensorCore's references. -/
abbrev E1' (m : (ℓ : Loc nD τ sig) → Buf (Elt F) ℓ) (ρ : Dev nD → PrngReg) :
    (c : Dev nD) → (b : Ref sig .tc) → Buf (Elt F) ((c : Thread nD τ).loc b) := fun c b => E1 m ρ c b
abbrev E3' (m : (ℓ : Loc nD τ sig) → Buf (Elt F) ℓ) (ρ : Dev nD → PrngReg) :
    (c : Dev nD) → (b : Ref sig .tc) → Buf (Elt F) ((c : Thread nD τ).loc b) := fun c b => E3 m ρ c b

variable (m : (ℓ : Loc nD τ sig) → Buf (Elt F) ℓ) (ρ : Dev nD → PrngReg)

/-- After the first product each of its arrays holds what the pipeline leaves there, -/
theorem E1_arr (c : Dev nD) (w : Fin cfg0.W) :
    E1 m ρ c (Proc.devRef .tc (Pipeline.arrRef spec0 w)) = (dat0 (E0' m ρ) c).arrAt w cfg0.N := by
  unfold E1; exact Pipeline.withArrays_arr spec0 launch0.win.arr_inj c _ _ w
/-- and a buffer that is none of them what it held at launch. -/
theorem E1_of_ne (c : Dev nD) (b : Ref sig .tc) (hb : ∀ w, Pipeline.arrRef spec0 w ≠ b) :
    E1 m ρ c (Proc.devRef .tc b) = E0 m ρ c (Proc.devRef .tc b) := by
  unfold E1; exact Pipeline.withArrays_of_ne spec0 c _ _ b hb
theorem E1_final (c : Dev nD) (w : Fin cfg0.W) : (dat0 (E0' m ρ) c).arrAt w cfg0.N = E1' m ρ c (Pipeline.arrRef spec0 w) :=
  (E1_arr m ρ c w).symm
theorem E1_rest (c : Dev nD) : ∀ b, b ∉ Finset.univ.image (Pipeline.arrRef spec0) → E1' m ρ c b = E0' m ρ c b :=
  fun b hb => E1_of_ne m ρ c b fun w e => hb (Finset.mem_image.mpr ⟨w, Finset.mem_univ _, e⟩)

/-- At the return each array of the second region holds what its pipeline leaves there, -/
theorem E3_arr (c : Dev nD) (w : Fin cfg1.W) :
    E3 m ρ c (Proc.devRef .tc (Pipeline.arrRef spec1 w)) = (dat1 (E2' m ρ) c).arrAt w cfg1.N := by
  unfold E3; exact Pipeline.withArrays_arr spec1 launch1.win.arr_inj c _ _ w
/-- and a buffer that is none of them what the host operations left in it. -/
theorem E3_of_ne (c : Dev nD) (b : Ref sig .tc) (hb : ∀ w, Pipeline.arrRef spec1 w ≠ b) :
    E3 m ρ c (Proc.devRef .tc b) = E2 m ρ c (Proc.devRef .tc b) := by
  unfold E3; exact Pipeline.withArrays_of_ne spec1 c _ _ b hb
theorem E3_final (c : Dev nD) (w : Fin cfg1.W) : (dat1 (E2' m ρ) c).arrAt w cfg1.N = E3' m ρ c (Pipeline.arrRef spec1 w) :=
  (E3_arr m ρ c w).symm
theorem E3_rest (c : Dev nD) : ∀ b, b ∉ Finset.univ.image (Pipeline.arrRef spec1) → E3' m ρ c b = E2' m ρ c b :=
  fun b hb => E3_of_ne m ρ c b fun w e => hb (Finset.mem_image.mpr ⟨w, Finset.mem_univ _, e⟩)

/-- The host operations write only the transposed weights, the three slices and the three matrices: any other buffer
    keeps what the first product left. -/
theorem E2_of_not_written (c : Dev nD) (r : Ref sig .tc) (h : r ∉ hostOps1_W) :
    E2 m ρ c (Proc.devRef .tc r) = E1 m ρ c (Proc.devRef .tc r) :=
  StableHlo.after_of_writes_sub hostOps1 _ hostOps1_writes h

/-! ## What the second product is entered from -/

/-- `T1`'s buffer: the first pipeline's write-backs folded. -/
theorem E2'_main_v0 (c : Dev nD) : E2' m ρ c main_v0 = (dat0 (E0' m ρ) c).arrAt 2 cfg0.N :=
  (E2_of_not_written m ρ c main_v0 (by decide)).trans (E1_arr m ρ c 2)
/-- `x`'s buffer as launched: an input of the first product, not written by the host operations. -/
theorem E2'_main_arg0 (c : Dev nD) : E2' m ρ c main_arg0 = m ((c : Thread nD τ).loc main_arg0) :=
  (E2_of_not_written m ρ c main_arg0 (by decide)).trans
    ((E1_arr m ρ c 1).trans (((dat0 (E0' m ρ) c).arrAt_in 1 rfl _).trans (A_eq0 (E0' m ρ) c 1)))
/-- `L`'s buffer as launched. -/
theorem E2'_main_arg1 (c : Dev nD) : E2' m ρ c main_arg1 = m ((c : Thread nD τ).loc main_arg1) :=
  (E2_of_not_written m ρ c main_arg1 (by decide)).trans
    ((E1_arr m ρ c 0).trans (((dat0 (E0' m ρ) c).arrAt_in 0 rfl _).trans (A_eq0 (E0' m ρ) c 0)))
/-- The weight tensor's buffer as launched: no array of the first product, not written by the host operations. -/
theorem E2'_main_arg2 (c : Dev nD) : E2' m ρ c main_arg2 = m ((c : Thread nD τ).loc main_arg2) :=
  (E2_of_not_written m ρ c main_arg2 (by decide)).trans (E1_of_ne m ρ c main_arg2 (by decide))
/-- The first product leaves the weight tensor's buffer as launched. -/
theorem E1_main_arg2 (c : Dev nD) : E1 m ρ c (Proc.devRef .tc main_arg2) = m ((c : Thread nD τ).loc main_arg2) :=
  E1_of_ne m ρ c main_arg2 (by decide)

/-! ## The three weight matrices the second product is entered with -/

/-- The weight tensor with its last two axes exchanged. -/
abbrev weightsT (m : (ℓ : Loc nD τ sig) → Buf (Elt F) ℓ) (c : Dev nD) : (⟨S3x128x128, .f32⟩ : BufTy).Contents (Elt F) :=
  transpose S3x128x128 [0, 2, 1] (m ((c : Thread nD τ).loc main_arg2)) transposes_S3x128x128_S3x128x128_0_2_1

/-- The first matrix: slice 0 of the transposed weights, read as `128 × 128`. -/
theorem E2'_main_v3 (c : Dev nD) : E2' m ρ c main_v3 = fun i =>
    shapeCast S128x128 (extractStridedSlice S1x128x128 ![0, 0, 0] (weightsT m c) slices_S3x128x128_S1x128x128_0_0_0)
      shapeCasts_S1x128x128_S128x128 i := by
  show StableHlo.after hostOps1 (E1 m ρ c) (Proc.devRef .tc main_v3) = _
  after_results
  rw [E1_main_arg2]
  rfl
/-- The second matrix: slice 1. -/
theorem E2'_main_v5 (c : Dev nD) : E2' m ρ c main_v5 = fun i =>
    shapeCast S128x128 (extractStridedSlice S1x128x128 ![1, 0, 0] (weightsT m c) slices_S3x128x128_S1x128x128_1_0_0)
      shapeCasts_S1x128x128_S128x128 i := by
  show StableHlo.after hostOps1 (E1 m ρ c) (Proc.devRef .tc main_v5) = _
  after_results
  rw [E1_main_arg2]
  rfl
/-- The third matrix: slice 2. -/
theorem E2'_main_v7 (c : Dev nD) : E2' m ρ c main_v7 = fun i =>
    shapeCast S128x128 (extractStridedSlice S1x128x128 ![2, 0, 0] (weightsT m c) slices_S3x128x128_S1x128x128_2_0_0)
      shapeCasts_S1x128x128_S128x128 i := by
  show StableHlo.after hostOps1 (E1 m ρ c) (Proc.devRef .tc main_v7) = _
  after_results
  rw [E1_main_arg2]
  rfl

/-! ## The proof data of both regions and the thread state -/

/-- Neither region has a prefetched table. -/
abbrev tablesNone : (p : Fin 2) → (pcfgs (F := F) p).Adm := fun p => (cfgs p).toPCfg_adm
/-- Both regions' proof data, each at the contents its region is entered from. -/
def regionData : (p : Fin 2) → (c : Dev nD) → Dat τ (Elt F) Unit ℕ (UR sig nD τ) ℕ (Pipeline.pin (pcfgs (F := F)) tablesNone p) c
  | ⟨0, _⟩ => fun c => dat0 (E0' m ρ) c
  | ⟨1, _⟩ => fun c => dat1 (E2' m ρ) c
abbrev noVariants : Variants := Variants.none
/-- No core owes another anything: no level is assigned. -/
abbrev noPairs : GSem nD τ sig → Finset Unit := fun _ => ∅
abbrev noLevel : GSem nD τ sig → Unit → ℕ := fun _ _ => 0
/-- What rides beside the buffers through the three items: the core's generator register at some state and its
    `owes`, at nothing. -/
abbrev Beside (c : Dev nD) : sProp 𝕄 := iprop((∃ r, prngReg c r) ∗ ∃ W, owes (c : Thread nD τ) (0 : CellTallies nD τ sig Unit) W)
/-- An unscoped TensorCore reference is among those the thread state holds. -/
theorem mem_unscoped (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the return's contents, the generator register
    at some state. -/
abbrev AtReturn (c : Dev nD) : sProp 𝕄 := iprop(StableHlo.held (c : Thread nD τ) (Pipeline.ucRefs τ sig) (E3 m ρ c) ∗ ∃ r, prngReg c r)

/-- A core owing nothing, its recorded pairs unknown, owes a proof data's tallies at a point where these are zero
    and the data bound the recorded pairs by nothing. -/
theorem owesAt_of_nothing {cfg : Cfg sig Λ₀} {c : Dev nD} (dat : Dat τ (Elt F) Unit ℕ (UR sig nD τ) ℕ cfg c) (t : Fin (cfg.N + 1))
    (h0 : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin Pipeline.Dat.bound
  rw [h0, hr]
  iintro ⟨%W, HO⟩; iexists W; isplitr; · ipureintro; exact fun _ _ => Or.inl trivial
  iexact HO
/-- Conversely the tallies at a point where they are zero are the core owing nothing. -/
theorem nothing_of_owesAt {cfg : Cfg sig Λ₀} {c : Dev nD} (dat : Dat τ (Elt F) Unit ℕ (UR sig nD τ) ℕ cfg c) (t : Fin (cfg.N + 1))
    (h0 : dat.owed t = 0) :
    dat.owesAt () t ⊢ (iprop(∃ W, owes (c : Thread nD τ) (0 : CellTallies nD τ sig Unit) W) : sProp 𝕄) := by
  unfold Pipeline.Dat.owesAt Pipeline.owesWithin
  rw [h0]
  iintro ⟨%W, -, HO⟩; iexists W; iexact HO

/-- The region invariant of a body that uses only its staging buffers — the scoped buffers no window stages and the
    generator register — from the register, anything else, and those scoped buffers. -/
theorem classInv_of_parts {gr W : Nat} (win : Fin W → Pipeline.WinSpec sig gr) (c : Dev nD) (T : sProp 𝕄) :
    (iprop((∃ r, prngReg c r) ∗ T
        ∗ Pipeline.scopedRest (Ix := Unit) (Name := ℕ) (U := UR sig nD τ) (Lvl := ℕ) (Val := Elt F) win c) : sProp 𝕄)
      ⊢ Pipeline.ΦA win c := by
  unfold Pipeline.ΦA
  iintro ⟨Hp, -, Hr⟩
  isplitl [Hr]; · iexact Hr
  iexact Hp
/-- and back: the register, nothing, and those scoped buffers. -/
theorem parts_of_classInv {gr W : Nat} (win : Fin W → Pipeline.WinSpec sig gr) (c : Dev nD) :
    (Pipeline.ΦA win c : sProp 𝕄)
      ⊢ iprop((∃ r, prngReg c r) ∗ BI.emp
        ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-- The seven host operations as a segment over the unscoped buffers from the first product's exit contents. -/
abbrev weightsSeg : Pipeline.HostSeg (Name := ℕ) (U := UR sig nD τ) (pcfgs (F := F)) defs₀ noVariants noPairs noLevel :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (E1 m ρ) Beside

/-! ## The two products as segments -/

set_option backward.isDefEq.respectTransparency.types false in
/-- THE FIRST PRODUCT over the thread state: entered from every unscoped buffer at launch, left at `E1`. Its arrays split
    out of the unscoped buffers and put back at the exit contents; the generator register into the region's invariant
    and out; nothing owed; no semaphore of the kernel's own. -/
def firstProduct : Pipeline.RegionSeg (pcfgs (F := F)) tablesNone (regionData m ρ) () defs₀ noVariants noPairs noLevel 0 where
  win := launch0.win.to₀
  block_pos := launch0.block_pos
  stage_whole := launch0.stage_whole
  K := PEmpty
  osem k := k.elim
  ho := Pipeline.OwnSemFacts.none _
  hbody c := (body_obligation0 (E0' m ρ) c).loose
  hwaits := Pipeline.hwaits_of_owed_zero _ _ _ _ noPairs noLevel 0 fun c t => owed_eq0 (E0' m ρ) c t
  pre c := iprop(StableHlo.held (c : Thread nD τ) (Pipeline.ucRefs τ sig) (E0 m ρ c) ∗ Beside c)
  post c := iprop(StableHlo.held (c : Thread nD τ) (Pipeline.ucRefs τ sig) (E1 m ρ c) ∗ Beside c)
  X c := iprop(∃ r, prngReg c r)
  Y c := iprop(∃ r, prngReg c r)
  Z c := Pipeline.unscopedRest (Ix := Unit) (Name := ℕ) (U := UR sig nD τ) (Lvl := ℕ) spec0 c (E0' m ρ c)
  hentry c := by
    rw [Pipeline.ownSems0_none]
    have hsplit := Pipeline.arrays_of_unscopedBufs (p := 0) (pcfgs (F := F)) tablesNone (regionData m ρ) launch0.win launch0.arr_whole c
      ((regionData m ρ 0 c).share_full fun w => q_eq0 (E0' m ρ) c w) (E0' m ρ c) fun w => A_eq0 (E0' m ρ) c w
    rw [Pipeline.unscopedBufs_held] at hsplit
    have howes := owesAt_of_nothing (regionData m ρ 0 c) 0 (owed_eq0 (E0' m ρ) c 0) (recorded_eq0 (E0' m ρ) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := (classInv_of_parts spec0 c _).trans (hin0 (E0' m ρ) c)
  hout c := by
    rw [Pipeline.ownSems0_none]
    exact (hout0 (E0' m ρ) c).trans (parts_of_classInv spec0 c)
  hexit c := by
    have hjoin := Pipeline.unscopedBufs_of_arrays (p := 0) (pcfgs (F := F)) tablesNone (Ix := Unit) (Name := ℕ) (U := UR sig nD τ) (Lvl := ℕ)
      launch0.win launch0.arr_whole c (regionData m ρ) ((regionData m ρ 0 c).share_full fun w => q_eq0 (E0' m ρ) c w)
      (E0' m ρ c) (E1' m ρ c) ((regionData m ρ 0 c).arrAt · cfg0.N) (E1_final m ρ c) (E1_rest m ρ c)
    rw [Pipeline.unscopedBufs_held] at hjoin
    have howes := nothing_of_owesAt (regionData m ρ 0 c) (Fin.last _) (owed_eq0 (E0' m ρ) c (Fin.last _))
    iintro ⟨Ha, HO, HY, Hrest⟩
    imodintro
    isplitl [Ha Hrest]
    · iapply hjoin; isplitl [Ha] <;> iassumption
    isplitl [HY]; · iexact HY
    iapply howes; iexact HO

set_option backward.isDefEq.respectTransparency.types false in
/-- THE SECOND PRODUCT AND THE COMBINATION over the thread state: entered from every unscoped buffer at `E2`, left at
    `E3` (what the launch reads at the end). -/
def secondProduct : Pipeline.RegionSeg (pcfgs (F := F)) tablesNone (regionData m ρ) () defs₀ noVariants noPairs noLevel 1 where
  win := launch1.win.to₀
  block_pos := launch1.block_pos
  stage_whole := launch1.stage_whole
  K := PEmpty
  osem k := k.elim
  ho := Pipeline.OwnSemFacts.none _
  hbody c := (body_obligation1 (E2' m ρ) c).loose
  hwaits := Pipeline.hwaits_of_owed_zero _ _ _ _ noPairs noLevel 1 fun c t => owed_eq1 (E2' m ρ) c t
  pre c := iprop(StableHlo.held (c : Thread nD τ) (Pipeline.ucRefs τ sig) (E2 m ρ c) ∗ Beside c)
  post c := iprop(AtReturn m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2' m ρ c)
  hentry c := by
    rw [Pipeline.ownSems0_none]
    have hsplit := Pipeline.arrays_of_unscopedBufs (p := 1) (pcfgs (F := F)) tablesNone (regionData m ρ) launch1.win launch1.arr_whole c
      ((regionData m ρ 1 c).share_full fun w => q_eq1 (E2' m ρ) c w) (E2' m ρ c) fun w => A_eq1 (E2' m ρ) c w
    rw [Pipeline.unscopedBufs_held] at hsplit
    have howes := owesAt_of_nothing (regionData m ρ 1 c) 0 (owed_eq1 (E2' m ρ) c 0) (recorded_eq1 (E2' m ρ) c 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply howes; iexact HO
    isplitl [Hp]; · iexact Hp
    iexact Hrest
  hin c := (classInv_of_parts spec1 c _).trans (hin1 (E2' m ρ) c)
  hout c := by
    rw [Pipeline.ownSems0_none]
    exact (hout1 (E2' m ρ) c).trans (parts_of_classInv spec1 c)
  hexit c := by
    have hjoin := Pipeline.unscopedBufs_of_arrays (p := 1) (pcfgs (F := F)) tablesNone (Ix := Unit) (Name := ℕ) (U := UR sig nD τ) (Lvl := ℕ)
      launch1.win launch1.arr_whole c (regionData m ρ) ((regionData m ρ 1 c).share_full fun w => q_eq1 (E2' m ρ) c w)
      (E2' m ρ c) (E3' m ρ c) ((regionData m ρ 1 c).arrAt · cfg1.N) (E3_final m ρ c) (E3_rest m ρ c)
    rw [Pipeline.unscopedBufs_held] at hjoin
    have howes := nothing_of_owesAt (regionData m ρ 1 c) (Fin.last _) (owed_eq1 (E2' m ρ) c (Fin.last _))
    iintro ⟨Ha, HO, HY, Hrest⟩
    imodintro
    isplitl [Ha Hrest HY]
    · isplitl [Ha Hrest]
      · iapply hjoin; isplitl [Ha] <;> iassumption
      iexact HY
    iapply howes; iexact HO

/-! ## The program as its three segments, and the launch -/

/-- The program's three segments in order: the first product, the host operations on the weights, the second product
    with the combination. -/
abbrev items : List (Pipeline.Seg (pcfgs (F := F)) tablesNone (regionData m ρ) () defs₀ noVariants noPairs noLevel) :=
  [ .region (firstProduct m ρ),
    .host (weightsSeg m ρ),
    .region (secondProduct m ρ) ]
/-- The program IS the run of the three segments. -/
theorem main_run (c : Dev nD) : main (F := F) c = Pipeline.Seg.run (items m ρ) := (main_chain c).trans (by chain_rfl)

set_option backward.isDefEq.respectTransparency.types false in
/-- THE RUN: at the compiled mesh, from any memory with zero counters, every weakly fair execution of the program on
    the TensorCores terminates, nothing faulting, and in every final state each unscoped buffer holds what the fold
    `E3` says: the launch over the three segments, the last thread state read against the final state. -/
theorem run_all : θ_run defs (onTc (τ := τ) (main (F := F))) ⟨m, fun _ => 0, ρ⟩ (fun r => ∀ c : Dev nD,
      ∀ b ∈ Pipeline.ucRefs τ sig, r.2.mem ((c : Thread nD τ).1, b) = E3 m ρ c b) :=
  Pipeline.θ_run_regions_kit (pcfgs (F := F)) tablesNone (regionData m ρ) () cellOf_inj emb₁ defs₀ noVariants noPairs noLevel m ρ main (items m ρ)
    (fun c Q => by rw [main_run m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (E0 m ρ c) ∗ Beside c)) (Tₙ := AtReturn m ρ)
    (hch := ⟨fun _ => .rfl, fun _ => .rfl, fun _ => .rfl, fun _ => .rfl⟩)
    (hinit := by
      refine Pipeline.initEach noPairs noLevel fun c => ?_
      rw [show unscopedBufs c (fun b => m ((c : Thread nD τ).loc b)) = StableHlo.held (c : Thread nD τ) (Pipeline.ucRefs τ sig) (E0 m ρ c)
        from Pipeline.unscopedBufs_held c (E0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = E3 m ρ c b)
    (hfin := fun c s' => by
      iintro ⟨⟨Hh, -⟩, HSI⟩
      unfold StableHlo.held
      imodintro
      iapply (pointsTo_read_all (Pipeline.ucRefs τ sig) (fun b => (((c : Thread nD τ)).1, b)) (E3 m ρ c) s')
      isplitl [Hh] <;> iassumption)
    (hQ := fun s h c => h c)

/-! ## The return's contents at the buffers the value is read from -/

/-- The result's buffer: the second pipeline's write-backs folded. -/
theorem E3_main_v8 (c : Dev nD) : E3 m ρ c (Proc.devRef .tc main_v8) = (dat1 (E2' m ρ) c).arrAt 6 cfg1.N :=
  E3_arr m ρ c 6
/-- `x` ends as launched: an input of both regions, not written by the host operations. -/
theorem E3_main_arg0 (c : Dev nD) : E3 m ρ c (Proc.devRef .tc main_arg0) = m ((c : Thread nD τ).loc main_arg0) :=
  ((E3_arr m ρ c 2).trans (((dat1 (E2' m ρ) c).arrAt_in 2 rfl _).trans (A_eq1 (E2' m ρ) c 2))).trans (E2'_main_arg0 m ρ c)
/-- `L` ends as launched. -/
theorem E3_main_arg1 (c : Dev nD) : E3 m ρ c (Proc.devRef .tc main_arg1) = m ((c : Thread nD τ).loc main_arg1) :=
  ((E3_arr m ρ c 0).trans (((dat1 (E2' m ρ) c).arrAt_in 0 rfl _).trans (A_eq1 (E2' m ρ) c 0))).trans (E2'_main_arg1 m ρ c)
/-- The weight tensor ends as launched: no array of either region, not written by the host operations. -/
theorem E3_main_arg2 (c : Dev nD) : E3 m ρ c (Proc.devRef .tc main_arg2) = m ((c : Thread nD τ).loc main_arg2) :=
  (E3_of_ne m ρ c main_arg2 (by decide)).trans (E2'_main_arg2 m ρ c)

/-- THE FRAME: every execution terminates and the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_unscoped main_arg0 (by decide))).trans (E3_main_arg0 m ρ c),
     (h c _ (mem_unscoped main_arg1 (by decide))).trans (E3_main_arg1 m ρ c),
     (h c _ (mem_unscoped main_arg2 (by decide))).trans (E3_main_arg2 m ρ c)⟩) (run_all m ρ)

end Cert.KernelIdeal.Hand

end
-- ==== Proof.KI.Geom0.lean ====
/-
  Region 0 (T1 = L·x) at explicit coordinates: the index maps decided over the 8×4 grid, every staged block, the row
  slice of x the body loads and the written-back block read at coordinates of the whole arrays, and the cover of the
  result array by the write-backs.
-/
import proofs.«175496_j70763881168941_2_alg».proof.Proof.KI.R0Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0 (T1 = L·x) at explicit coordinates

The 8 × 4 grid's point `t` is (a, k) = (t / 4, t % 4). Every block a window stages, the row slice the body loads and
the block the pipeline writes back are read here at explicit coordinates of the whole arrays: a block's coordinate is
always index × size + the coordinate inside the block. -/

/-- The grid has 32 points. -/
theorem lt32_0 (t : Fin cfg0.N) : t.val < 32 := lt_of_lt_of_eq t.isLt N_0

/-! ## The index maps over the grid -/

/-- The tile of `L` at point (a, k) is tile (a, k). -/
theorem idx0_L : ∀ t : Fin cfg0.N, win0_0.index t (0 : Fin 2) = t.val / 4 ∧ win0_0.index t (1 : Fin 2) = t.val % 4 :=
  (by decide +kernel : ∀ t : Fin grid0.N, win0_0.index t (0 : Fin 2) = t.val / 4 ∧ win0_0.index t (1 : Fin 2) = t.val % 4)
/-- `x` is staged whole. -/
theorem idx0_x : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- The output block at point (a, k) is row block a. -/
theorem idx0_o : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)
/-- The body loads the 2048 rows of `x` from row 2048·k. -/
theorem off0_x : ∀ t : Fin cfg0.N, k0_off1 (grid0.coords t) (0 : Fin 2) = 2048 * (t.val % 4) ∧ k0_off1 (grid0.coords t) (1 : Fin 2) = 0 :=
  (by decide +kernel : ∀ t : Fin grid0.N, k0_off1 (grid0.coords t) (0 : Fin 2) = 2048 * (t.val % 4) ∧ k0_off1 (grid0.coords t) (1 : Fin 2) = 0)
/-- The output block is written back exactly where k = 3. -/
theorem flush0_o : ∀ t : Fin cfg0.N, (cfg0.win 2).flush t = true ↔ t.val % 4 = 3 :=
  (by decide +kernel : ∀ t : Fin grid0.N, (cfg0.win 2).flush t = true ↔ t.val % 4 = 3)

/-! ## The staged blocks at coordinates -/

/-- Element (p, q) of the tile of `L` at point (a, k) is `L` at (1024·a + p, 2048·k + q). -/
theorem blk0_L_at (c : Dev nD) (t : Fin cfg0.N) (p : Fin 1024) (q : Fin 2048) :
    (blk0 V c 0 t : Vec F S1024x2048 .f32) (ix2 p q)
      = (V c main_arg1 : S8192x8192.Idx → Elt F .f32)
          (ix2 (⟨1024 * (t.val / 4) + p.val, by have := lt32_0 t; omega⟩ : Fin 8192)
               (⟨2048 * (t.val % 4) + q.val, by omega⟩ : Fin 8192)) := by
  unfold blk0
  rw [View.read_apply]
  show V c main_arg1 _ = V c main_arg1 _
  congr 1
  funext a
  apply Fin.ext
  match a with
  | ⟨0, _⟩ => show win0_0.index t 0 * 1024 + 1 * p.val = 1024 * (t.val / 4) + p.val; rw [(idx0_L t).1]; omega
  | ⟨1, _⟩ => show win0_0.index t 1 * 2048 + 1 * q.val = 2048 * (t.val % 4) + q.val; rw [(idx0_L t).2]; omega

/-- The staged `x` is `x`. -/
theorem blk0_x_at (c : Dev nD) (t : Fin cfg0.N) (r : Fin 8192) (j : Fin 128) :
    (blk0 V c 1 t : Vec F S8192x128 .f32) (ix2 r j) = (V c main_arg0 : S8192x128.Idx → Elt F .f32) (ix2 r j) := by
  unfold blk0
  rw [View.read_apply]
  show V c main_arg0 _ = V c main_arg0 _
  congr 1
  funext a
  apply Fin.ext
  match a with
  | ⟨0, _⟩ => show win0_1.index t 0 * 8192 + 1 * r.val = r.val; rw [(idx0_x t).1]; omega
  | ⟨1, _⟩ => show win0_1.index t 1 * 128 + 1 * j.val = j.val; rw [(idx0_x t).2]; omega

/-! ## The body's loads -/

/-- The body loads the whole tile of `L`. -/
theorem ldL0 (x0 : Vec F S1024x2048 .f32) : View.ld x0 rL0 = x0 :=
  View.ld_unit_zero (funext fun a => by fin_cases a <;> rfl) _ x0

/-- Row q of the 2048 rows of `x` the body loads at point (a, k) is row 2048·k + q of `x`. -/
theorem ldX0_at (t : Fin cfg0.N) (x1 : Vec F S8192x128 .f32) (q : Fin 2048) (j : Fin 128) :
    (View.ld x1 (rX0 (grid0.coords t)) : Vec F S2048x128 .f32) (ix2 q j)
      = x1 (ix2 (⟨2048 * (t.val % 4) + q.val, by omega⟩ : Fin 8192) j) := by
  show x1 ((rX0 (grid0.coords t)).emb (ix2 q j)) = _
  congr 1
  funext a
  apply Fin.ext
  match a with
  | ⟨0, _⟩ => show k0_off1 (grid0.coords t) 0 + 1 * q.val = 2048 * (t.val % 4) + q.val; rw [(off0_x t).1]; omega
  | ⟨1, _⟩ => show k0_off1 (grid0.coords t) 1 + 1 * j.val = j.val; rw [(off0_x t).2]; omega

/-! ## The write-backs -/

/-- Element (p, j) of the block of an array `G` the write-back at point (a, k) goes to is `G` at (1024·a + p, j). -/
theorem out0_block_at (c : Dev nD) (t : Fin cfg0.N) (G : Buf (Elt F) ((c : Thread nD τ).loc main_v0)) (p : Fin 1024) (j : Fin 128) :
    (((cfg0.win 2).blk t).view.read (Elt F) G : Vec F S1024x128 .f32) (ix2 p j)
      = (G : S8192x128.Idx → Elt F .f32) (ix2 (⟨1024 * (t.val / 4) + p.val, by have := lt32_0 t; omega⟩ : Fin 8192) j) := by
  rw [View.read_apply]
  show G _ = G _
  congr 1
  funext a
  apply Fin.ext
  match a with
  | ⟨0, _⟩ => show win0_2.index t 0 * 1024 + 1 * p.val = 1024 * (t.val / 4) + p.val; rw [(idx0_o t).1]; omega
  | ⟨1, _⟩ => show win0_2.index t 1 * 128 + 1 * j.val = j.val; rw [(idx0_o t).2]; omega

/-- An index of the result array is in the block written back at point `t` iff its row is one of the block's 1024. -/
theorem mem_blk0_o (c : Dev nD) (t : Fin cfg0.N) (i : ((cfg0.win 2).arr.view.loc (c.tc : Thread nD τ)).2.ty.Idx) :
    i ∈ ((cfg0.win 2).blk t).view.set ↔ 1024 * (t.val / 4) ≤ (i 0 : Nat) ∧ (i 0 : Nat) < 1024 * (t.val / 4) + 1024 := by
  show i ∈ ((View.whole main_v0).slice (win0_2.rect t)).set ↔ _
  rw [View.set_slice_whole, Rect.mem_set_unit]
  have h1 : (i 1 : Nat) < 128 := (i 1).isLt
  constructor
  · intro h
    have h0 := h (0 : Fin 2)
    have h0' : win0_2.index t 0 * 1024 ≤ (i 0 : Nat) ∧ (i 0 : Nat) < win0_2.index t 0 * 1024 + 1024 := h0
    rw [(idx0_o t).1] at h0'
    omega
  · intro h a
    match a with
    | ⟨0, _⟩ => show win0_2.index t 0 * 1024 ≤ (i 0 : Nat) ∧ (i 0 : Nat) < win0_2.index t 0 * 1024 + 1024
                rw [(idx0_o t).1]; omega
    | ⟨1, _⟩ => show win0_2.index t 1 * 128 ≤ (i 1 : Nat) ∧ (i 1 : Nat) < win0_2.index t 1 * 128 + 128
                rw [(idx0_o t).2]; omega

/-- The write-backs cover the result array: row r is in the block written back at point (r / 1024, 3). -/
theorem cover0 (c : Dev nD) : ∀ i : ((cfg0.win 2).arr.view.loc (c.tc : Thread nD τ)).2.ty.Idx,
    ∃ t : Fin cfg0.N, (cfg0.win 2).flush t = true ∧ i ∈ ((cfg0.win 2).blk t).view.set := fun i => by
  have h0 : (i 0 : Nat) < 8192 := (i 0).isLt
  have hN : cfg0.N = 32 := N_0
  refine ⟨⟨4 * ((i 0 : Nat) / 1024) + 3, by omega⟩, (flush0_o _).mpr (by show (4 * ((i 0 : Nat) / 1024) + 3) % 4 = 3; omega), ?_⟩
  rw [mem_blk0_o]
  show 1024 * ((4 * ((i 0 : Nat) / 1024) + 3) / 4) ≤ (i 0 : Nat) ∧ (i 0 : Nat) < 1024 * ((4 * ((i 0 : Nat) / 1024) + 3) / 4) + 1024
  omega

end Cert.KernelIdeal.Hand

end
-- ==== Proof.KI.PayAt.lean ====
/-
  The kernels' arithmetic, read at one element. Each body stores a value computed from the blocks it has read; at the
  element with coordinates `(p, j)` of a `[1024, 128]` block, over the extended reals:

  * the value that starts an accumulation is `0`;
  * one accumulation step adds to the accumulator the product of a `[1024, 2048]` block of `L` and a `[2048, 128]`
    block of the right-hand matrix: the finite sum over the 2048 contracted positions;
  * the final combination is `(x · w₀ + t₁ · w₁) + (2 · a − x) · w₂`, three finite sums over 128 positions.

  A change of float format is the identity on extended reals, a reshape to the same shape is the identity, and a
  product of matrices into the zero accumulator is the plain sum of products.
-/
import proofs.«175496_j70763881168941_2_alg».proof.Proof.Gen.KernelIdeal.Skeleton
import proofs.«175496_j70763881168941_2_alg».proof.Proof.RefIsSpec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.PayAt

open Cert.KernelIdeal Cert.KernelIdeal.Gen Idealize.ShloMosaic Idealize.SL.Sem Idealize.ShloMosaic.ValueIdx

/-! ## A product of matrices into the zero accumulator, at an element

The operand positions of a product `[1024, K] · [K, 128]` at output `(p, j)` and contracted position `q` are `(p, q)`
and `(q, j)`. -/

/-- The left operand's row coordinate at an output index is the output's row. -/
theorem lhsA_0 (i : S1024x128.Idx) (k : dot_S1024x2048_S2048x128_S1024x128_1_0_0_1_n_n.contr.Idx) : (dot_S1024x2048_S2048x128_S1024x128_1_0_0_1_n_n.lhsIdx i k 0).val = (i 0).val := by
  unfold DotDims.lhsIdx
  rw [dif_neg (show ¬(0 : Fin S1024x2048.rank) ∈ dot_S1024x2048_S2048x128_S1024x128_1_0_0_1_n_n.lhsBatch by decide), dif_pos (show (0 : Fin S1024x2048.rank) ∈ dot_S1024x2048_S2048x128_S1024x128_1_0_0_1_n_n.lhsNonContracting by decide)]
  rfl
/-- The left operand's column coordinate is the contraction index. -/
theorem lhsA_1 (i : S1024x128.Idx) (k : dot_S1024x2048_S2048x128_S1024x128_1_0_0_1_n_n.contr.Idx) : (dot_S1024x2048_S2048x128_S1024x128_1_0_0_1_n_n.lhsIdx i k 1).val = (k ⟨0, by decide⟩).val :=
  dot_S1024x2048_S2048x128_S1024x128_1_0_0_1_n_n.lhsIdx_val_of_single rfl i k
/-- The right operand's row coordinate is the contraction index. -/
theorem rhsA_0 (i : S1024x128.Idx) (k : dot_S1024x2048_S2048x128_S1024x128_1_0_0_1_n_n.contr.Idx) : (dot_S1024x2048_S2048x128_S1024x128_1_0_0_1_n_n.rhsIdx i k 0).val = (k ⟨0, by decide⟩).val :=
  dot_S1024x2048_S2048x128_S1024x128_1_0_0_1_n_n.rhsIdx_val_of_single rfl i k
/-- The right operand's column coordinate at an output index is the output's column. -/
theorem rhsA_1 (i : S1024x128.Idx) (k : dot_S1024x2048_S2048x128_S1024x128_1_0_0_1_n_n.contr.Idx) : (dot_S1024x2048_S2048x128_S1024x128_1_0_0_1_n_n.rhsIdx i k 1).val = (i 1).val := by
  unfold DotDims.rhsIdx
  rw [dif_neg (show ¬(1 : Fin S2048x128.rank) ∈ dot_S1024x2048_S2048x128_S1024x128_1_0_0_1_n_n.rhsBatch by decide), dif_pos (show (1 : Fin S2048x128.rank) ∈ dot_S1024x2048_S2048x128_S1024x128_1_0_0_1_n_n.rhsNonContracting by decide)]
  rfl

/-- A `[1024, 2048] · [2048, 128]` product into zero at `(p, j)`: the sum over the 2048 contracted positions. -/
theorem mmA_at {φ₁ φ₂ : FTy} (lhs : FVec Ideal S1024x2048 φ₁) (rhs : FVec Ideal S2048x128 φ₂) (p : Fin 1024) (j : Fin 128) :
    FloatOps.matmul dot_S1024x2048_S2048x128_S1024x128_1_0_0_1_n_n none lhs rhs (constant (F := Ideal) S1024x128 .f32 0x00000000#32) (ix2 p j)
      = ∑ q : Fin 2048, lhs (ix2 p q) * rhs (ix2 q j) := by
  rw [Ideal.matmul_constant_zero_apply, ← Equiv.sum_comp (contrEquiv1 dot_S1024x2048_S2048x128_S1024x128_1_0_0_1_n_n 2048 rfl rfl).symm]
  refine Finset.sum_congr rfl fun k _ => ?_
  have hk := contrEquiv1_symm_val dot_S1024x2048_S2048x128_S1024x128_1_0_0_1_n_n 2048 rfl rfl k
  have el : dot_S1024x2048_S2048x128_S1024x128_1_0_0_1_n_n.lhsIdx (ix2 p j) ((contrEquiv1 dot_S1024x2048_S2048x128_S1024x128_1_0_0_1_n_n 2048 rfl rfl).symm k) = ix2 p k := funext fun a => Fin.ext (by
    match a with
    | ⟨0, _⟩ => exact lhsA_0 _ _
    | ⟨1, _⟩ => exact (lhsA_1 _ _).trans hk)
  have er : dot_S1024x2048_S2048x128_S1024x128_1_0_0_1_n_n.rhsIdx (ix2 p j) ((contrEquiv1 dot_S1024x2048_S2048x128_S1024x128_1_0_0_1_n_n 2048 rfl rfl).symm k) = ix2 k j := funext fun a => Fin.ext (by
    match a with
    | ⟨0, _⟩ => exact (rhsA_0 _ _).trans hk
    | ⟨1, _⟩ => exact rhsA_1 _ _)
  rw [el, er]

/-- The left operand's row coordinate at an output index is the output's row. -/
theorem lhsB_0 (i : S1024x128.Idx) (k : dot_S1024x128_S128x128_S1024x128_1_0_0_1_n_n.contr.Idx) : (dot_S1024x128_S128x128_S1024x128_1_0_0_1_n_n.lhsIdx i k 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
/-- The left operand's column coordinate is the contraction index. -/
theorem lhsB_1 (i : S1024x128.Idx) (k : dot_S1024x128_S128x128_S1024x128_1_0_0_1_n_n.contr.Idx) : (dot_S1024x128_S128x128_S1024x128_1_0_0_1_n_n.lhsIdx i k 1).val = (k ⟨0, by decide⟩).val :=
  dot_S1024x128_S128x128_S1024x128_1_0_0_1_n_n.lhsIdx_val_of_single rfl i k
/-- The right operand's row coordinate is the contraction index. -/
theorem rhsB_0 (i : S1024x128.Idx) (k : dot_S1024x128_S128x128_S1024x128_1_0_0_1_n_n.contr.Idx) : (dot_S1024x128_S128x128_S1024x128_1_0_0_1_n_n.rhsIdx i k 0).val = (k ⟨0, by decide⟩).val :=
  dot_S1024x128_S128x128_S1024x128_1_0_0_1_n_n.rhsIdx_val_of_single rfl i k
/-- The right operand's column coordinate at an output index is the output's column. -/
theorem rhsB_1 (i : S1024x128.Idx) (k : dot_S1024x128_S128x128_S1024x128_1_0_0_1_n_n.contr.Idx) : (dot_S1024x128_S128x128_S1024x128_1_0_0_1_n_n.rhsIdx i k 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- A `[1024, 128] · [128, 128]` product into zero at `(p, j)`: the sum over the 128 contracted positions. -/
theorem mmB_at {φ₁ φ₂ : FTy} (lhs : FVec Ideal S1024x128 φ₁) (rhs : FVec Ideal S128x128 φ₂) (p : Fin 1024) (j : Fin 128) :
    FloatOps.matmul dot_S1024x128_S128x128_S1024x128_1_0_0_1_n_n none lhs rhs (constant (F := Ideal) S1024x128 .f32 0x00000000#32) (ix2 p j)
      = ∑ q : Fin 128, lhs (ix2 p q) * rhs (ix2 q j) := by
  rw [Ideal.matmul_constant_zero_apply, ← Equiv.sum_comp (contrEquiv1 dot_S1024x128_S128x128_S1024x128_1_0_0_1_n_n 128 rfl rfl).symm]
  refine Finset.sum_congr rfl fun k _ => ?_
  have hk := contrEquiv1_symm_val dot_S1024x128_S128x128_S1024x128_1_0_0_1_n_n 128 rfl rfl k
  have el : dot_S1024x128_S128x128_S1024x128_1_0_0_1_n_n.lhsIdx (ix2 p j) ((contrEquiv1 dot_S1024x128_S128x128_S1024x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S1024x128_S128x128_S1024x128_1_0_0_1_n_n.rhsIdx (ix2 p j) ((contrEquiv1 dot_S1024x128_S128x128_S1024x128_1_0_0_1_n_n 128 rfl rfl).symm k) = ix2 k j := funext fun a => Fin.ext (by
    match a with
    | ⟨0, _⟩ => exact (rhsB_0 _ _).trans hk
    | ⟨1, _⟩ => exact rhsB_1 _ _)
  rw [el, er]

/-! ## The payloads at an element -/

/-- The first kernel's accumulator starts at `0`. -/
theorem zero0_at (p : Fin 1024) (j : Fin 128) : k0_pay1 (F := Ideal) (ix2 p j) = 0 := by
  delta k0_pay1
  simp only [shapeCast_self]
  exact Ideal.ofBits_zero_f32

/-- The second kernel's accumulator starts at `0`. -/
theorem zero1_at (p : Fin 1024) (j : Fin 128) : k1_pay1 (F := Ideal) (ix2 p j) = 0 := by
  delta k1_pay1
  simp only [shapeCast_self]
  exact Ideal.ofBits_zero_f32

/-- One accumulation step of the first kernel: the accumulator plus the block product. -/
theorem step0_at (lb : Vec Ideal S1024x2048 .f32) (xs : Vec Ideal S2048x128 .f32) (a : Vec Ideal S1024x128 .f32)
    (p : Fin 1024) (j : Fin 128) :
    k0_pay2 (F := Ideal) lb xs a (ix2 p j) = a (ix2 p j) + ∑ q : Fin 2048, lb (ix2 p q) * xs (ix2 q j) := by
  delta k0_pay2
  simp only [shapeCast_self]
  refine (congrArg (a (ix2 p j) + ·) (mmA_at _ _ p j)).trans ?_
  rfl

/-- One accumulation step of the second kernel: the accumulator plus the block product. -/
theorem step1_at (lb : Vec Ideal S1024x2048 .f32) (xs : Vec Ideal S2048x128 .f32) (a : Vec Ideal S1024x128 .f32)
    (p : Fin 1024) (j : Fin 128) :
    k1_pay2 (F := Ideal) lb xs a (ix2 p j) = a (ix2 p j) + ∑ q : Fin 2048, lb (ix2 p q) * xs (ix2 q j) := by
  delta k1_pay2
  simp only [shapeCast_self]
  refine (congrArg (a (ix2 p j) + ·) (mmA_at _ _ p j)).trans ?_
  rfl

/-- The second kernel's final combination: `(x · w₀ + t₁ · w₁) + (2 · a − x) · w₂`. -/
theorem out1_at (t1 x a : Vec Ideal S1024x128 .f32) (w0 w1 w2 : Vec Ideal S128x128 .f32) (p : Fin 1024) (j : Fin 128) :
    k1_pay3 (F := Ideal) t1 x a w0 w1 w2 (ix2 p j)
      = ((∑ c : Fin 128, x (ix2 p c) * w0 (ix2 c j)) + ∑ c : Fin 128, t1 (ix2 p c) * w1 (ix2 c j))
          + ∑ c : Fin 128, (Cert.Spec.two * a (ix2 p c) - x (ix2 p c)) * w2 (ix2 c j) := by
  delta k1_pay3
  simp only [shapeCast_self]
  refine (congrArg₂ (· + ·) (congrArg₂ (· + ·) (mmB_at _ _ p j) (mmB_at _ _ p j)) (mmB_at _ _ p j)).trans ?_
  rfl

end Cert.KernelIdeal.PayAt

end
-- ==== Proof.LibTileSum.lean ====
/-
  Sums regrouped by tiles of rows, in any commutative additive monoid (so also on the extended reals, where no
  finiteness is asked: only commutativity and associativity of the sum are used).

  * `sum_tiles`: the sum over `A * B` consecutive rows is the sum over `A` tiles of the sums over each tile's `B`
    rows; row `B * t + r` of the whole is row `r` of tile `t` (`tileRow`).
  * `sum_idx1`, `sum_unitCol`: a sum over the multi-indices of a vector `[n]`, or of a one-column matrix `[n, 1]`,
    is the sum over the row coordinate.
  * `sum_shapeCast`: a shape cast keeps every element at its row-major position, so the sum over a shape cast of a
    vector is the sum over the vector.
-/
import Idealize.ShloMosaic.Lib.ValueIdx

noncomputable section

open scoped BigOperators

namespace Cert.Lib.TileSum

open Idealize.ShloMosaic Idealize.ShloMosaic.ValueIdx

variable {M : Type} [AddCommMonoid M]

/-- Row `r` of tile `t`, among `A` tiles of `B` rows each, is a row of the whole. -/
theorem tile_row_lt {A B : ℕ} (t : Fin A) (r : Fin B) : B * t.val + r.val < A * B := by
  have h1 : B * t.val + r.val < B * t.val + B := Nat.add_lt_add_left r.isLt _
  have h2 : B * t.val + B ≤ A * B := by
    have h3 : B * (t.val + 1) ≤ B * A := Nat.mul_le_mul_left B t.isLt
    rw [Nat.mul_add, Nat.mul_one, Nat.mul_comm B A] at h3
    exact h3
  exact lt_of_lt_of_le h1 h2

/-- Row `r` of tile `t` as a row of the whole: number `B * t + r`. -/
def tileRow {A B N : ℕ} (h : A * B = N) (t : Fin A) (r : Fin B) : Fin N :=
  ⟨B * t.val + r.val, h ▸ tile_row_lt t r⟩

@[simp] theorem tileRow_val {A B N : ℕ} (h : A * B = N) (t : Fin A) (r : Fin B) :
    (tileRow h t r).val = B * t.val + r.val := rfl

/-- A sum over all rows is the sum over the tiles of the sums over each tile's rows. -/
theorem sum_tiles {A B N : ℕ} (h : A * B = N) (f : Fin N → M) :
    ∑ t : Fin A, ∑ r : Fin B, f (tileRow h t r) = ∑ j : Fin N, f j := by
  subst h
  calc ∑ t : Fin A, ∑ r : Fin B, f (tileRow rfl t r)
      = ∑ x : Fin A × Fin B, f (tileRow rfl x.1 x.2) := (Fintype.sum_prod_type' fun t r => f (tileRow rfl t r)).symm
    _ = ∑ x : Fin A × Fin B, f (finProdFinEquiv x) :=
        Finset.sum_congr rfl fun x _ => congrArg f (Fin.ext (Nat.add_comm _ _))
    _ = ∑ j : Fin (A * B), f j := Equiv.sum_comp finProdFinEquiv f

/-- The multi-indices of a vector `[n]` are its coordinates … -/
def idxEquiv1 {n : ℕ} : (⟨1, ![n]⟩ : Shape).Idx ≃ Fin n where
  toFun i := i 0
  invFun a := ix1 a
  left_inv i := (eq_ix1 i).symm
  right_inv _ := rfl

/-- … so a sum over them is the sum over the coordinate. -/
theorem sum_idx1 {n : ℕ} (f : (⟨1, ![n]⟩ : Shape).Idx → M) : ∑ i, f i = ∑ a : Fin n, f (ix1 a) :=
  (Equiv.sum_comp (idxEquiv1 (n := n)).symm f).symm

/-- A sum over the multi-indices of a one-column matrix `[n, 1]` is the sum over the rows. -/
theorem sum_unitCol {n : ℕ} (f : (⟨2, ![n, 1]⟩ : Shape).Idx → M) :
    ∑ i, f i = ∑ a : Fin n, f (ix2 a (0 : Fin 1)) := by
  rw [sum_idx2]
  exact Finset.sum_congr rfl fun a _ => Fin.sum_univ_one _

/-- A shape cast relabels positions, one to one: the sum over a shape cast of `v` is the sum over `v`. -/
theorem sum_shapeCast {s t : Shape} (v : s.Idx → M) (h : s.ShapeCasts t) :
    ∑ j : t.Idx, shapeCast t v h j = ∑ i : s.Idx, v i :=
  Equiv.sum_comp (Shape.reshapeEquiv h) v

end Cert.Lib.TileSum

end
-- ==== Proof.LibBlockSum.lean ====
/-
  A sum over `A * B` consecutive indices, regrouped by `A` consecutive blocks of `B`, in any commutative additive
  monoid (so also on the extended reals: only commutativity and associativity of the sum are used, no finiteness).

  * `sum_blocks`: the sum over all `N = A * B` indices is the sum over the `A` blocks of the sums over each block's
    `B` indices; index `q` of block `k` is index `B * k + q` of the whole.
  * `sum_four_blocks`: for `8192 = 4 * 2048`, the same sum written as an accumulation onto `0`, block by block, in
    order: `(((0 + S₀) + S₁) + S₂) + S₃`, for ANY way `g k q` of writing index `2048 * k + q`.
  * `sum_8192_unfolded`: that accumulation with the indices written `q`, `2048 + q`, `4096 + q`, `6144 + q`.

  The regrouping itself is `Cert.Lib.TileSum.sum_tiles`.
-/
import proofs.«175496_j70763881168941_2_alg».proof.Proof.LibTileSum

noncomputable section

open scoped BigOperators

namespace Cert.Lib.BlockSum

open Cert.Lib.TileSum

variable {M : Type} [AddCommMonoid M]

/-- A sum over `N = A * B` indices is the sum over the `A` consecutive blocks of the sums over each block's `B`
    indices: index `q` of block `k` is index `B * k + q` of the whole (`tileRow`). -/
theorem sum_blocks {A B N : ℕ} (h : A * B = N) (f : Fin N → M) :
    ∑ i : Fin N, f i = ∑ k : Fin A, ∑ q : Fin B, f (tileRow h k q) :=
  (sum_tiles h f).symm

/-- The same with the index spelt out: block `k`, position `q` is index `B * k + q`. -/
theorem sum_blocks_val {A B : ℕ} (f : Fin (A * B) → M) :
    ∑ i : Fin (A * B), f i = ∑ k : Fin A, ∑ q : Fin B, f ⟨B * k.val + q.val, tile_row_lt k q⟩ :=
  (sum_tiles rfl f).symm

/-- A sum over 8192 indices is the sum over its four consecutive blocks of 2048. -/
theorem sum_8192_blocks (f : Fin 8192 → M) :
    ∑ i : Fin 8192, f i = ∑ k : Fin 4, ∑ q : Fin 2048, f ⟨2048 * k.val + q.val, tile_row_lt k q⟩ :=
  (sum_tiles (A := 4) (B := 2048) rfl f).symm

/-- A sum over 8192 indices, accumulated onto `0` one block of 2048 at a time, in order. The blocks' indices may be
    written in any way `g k q` whose value is `2048 * k + q`. -/
theorem sum_four_blocks (f : Fin 8192 → M) (g : Fin 4 → Fin 2048 → Fin 8192)
    (hg : ∀ k q, (g k q).val = 2048 * k.val + q.val) :
    ∑ i : Fin 8192, f i
      = (((0 + ∑ q : Fin 2048, f (g 0 q)) + ∑ q : Fin 2048, f (g 1 q)) + ∑ q : Fin 2048, f (g 2 q))
          + ∑ q : Fin 2048, f (g 3 q) := by
  have e : ∀ k q, tileRow (show 4 * 2048 = 8192 from rfl) k q = g k q := fun k q =>
    Fin.ext ((tileRow_val _ k q).trans (hg k q).symm)
  rw [← sum_tiles (A := 4) (B := 2048) rfl f, Fin.sum_univ_four, zero_add]
  simp only [e]

/-- A sum over 8192 indices, accumulated onto `0` one block of 2048 at a time: indices `q`, `2048 + q`, `4096 + q`,
    `6144 + q` for `q` below 2048. -/
theorem sum_8192_unfolded (f : Fin 8192 → M) :
    ∑ i : Fin 8192, f i
      = (((0 + ∑ q : Fin 2048, f ⟨q.val, by omega⟩) + ∑ q : Fin 2048, f ⟨2048 + q.val, by omega⟩)
            + ∑ q : Fin 2048, f ⟨4096 + q.val, by omega⟩)
          + ∑ q : Fin 2048, f ⟨6144 + q.val, by omega⟩ :=
  sum_four_blocks f
    (fun k q => match k with
      | ⟨0, _⟩ => ⟨q.val, by omega⟩
      | ⟨1, _⟩ => ⟨2048 + q.val, by omega⟩
      | ⟨2, _⟩ => ⟨4096 + q.val, by omega⟩
      | ⟨3, _⟩ => ⟨6144 + q.val, by omega⟩)
    (fun k q => match k with
      | ⟨0, _⟩ => by show q.val = 2048 * 0 + q.val; omega
      | ⟨1, _⟩ => by show 2048 + q.val = 2048 * 1 + q.val; omega
      | ⟨2, _⟩ => by show 4096 + q.val = 2048 * 2 + q.val; omega
      | ⟨3, _⟩ => by show 6144 + q.val = 2048 * 3 + q.val; omega)

end Cert.Lib.BlockSum

end
-- ==== Proof.KI.Value0.lean ====
/-
  Region 0's value over the extended reals: the first kernel leaves its result array at `T₁ = L · x`.

  At point `(a, k)` of the 8 × 4 grid the accumulator holds, at row `p` and channel `j`, what it added onto plus the sum
  over the 2048 contracted positions of block `k`. Along a row block `a` the points `k = 0, 1, 2, 3` add the four blocks'
  sums in order onto zero, which is the whole sum over the 8192 contracted positions; the block is written back where
  `k = 3`, and the eight write-backs cover the result array.
-/
import proofs.«175496_j70763881168941_2_alg».proof.Proof.KI.R0
import proofs.«175496_j70763881168941_2_alg».proof.Proof.KI.Geom0
import proofs.«175496_j70763881168941_2_alg».proof.Proof.KI.PayAt
import proofs.«175496_j70763881168941_2_alg».proof.Proof.LibBlockSum
import proofs.«175496_j70763881168941_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (V : (c : Dev nD) → (b : Ref sig .tc) → Buf (Elt Ideal) ((c : Thread nD τ).loc b))

/-! ## The row block's running sum at an element -/

/-- The operator `L` as the region finds it. -/
abbrev Larr (c : Dev nD) : S8192x8192.Idx → EReal := V c main_arg1
/-- The node features `x` as the region finds them. -/
abbrev xarr (c : Dev nD) : S8192x128.Idx → EReal := V c main_arg0

/-- Row `p` of row block `a` of the 8192 rows. -/
abbrev row (a : Fin 8) (p : Fin 1024) : Fin 8192 := ⟨1024 * a.val + p.val, by omega⟩
/-- Position `q` of block `k` of the 8192 contracted positions. -/
abbrev col (k : Fin 4) (q : Fin 2048) : Fin 8192 := ⟨2048 * k.val + q.val, by omega⟩

/-- The part of `(L · x)[row a p, j]` that block `k` of the contracted positions contributes. -/
def blockSum (c : Dev nD) (a : Fin 8) (k : Fin 4) (p : Fin 1024) (j : Fin 128) : EReal :=
  ∑ q : Fin 2048, Larr V c (ix2 (row a p) (col k q)) * xarr V c (ix2 (col k q) j)

/-- One step at point `(a, k)`, read at `(p, j)`: the incoming sum plus block `k`'s contribution. -/
theorem step_at (c : Dev nD) (t : Fin cfg0.N) (a : Fin 8) (k : Fin 4) (ht : t.val = 4 * a.val + k.val)
    (pf : Vec Ideal S1024x128 .f32) (p : Fin 1024) (j : Fin 128) :
    step0 (grid0.coords t) (blk0 V c 0 t) (blk0 V c 1 t) pf (ix2 p j) = pf (ix2 p j) + blockSum V c a k p j := by
  have hk := k.isLt
  have ha := a.isLt
  refine (Cert.KernelIdeal.PayAt.step0_at _ _ pf p j).trans ?_
  refine congrArg (pf (ix2 p j) + ·) (Finset.sum_congr rfl fun q _ => ?_)
  have hr : (⟨1024 * (t.val / 4) + p.val, by have := lt32_0 t; omega⟩ : Fin 8192) = row a p :=
    Fin.ext (by show 1024 * (t.val / 4) + p.val = 1024 * a.val + p.val; omega)
  have hc : (⟨2048 * (t.val % 4) + q.val, by omega⟩ : Fin 8192) = col k q :=
    Fin.ext (by show 2048 * (t.val % 4) + q.val = 2048 * k.val + q.val; omega)
  refine congrArg₂ (· * ·) ?_ ?_
  · refine (congrFun (ldL0 (blk0 V c 0 t : Vec Ideal S1024x2048 .f32)) (ix2 p q)).trans ?_
    refine (blk0_L_at V c t p q).trans ?_
    rw [hr, hc]
  · refine (ldX0_at t (blk0 V c 1 t : Vec Ideal S8192x128 .f32) q j).trans ?_
    refine (blk0_x_at V c t _ j).trans ?_
    rw [hc]

/-- The running sum after point `(a, k)`, read at `(p, j)`: what it adds onto, plus block `k`'s contribution. -/
theorem acc0_at (c : Dev nD) (n : ℕ) (hn : n < cfg0.N) (a : Fin 8) (k : Fin 4) (ht : n = 4 * a.val + k.val)
    (p : Fin 1024) (j : Fin 128) :
    acc0 V c n hn (ix2 p j) = base0 V c n hn (ix2 p j) + blockSum V c a k p j :=
  (congrFun (acc0_eq V c ⟨n, hn⟩) (ix2 p j)).trans (step_at V c ⟨n, hn⟩ a k ht _ p j)

/-- Where `k = 0` the step adds onto the zero block. -/
theorem base0_first (c : Dev nD) (n : ℕ) (hn : n < cfg0.N) (h : n % 4 = 0) :
    base0 V c n hn = k0_pay1 (F := Ideal) := if_pos h
/-- Elsewhere onto the running sum of the point before. -/
theorem base0_next (c : Dev nD) (n : ℕ) (hn : n + 1 < cfg0.N) (h : ¬(n + 1) % 4 = 0) :
    base0 V c (n + 1) hn = acc0 V c n (Nat.lt_of_succ_lt hn) := if_neg h

/-- The result array of the first kernel: `T₁ = L · x`. -/
def T1arr (c : Dev nD) : Buf (Elt Ideal) ((c : Thread nD τ).loc main_v0) :=
  (fun i => Cert.Spec.T1 (V c main_arg0) (V c main_arg1) (i 0) (i 1) : S8192x128.Idx → Elt Ideal .f32)

theorem T1arr_at (c : Dev nD) (r : Fin 8192) (j : Fin 128) :
    T1arr V c (ix2 r j) = Cert.Spec.T1 (V c main_arg0) (V c main_arg1) r j := rfl

/-- After the last point `(a, 3)` of a row block the running sum is the rows of `T₁ = L · x`: the four blocks'
    contributions added in order onto zero are the whole sum over the 8192 contracted positions. -/
theorem acc0_last_at (c : Dev nD) (t : Fin cfg0.N) (h3 : t.val % 4 = 3) (p : Fin 1024) (j : Fin 128) :
    (acc0 V c t.val t.isLt) (ix2 p j)
      = Cert.Spec.T1 (V c main_arg0) (V c main_arg1) ⟨1024 * (t.val / 4) + p.val, by have := lt32_0 t; omega⟩ j := by
  have hN : cfg0.N = 32 := N_0
  obtain ⟨n, hn⟩ := t
  obtain ⟨m, rfl⟩ : ∃ m, n = m + 3 := ⟨n - 3, by have : n % 4 = 3 := h3; omega⟩
  have hm : m % 4 = 0 := by have : (m + 3) % 4 = 3 := h3; omega
  have hm32 : m + 3 < 32 := hN ▸ hn
  have e3 := acc0_at V c (m + 3) hn ⟨m / 4, by omega⟩ 3 (by show m + 3 = 4 * (m / 4) + 3; omega) p j
  have e2 := acc0_at V c (m + 2) (by omega) ⟨m / 4, by omega⟩ 2 (by show m + 2 = 4 * (m / 4) + 2; omega) p j
  have e1 := acc0_at V c (m + 1) (by omega) ⟨m / 4, by omega⟩ 1 (by show m + 1 = 4 * (m / 4) + 1; omega) p j
  have e0 := acc0_at V c m (by omega) ⟨m / 4, by omega⟩ 0 (by show m = 4 * (m / 4) + 0; omega) p j
  rw [base0_next V c (m + 2) hn (by omega)] at e3
  rw [base0_next V c (m + 1) (by omega) (by omega)] at e2
  rw [base0_next V c m (by omega) (by omega)] at e1
  rw [base0_first V c m (by omega) hm, Cert.KernelIdeal.PayAt.zero0_at] at e0
  have hr : (⟨1024 * ((m + 3) / 4) + p.val, by omega⟩ : Fin 8192) = row ⟨m / 4, by omega⟩ p :=
    Fin.ext (by show 1024 * ((m + 3) / 4) + p.val = 1024 * (m / 4) + p.val; omega)
  refine Eq.trans ?_ (congrArg (fun r => Cert.Spec.T1 (V c main_arg0) (V c main_arg1) r j) hr.symm)
  show acc0 V c (m + 3) hn (ix2 p j) = Cert.Spec.T1 (V c main_arg0) (V c main_arg1) (row ⟨m / 4, by omega⟩ p) j
  rw [e3, e2, e1, e0]
  exact (Cert.Lib.BlockSum.sum_four_blocks
    (fun i => Larr V c (ix2 (row ⟨m / 4, by omega⟩ p) i) * xarr V c (ix2 i j)) (fun k q => col k q) (fun _ _ => rfl)).symm

/-! ## The write-backs and the final array -/

/-- What the write-back at the last point of a row block writes is that block of `T₁`. -/
theorem flushed0_eq (c : Dev nD) (t : Fin cfg0.N) (hf : (cfg0.win 2).flush t = true) :
    (dat0 V c).flushed 2 t = ((cfg0.win 2).blk t).view.read (Elt Ideal) (T1arr V c) := by
  have h3 : t.val % 4 = 3 := (flush0_o t).mp hf
  show (cfg0.win 2).cut (grid0.coords t) ((dat0 V c).after 2 t) = _
  rw [after0_2]
  funext i
  obtain ⟨p, j, rfl⟩ : ∃ (p : Fin 1024) (j : Fin 128), i = ix2 p j := ⟨i 0, i 1, eq_ix2 (n0 := 1024) (n1 := 128) i⟩
  refine (acc0_last_at V c t h3 p j).trans ?_
  exact ((out0_block_at c t (T1arr V c) p j).trans (T1arr_at V c _ j)).symm

/-- The write-backs cover the result array, so the first kernel leaves it at `T₁ = L · x`. -/
theorem final0 (c : Dev nD) : (dat0 V c).arrAt 2 cfg0.N = T1arr V c :=
  (dat0 V c).arrAt_eq_of_cover 2 (T1arr V c) (flushed0_eq V c) (cover0 c)

end Cert.KernelIdeal.Hand

end
-- ==== Proof.KI.Geom1.lean ====
/-
  Region 1 (out = (x·W0ᵀ + T1·W1ᵀ) + (2·(L·T1) − x)·W2ᵀ) at explicit coordinates: the index maps decided over the
  8×4 grid, every staged block, the two row slices of T1 the body loads and the written-back block read at coordinates
  of the whole arrays, and the cover of the result array by the write-backs.
-/
import proofs.«175496_j70763881168941_2_alg».proof.Proof.KI.R1Base
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 1 (the second product and the combination) at explicit coordinates

The 8 × 4 grid's point `t` is (a, k) = (t / 4, t % 4). Every block a window stages, the two row slices of `T1` the
body loads and the block the pipeline writes back are read here at explicit coordinates of the whole arrays: a block's
coordinate is always index × size + the coordinate inside the block. -/

/-- The grid has 32 points. -/
theorem lt32_1 (t : Fin cfg1.N) : t.val < 32 := lt_of_lt_of_eq t.isLt N_1

/-! ## The index maps over the grid -/

/-- The tile of `L` at point (a, k) is tile (a, k). -/
theorem idx1_L : ∀ t : Fin cfg1.N, win1_0.index t (0 : Fin 2) = t.val / 4 ∧ win1_0.index t (1 : Fin 2) = t.val % 4 :=
  (by decide +kernel : ∀ t : Fin grid1.N, win1_0.index t (0 : Fin 2) = t.val / 4 ∧ win1_0.index t (1 : Fin 2) = t.val % 4)
/-- `T1` is staged whole. -/
theorem idx1_T : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
/-- The block of `x` at point (a, k) is row block a. -/
theorem idx1_x : ∀ t : Fin cfg1.N, win1_2.index t (0 : Fin 2) = t.val / 4 ∧ win1_2.index t (1 : Fin 2) = 0 :=
  (by decide +kernel : ∀ t : Fin grid1.N, win1_2.index t (0 : Fin 2) = t.val / 4 ∧ win1_2.index t (1 : Fin 2) = 0)
/-- The three weight matrices are staged whole. -/
theorem idx1_W3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_W4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_W5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
/-- The output block at point (a, k) is row block a. -/
theorem idx1_o : ∀ t : Fin cfg1.N, win1_6.index t (0 : Fin 2) = t.val / 4 ∧ win1_6.index t (1 : Fin 2) = 0 :=
  (by decide +kernel : ∀ t : Fin grid1.N, win1_6.index t (0 : Fin 2) = t.val / 4 ∧ win1_6.index t (1 : Fin 2) = 0)
/-- The body loads the 2048 rows of `T1` from row 2048·k, -/
theorem off1_X : ∀ t : Fin cfg1.N, k1_off1 (grid1.coords t) (0 : Fin 2) = 2048 * (t.val % 4) ∧ k1_off1 (grid1.coords t) (1 : Fin 2) = 0 :=
  (by decide +kernel : ∀ t : Fin grid1.N, k1_off1 (grid1.coords t) (0 : Fin 2) = 2048 * (t.val % 4) ∧ k1_off1 (grid1.coords t) (1 : Fin 2) = 0)
/-- and, where k = 3, the 1024 rows of `T1` from row 1024·a. -/
theorem off1_T : ∀ t : Fin cfg1.N, k1_off2 (grid1.coords t) (0 : Fin 2) = 1024 * (t.val / 4) ∧ k1_off2 (grid1.coords t) (1 : Fin 2) = 0 :=
  (by decide +kernel : ∀ t : Fin grid1.N, k1_off2 (grid1.coords t) (0 : Fin 2) = 1024 * (t.val / 4) ∧ k1_off2 (grid1.coords t) (1 : Fin 2) = 0)
/-- The output block is written back exactly where k = 3. -/
theorem flush1_o : ∀ t : Fin cfg1.N, (cfg1.win 6).flush t = true ↔ t.val % 4 = 3 :=
  (by decide +kernel : ∀ t : Fin grid1.N, (cfg1.win 6).flush t = true ↔ t.val % 4 = 3)

/-! ## The staged blocks at coordinates -/

/-- Element (p, q) of the tile of `L` at point (a, k) is `L` at (1024·a + p, 2048·k + q). -/
theorem blk1_L_at (c : Dev nD) (t : Fin cfg1.N) (p : Fin 1024) (q : Fin 2048) :
    (blk1 V c 0 t : Vec F S1024x2048 .f32) (ix2 p q)
      = (V c main_arg1 : S8192x8192.Idx → Elt F .f32)
          (ix2 (⟨1024 * (t.val / 4) + p.val, by have := lt32_1 t; omega⟩ : Fin 8192)
               (⟨2048 * (t.val % 4) + q.val, by omega⟩ : Fin 8192)) := by
  unfold blk1
  rw [View.read_apply]
  show V c main_arg1 _ = V c main_arg1 _
  congr 1
  funext a
  apply Fin.ext
  match a with
  | ⟨0, _⟩ => show win1_0.index t 0 * 1024 + 1 * p.val = 1024 * (t.val / 4) + p.val; rw [(idx1_L t).1]; omega
  | ⟨1, _⟩ => show win1_0.index t 1 * 2048 + 1 * q.val = 2048 * (t.val % 4) + q.val; rw [(idx1_L t).2]; omega

/-- The staged `T1` is `T1`. -/
theorem blk1_T_at (c : Dev nD) (t : Fin cfg1.N) (r : Fin 8192) (j : Fin 128) :
    (blk1 V c 1 t : Vec F S8192x128 .f32) (ix2 r j) = (V c main_v0 : S8192x128.Idx → Elt F .f32) (ix2 r j) := by
  unfold blk1
  rw [View.read_apply]
  show V c main_v0 _ = V c main_v0 _
  congr 1
  funext a
  apply Fin.ext
  match a with
  | ⟨0, _⟩ => show win1_1.index t 0 * 8192 + 1 * r.val = r.val; rw [(idx1_T t).1]; omega
  | ⟨1, _⟩ => show win1_1.index t 1 * 128 + 1 * j.val = j.val; rw [(idx1_T t).2]; omega

/-- Row p of the block of `x` at point (a, k) is row 1024·a + p of `x`. -/
theorem blk1_x_at (c : Dev nD) (t : Fin cfg1.N) (p : Fin 1024) (j : Fin 128) :
    (blk1 V c 2 t : Vec F S1024x128 .f32) (ix2 p j)
      = (V c main_arg0 : S8192x128.Idx → Elt F .f32) (ix2 (⟨1024 * (t.val / 4) + p.val, by have := lt32_1 t; omega⟩ : Fin 8192) j) := by
  unfold blk1
  rw [View.read_apply]
  show V c main_arg0 _ = V c main_arg0 _
  congr 1
  funext a
  apply Fin.ext
  match a with
  | ⟨0, _⟩ => show win1_2.index t 0 * 1024 + 1 * p.val = 1024 * (t.val / 4) + p.val; rw [(idx1_x t).1]; omega
  | ⟨1, _⟩ => show win1_2.index t 1 * 128 + 1 * j.val = j.val; rw [(idx1_x t).2]; omega

/-- The three staged weight matrices are the matrices. -/
theorem blk1_W3_at (c : Dev nD) (t : Fin cfg1.N) (i j : Fin 128) :
    (blk1 V c 3 t : Vec F S128x128 .f32) (ix2 i j) = (V c main_v3 : S128x128.Idx → Elt F .f32) (ix2 i j) := by
  unfold blk1
  rw [View.read_apply]
  show V c main_v3 _ = V c main_v3 _
  congr 1
  funext a
  apply Fin.ext
  match a with
  | ⟨0, _⟩ => show win1_3.index t 0 * 128 + 1 * i.val = i.val; rw [(idx1_W3 t).1]; omega
  | ⟨1, _⟩ => show win1_3.index t 1 * 128 + 1 * j.val = j.val; rw [(idx1_W3 t).2]; omega
theorem blk1_W4_at (c : Dev nD) (t : Fin cfg1.N) (i j : Fin 128) :
    (blk1 V c 4 t : Vec F S128x128 .f32) (ix2 i j) = (V c main_v5 : S128x128.Idx → Elt F .f32) (ix2 i j) := by
  unfold blk1
  rw [View.read_apply]
  show V c main_v5 _ = V c main_v5 _
  congr 1
  funext a
  apply Fin.ext
  match a with
  | ⟨0, _⟩ => show win1_4.index t 0 * 128 + 1 * i.val = i.val; rw [(idx1_W4 t).1]; omega
  | ⟨1, _⟩ => show win1_4.index t 1 * 128 + 1 * j.val = j.val; rw [(idx1_W4 t).2]; omega
theorem blk1_W5_at (c : Dev nD) (t : Fin cfg1.N) (i j : Fin 128) :
    (blk1 V c 5 t : Vec F S128x128 .f32) (ix2 i j) = (V c main_v7 : S128x128.Idx → Elt F .f32) (ix2 i j) := by
  unfold blk1
  rw [View.read_apply]
  show V c main_v7 _ = V c main_v7 _
  congr 1
  funext a
  apply Fin.ext
  match a with
  | ⟨0, _⟩ => show win1_5.index t 0 * 128 + 1 * i.val = i.val; rw [(idx1_W5 t).1]; omega
  | ⟨1, _⟩ => show win1_5.index t 1 * 128 + 1 * j.val = j.val; rw [(idx1_W5 t).2]; omega

/-! ## The body's loads -/

/-- The body loads the whole tile of `L`, -/
theorem ldL1 (x0 : Vec F S1024x2048 .f32) : View.ld x0 rL1 = x0 :=
  View.ld_unit_zero (funext fun a => by fin_cases a <;> rfl) _ x0
/-- whole 1024 × 128 buffers (the block of `x`, the accumulator), -/
theorem ldO1 (x0 : Vec F S1024x128 .f32) : View.ld x0 rO1 = x0 :=
  View.ld_unit_zero (funext fun a => by fin_cases a <;> rfl) _ x0
/-- and whole weight matrices. -/
theorem ldW1 (x0 : Vec F S128x128 .f32) : View.ld x0 rW1 = x0 :=
  View.ld_unit_zero (funext fun a => by fin_cases a <;> rfl) _ x0

/-- Row q of the 2048 rows of `T1` the body loads at point (a, k) is row 2048·k + q. -/
theorem ldX1_at (t : Fin cfg1.N) (x1 : Vec F S8192x128 .f32) (q : Fin 2048) (j : Fin 128) :
    (View.ld x1 (rX1 (grid1.coords t)) : Vec F S2048x128 .f32) (ix2 q j)
      = x1 (ix2 (⟨2048 * (t.val % 4) + q.val, by omega⟩ : Fin 8192) j) := by
  show x1 ((rX1 (grid1.coords t)).emb (ix2 q j)) = _
  congr 1
  funext a
  apply Fin.ext
  match a with
  | ⟨0, _⟩ => show k1_off1 (grid1.coords t) 0 + 1 * q.val = 2048 * (t.val % 4) + q.val; rw [(off1_X t).1]; omega
  | ⟨1, _⟩ => show k1_off1 (grid1.coords t) 1 + 1 * j.val = j.val; rw [(off1_X t).2]; omega

/-- Where k = 3, row p of the 1024 rows of `T1` the body loads at point (a, 3) is row 1024·a + p. -/
theorem ldT1_at (t : Fin cfg1.N) (hl : k1_cond2 (grid1.coords t) = 1#1) (x1 : Vec F S8192x128 .f32) (p : Fin 1024) (j : Fin 128) :
    (View.ld x1 (rT1 (grid1.coords t) hl) : Vec F S1024x128 .f32) (ix2 p j)
      = x1 (ix2 (⟨1024 * (t.val / 4) + p.val, by have := lt32_1 t; omega⟩ : Fin 8192) j) := by
  show x1 ((rT1 (grid1.coords t) hl).emb (ix2 p j)) = _
  congr 1
  funext a
  apply Fin.ext
  match a with
  | ⟨0, _⟩ => show k1_off2 (grid1.coords t) 0 + 1 * p.val = 1024 * (t.val / 4) + p.val; rw [(off1_T t).1]; omega
  | ⟨1, _⟩ => show k1_off2 (grid1.coords t) 1 + 1 * j.val = j.val; rw [(off1_T t).2]; omega

/-! ## The write-backs -/

/-- Element (p, j) of the block of an array `G` the write-back at point (a, k) goes to is `G` at (1024·a + p, j). -/
theorem out1_block_at (c : Dev nD) (t : Fin cfg1.N) (G : Buf (Elt F) ((c : Thread nD τ).loc main_v8)) (p : Fin 1024) (j : Fin 128) :
    (((cfg1.win 6).blk t).view.read (Elt F) G : Vec F S1024x128 .f32) (ix2 p j)
      = (G : S8192x128.Idx → Elt F .f32) (ix2 (⟨1024 * (t.val / 4) + p.val, by have := lt32_1 t; omega⟩ : Fin 8192) j) := by
  rw [View.read_apply]
  show G _ = G _
  congr 1
  funext a
  apply Fin.ext
  match a with
  | ⟨0, _⟩ => show win1_6.index t 0 * 1024 + 1 * p.val = 1024 * (t.val / 4) + p.val; rw [(idx1_o t).1]; omega
  | ⟨1, _⟩ => show win1_6.index t 1 * 128 + 1 * j.val = j.val; rw [(idx1_o t).2]; omega

/-- An index of the result array is in the block written back at point `t` iff its row is one of the block's 1024. -/
theorem mem_blk1_o (c : Dev nD) (t : Fin cfg1.N) (i : ((cfg1.win 6).arr.view.loc (c.tc : Thread nD τ)).2.ty.Idx) :
    i ∈ ((cfg1.win 6).blk t).view.set ↔ 1024 * (t.val / 4) ≤ (i 0 : Nat) ∧ (i 0 : Nat) < 1024 * (t.val / 4) + 1024 := by
  show i ∈ ((View.whole main_v8).slice (win1_6.rect t)).set ↔ _
  rw [View.set_slice_whole, Rect.mem_set_unit]
  have h1 : (i 1 : Nat) < 128 := (i 1).isLt
  constructor
  · intro h
    have h0 := h (0 : Fin 2)
    have h0' : win1_6.index t 0 * 1024 ≤ (i 0 : Nat) ∧ (i 0 : Nat) < win1_6.index t 0 * 1024 + 1024 := h0
    rw [(idx1_o t).1] at h0'
    omega
  · intro h a
    match a with
    | ⟨0, _⟩ => show win1_6.index t 0 * 1024 ≤ (i 0 : Nat) ∧ (i 0 : Nat) < win1_6.index t 0 * 1024 + 1024
                rw [(idx1_o t).1]; omega
    | ⟨1, _⟩ => show win1_6.index t 1 * 128 ≤ (i 1 : Nat) ∧ (i 1 : Nat) < win1_6.index t 1 * 128 + 128
                rw [(idx1_o t).2]; omega

/-- The write-backs cover the result array: row r is in the block written back at point (r / 1024, 3). -/
theorem cover1 (c : Dev nD) : ∀ i : ((cfg1.win 6).arr.view.loc (c.tc : Thread nD τ)).2.ty.Idx,
    ∃ t : Fin cfg1.N, (cfg1.win 6).flush t = true ∧ i ∈ ((cfg1.win 6).blk t).view.set := fun i => by
  have h0 : (i 0 : Nat) < 8192 := (i 0).isLt
  have hN : cfg1.N = 32 := N_1
  refine ⟨⟨4 * ((i 0 : Nat) / 1024) + 3, by omega⟩, (flush1_o _).mpr (by show (4 * ((i 0 : Nat) / 1024) + 3) % 4 = 3; omega), ?_⟩
  rw [mem_blk1_o]
  show 1024 * ((4 * ((i 0 : Nat) / 1024) + 3) / 4) ≤ (i 0 : Nat) ∧ (i 0 : Nat) < 1024 * ((4 * ((i 0 : Nat) / 1024) + 3) / 4) + 1024
  omega

end Cert.KernelIdeal.Hand

end
-- ==== Proof.KI.Value1.lean ====
/-
  Region 1 (the second product and the combination) at the ideal instance: the accumulator after the four points of a
  row block holds L·T1 on that block, the block written back is (x·w₀ + T1·w₁) + (2·(L·T1) − x)·w₂, and the result
  array ends holding that value at every row and channel.
-/
import proofs.«175496_j70763881168941_2_alg».proof.Proof.KI.R1
import proofs.«175496_j70763881168941_2_alg».proof.Proof.KI.Geom1
import proofs.«175496_j70763881168941_2_alg».proof.Proof.KI.PayAt
import proofs.«175496_j70763881168941_2_alg».proof.Proof.LibBlockSum
import proofs.«175496_j70763881168941_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

local notation "𝕄" => MT nD τ sig Unit (Elt Ideal) ℕ (UR sig nD τ) ℕ

variable (V : (c : Dev nD) → (b : Ref sig .tc) → Buf (Elt Ideal) ((c : Thread nD τ).loc b))

/-! # Region 1's value at the ideal instance

With `x`, `L`, `T`, `w₀ w₁ w₂` the contents the region is entered from (the node features, the operator, the
first product, the three weight matrices as the host operations cut them), the accumulator after the four points of
a row block holds `L·T` on that block, and the block written back is `(x·w₀ + T·w₁) + (2·(L·T) − x)·w₂`. -/

/-- What the region is entered with, each array at its literal shape. -/
abbrev xIn (c : Dev nD) : Vec Ideal S8192x128 .f32 := V c main_arg0
abbrev LIn (c : Dev nD) : Vec Ideal S8192x8192 .f32 := V c main_arg1
abbrev TIn (c : Dev nD) : Vec Ideal S8192x128 .f32 := V c main_v0
abbrev w0In (c : Dev nD) : Vec Ideal S128x128 .f32 := V c main_v3
abbrev w1In (c : Dev nD) : Vec Ideal S128x128 .f32 := V c main_v5
abbrev w2In (c : Dev nD) : Vec Ideal S128x128 .f32 := V c main_v7

/-- The result at row `r`, channel `j`, from what the region is entered with. -/
def out1val (c : Dev nD) (r : Fin 8192) (j : Fin 128) : EReal :=
  ((∑ cc : Fin 128, xIn V c (ix2 r cc) * w0In V c (ix2 cc j))
      + ∑ cc : Fin 128, TIn V c (ix2 r cc) * w1In V c (ix2 cc j))
    + ∑ cc : Fin 128, (Cert.Spec.two * (∑ k : Fin 8192, LIn V c (ix2 r k) * TIn V c (ix2 k cc)) - xIn V c (ix2 r cc)) * w2In V c (ix2 cc j)

/-- The result array the region leaves. -/
def Out1arr (c : Dev nD) : Buf (Elt Ideal) ((c : Thread nD τ).loc main_v8) :=
  fun i => out1val V c (i 0) (i 1)

theorem Out1arr_at (c : Dev nD) (r : Fin 8192) (j : Fin 128) :
    (Out1arr V c : Vec Ideal S8192x128 .f32) (ix2 r j) = out1val V c r j := rfl

/-! ## The accumulator -/

/-- Where the point is not the first of its row block, the body adds onto the sum the point before left, -/
theorem base1_of_ne (c : Dev nD) (n : ℕ) (hn : n < cfg1.N) (h : ¬ n % 4 = 0) :
    base1 V c n hn = acc1 V c (n - 1) (Nat.lt_of_le_of_lt (Nat.sub_le _ _) hn) := by
  unfold base1; rw [if_neg h]
/-- and where it is, onto the zero block. -/
theorem base1_of_eq (c : Dev nD) (n : ℕ) (hn : n < cfg1.N) (h : n % 4 = 0) : base1 V c n hn = k1_pay1 (F := Ideal) := by
  unfold base1; rw [if_pos h]

/-- The position of column block `k`, offset `q`, among the 8192 contracted positions. -/
abbrev colAt (k : Fin 4) (q : Fin 2048) : Fin 8192 := ⟨2048 * k.val + q.val, by omega⟩

/-- One step of the accumulation at element (p, j), over any tile, rows and incoming sum. -/
theorem step1_val (t : Fin cfg1.N) (x0 : Vec Ideal S1024x2048 .f32) (x1 : Vec Ideal S8192x128 .f32) (pf : Vec Ideal S1024x128 .f32)
    (p : Fin 1024) (j : Fin 128) :
    step1 (grid1.coords t) x0 x1 pf (ix2 p j)
      = pf (ix2 p j) + ∑ q : Fin 2048, x0 (ix2 p q) * x1 (ix2 (⟨2048 * (t.val % 4) + q.val, by omega⟩ : Fin 8192) j) := by
  refine (PayAt.step1_at _ _ pf p j).trans ?_
  congr 1
  refine Finset.sum_congr rfl fun q _ => ?_
  exact congrArg₂ (fun (a b : Elt Ideal .f32) => a * b) (congrFun (ldL1 x0) (ix2 p q)) (ldX1_at t x1 q j)

/-- One point of the accumulation at element (p, j): the point at position `n` = 4a + k adds the part of row
    `R` = 1024a + p of `L·T` over the contracted positions of column block `k`. -/
theorem acc1_point (c : Dev nD) (n : ℕ) (hn : n < cfg1.N) (R : Fin 8192) (k : Fin 4) (p : Fin 1024) (j : Fin 128)
    (hR : R.val = 1024 * (n / 4) + p.val) (hk : k.val = n % 4) :
    acc1 V c n hn (ix2 p j) = base1 V c n hn (ix2 p j)
      + ∑ q : Fin 2048, LIn V c (ix2 R (colAt k q)) * TIn V c (ix2 (colAt k q) j) := by
  refine ((congrFun (acc1_eq V c ⟨n, hn⟩) (ix2 p j)).trans (step1_val ⟨n, hn⟩ (blk1 V c 0 ⟨n, hn⟩) (blk1 V c 1 ⟨n, hn⟩) (base1 V c n hn) p j)).trans ?_
  congr 1
  refine Finset.sum_congr rfl fun q _ => ?_
  have e1 : ∀ h', (⟨1024 * (n / 4) + p.val, h'⟩ : Fin 8192) = R := fun h' => Fin.ext hR.symm
  have e2 : ∀ h', (⟨2048 * (n % 4) + q.val, h'⟩ : Fin 8192) = colAt k q := fun h' => Fin.ext (by show _ = 2048 * k.val + q.val; rw [hk])
  refine (congrArg₂ (fun (a b : Elt Ideal .f32) => a * b) (blk1_L_at V c ⟨n, hn⟩ p q) (blk1_T_at V c ⟨n, hn⟩ _ j)).trans ?_
  show LIn V c (ix2 ⟨1024 * (n / 4) + p.val, _⟩ ⟨2048 * (n % 4) + q.val, _⟩) * TIn V c (ix2 ⟨2048 * (n % 4) + q.val, _⟩ j) = _
  rw [e1, e2]

/-- After the four points of a row block the accumulator holds `L·T` on the block: the four partial sums over the
    column blocks, added in order onto zero, are the sum over all 8192 contracted positions. -/
theorem acc1_last_at (c : Dev nD) (t : Fin cfg1.N) (h3 : t.val % 4 = 3) (p : Fin 1024) (j : Fin 128) :
    acc1 V c t.val t.isLt (ix2 p j)
      = ∑ k : Fin 8192, LIn V c (ix2 (⟨1024 * (t.val / 4) + p.val, by have := lt32_1 t; omega⟩ : Fin 8192) k) * TIn V c (ix2 k j) := by
  have ht := lt32_1 t
  have hN : cfg1.N = 32 := N_1
  have s3 := acc1_point V c t.val t.isLt ⟨1024 * (t.val / 4) + p.val, by omega⟩ 3 p j rfl (by show 3 = t.val % 4; omega)
  have s2 := acc1_point V c (t.val - 1) (by omega) ⟨1024 * (t.val / 4) + p.val, by omega⟩ 2 p j
    (by show 1024 * (t.val / 4) + p.val = 1024 * ((t.val - 1) / 4) + p.val; omega) (by show 2 = (t.val - 1) % 4; omega)
  have s1 := acc1_point V c (t.val - 1 - 1) (by omega) ⟨1024 * (t.val / 4) + p.val, by omega⟩ 1 p j
    (by show 1024 * (t.val / 4) + p.val = 1024 * ((t.val - 1 - 1) / 4) + p.val; omega) (by show 1 = (t.val - 1 - 1) % 4; omega)
  have s0 := acc1_point V c (t.val - 1 - 1 - 1) (by omega) ⟨1024 * (t.val / 4) + p.val, by omega⟩ 0 p j
    (by show 1024 * (t.val / 4) + p.val = 1024 * ((t.val - 1 - 1 - 1) / 4) + p.val; omega) (by show 0 = (t.val - 1 - 1 - 1) % 4; omega)
  rw [s3, base1_of_ne V c t.val t.isLt (by omega), s2, base1_of_ne V c (t.val - 1) (by omega) (by omega), s1,
    base1_of_ne V c (t.val - 1 - 1) (by omega) (by omega), s0, base1_of_eq V c (t.val - 1 - 1 - 1) (by omega) (by omega), PayAt.zero1_at]
  exact (Cert.Lib.BlockSum.sum_four_blocks
    (fun i => LIn V c (ix2 (⟨1024 * (t.val / 4) + p.val, by omega⟩ : Fin 8192) i) * TIn V c (ix2 i j)) colAt (fun k q => rfl)).symm

/-! ## The block written back -/

/-- The final combination at element (p, j), over any staged arrays: the 1024 rows of `T` it loads are rows 1024·a + p. -/
theorem fin1_val (t : Fin cfg1.N) (hl : isLast1 (grid1.coords t)) (x1 : Vec Ideal S8192x128 .f32) (x2 : Vec Ideal S1024x128 .f32)
    (x3 x4 x5 : Vec Ideal S128x128 .f32) (acc : Vec Ideal S1024x128 .f32) (p : Fin 1024) (j : Fin 128) :
    fin1 (grid1.coords t) hl x1 x2 x3 x4 x5 acc (ix2 p j)
      = ((∑ cc : Fin 128, x2 (ix2 p cc) * x3 (ix2 cc j))
          + ∑ cc : Fin 128, x1 (ix2 (⟨1024 * (t.val / 4) + p.val, by have := lt32_1 t; omega⟩ : Fin 8192) cc) * x4 (ix2 cc j))
        + ∑ cc : Fin 128, (Cert.Spec.two * acc (ix2 p cc) - x2 (ix2 p cc)) * x5 (ix2 cc j) := by
  refine (PayAt.out1_at _ x2 acc x3 x4 x5 p j).trans ?_
  congr 2
  refine Finset.sum_congr rfl fun cc _ => ?_
  exact congrArg (fun a : Elt Ideal .f32 => a * x4 (ix2 cc j)) (ldT1_at t hl x1 p cc)

/-- Element (p, j) of the block written back at a point (a, 3) is the result at row 1024·a + p, channel j. -/
theorem flushed1_at (c : Dev nD) (t : Fin cfg1.N) (h3 : t.val % 4 = 3) (p : Fin 1024) (j : Fin 128) :
    ((dat1 V c).flushed 6 t : Vec Ideal S1024x128 .f32) (ix2 p j)
      = out1val V c (⟨1024 * (t.val / 4) + p.val, by have := lt32_1 t; omega⟩ : Fin 8192) j := by
  have hfl : ((dat1 V c).flushed 6 t : Vec Ideal S1024x128 .f32) (ix2 p j) = res1 V c t (ix2 p j) :=
    congrFun (after1_6 V c t) (ix2 p j)
  refine (hfl.trans ((congrFun (res1_last V c t h3) (ix2 p j)).trans
    (fin1_val t _ (blk1 V c 1 t) (blk1 V c 2 t) (blk1 V c 3 t) (blk1 V c 4 t) (blk1 V c 5 t) (acc1 V c t.val t.isLt) p j))).trans ?_
  unfold out1val
  simp only [blk1_x_at, blk1_T_at, blk1_W3_at, blk1_W4_at, blk1_W5_at, acc1_last_at V c t h3, xIn, LIn, TIn, w0In, w1In, w2In]

/-- The write-back at a point where k = 3 writes block a of the result array. -/
theorem flushed1_eq (c : Dev nD) (t : Fin cfg1.N) (hf : (cfg1.win 6).flush t = true) :
    (dat1 V c).flushed 6 t = ((cfg1.win 6).blk t).view.read (Elt Ideal) (Out1arr V c) := by
  have h3 : t.val % 4 = 3 := (flush1_o t).mp hf
  funext y
  obtain ⟨p, j, rfl⟩ : ∃ (p : Fin 1024) (j : Fin 128), y = ix2 p j := ⟨y 0, y 1, eq_ix2 (n0 := 1024) (n1 := 128) y⟩
  exact (flushed1_at V c t h3 p j).trans ((Out1arr_at V c _ j).symm.trans (out1_block_at c t (Out1arr V c) p j).symm)

/-- So the result array ends holding the result: the write-backs cover it. -/
theorem final1 (c : Dev nD) : (dat1 V c).arrAt 6 cfg1.N = Out1arr V c :=
  (dat1 V c).arrAt_eq_of_cover 6 (Out1arr V c) (flushed1_eq V c) (cover1 c)

end Cert.KernelIdeal.Hand

end
-- ==== Proof.KI.WeightsAt.lean ====
/-
  The three weight matrices the second kernel reads. The host stretch swaps the last two axes of the stacked weights
  `W : [3, 128, 128]`, slices out matrix `k` as a `[1, 128, 128]` array and drops its unit axis. Read at `(cc, j)`:
  the reshape reads position `(0, cc, j)` (the same row-major position), the slice shifts the first coordinate by
  `k`, and the swap of axes exchanges the last two coordinates, so the element is `W[k, j, cc]`.
-/
import proofs.«175496_j70763881168941_2_alg».proof.Proof.KI.PayAt

noncomputable section

namespace Cert.KernelIdeal.WeightsAt

open Cert.KernelIdeal Cert.KernelIdeal.Facts₀ Idealize.ShloMosaic Idealize.SL.Sem Idealize.ShloMosaic.ValueIdx

variable {F : FTy → Type} [FloatOps F]

/-- Position `(0, cc, j)` of a `[1, 128, 128]` array and position `(cc, j)` of a `[128, 128]` array are the same
    row-major position. -/
theorem flat_eq (cc j : Fin 128) :
    (S1x128x128.rowMajor (ix3 (0 : Fin 1) cc j)).val = (S128x128.rowMajor (ix2 cc j)).val := by
  rewrite [Shape.rowMajor_val_three, Shape.rowMajor_val_two]
  show (0 * 128 + cc.val) * 128 + j.val = cc.val * 128 + j.val
  omega

/-- The `0`-th weight matrix the host stretch hands to the second kernel, at `(cc, j)`, is `W[0, j, cc]`. -/
theorem kw0_at (x2 : (⟨S3x128x128, .f32⟩ : BufTy).Contents (Elt F)) (cc j : Fin 128) :
    shapeCast S128x128 (extractStridedSlice S1x128x128 ![0, 0, 0] (transpose S3x128x128 [0, 2, 1] x2 transposes_S3x128x128_S3x128x128_0_2_1) slices_S3x128x128_S1x128x128_0_0_0) shapeCasts_S1x128x128_S128x128 (ix2 cc j)
      = x2 (ix3 (0 : Fin 3) j cc) :=
  (shapeCast_apply _ _ (ix2 cc j) (ix3 (0 : Fin 1) cc j) (flat_eq cc j)).trans
    ((extractStridedSlice_apply _ _ _ (ix3 (0 : Fin 1) cc j) (ix3 (0 : Fin 3) cc j) (fun a => match a with
        | ⟨0, _⟩ => rfl
        | ⟨1, _⟩ => (Nat.zero_add _).symm
        | ⟨2, _⟩ => (Nat.zero_add _).symm)).trans
      (transpose_apply _ _ _ (ix3 (0 : Fin 3) cc j) (ix3 (0 : Fin 3) j cc) (fun b => match b with
        | ⟨0, _⟩ => rfl
        | ⟨1, _⟩ => rfl
        | ⟨2, _⟩ => rfl)))

/-- The `1`-th weight matrix the host stretch hands to the second kernel, at `(cc, j)`, is `W[1, j, cc]`. -/
theorem kw1_at (x2 : (⟨S3x128x128, .f32⟩ : BufTy).Contents (Elt F)) (cc j : Fin 128) :
    shapeCast S128x128 (extractStridedSlice S1x128x128 ![1, 0, 0] (transpose S3x128x128 [0, 2, 1] x2 transposes_S3x128x128_S3x128x128_0_2_1) slices_S3x128x128_S1x128x128_1_0_0) shapeCasts_S1x128x128_S128x128 (ix2 cc j)
      = x2 (ix3 (1 : Fin 3) j cc) :=
  (shapeCast_apply _ _ (ix2 cc j) (ix3 (0 : Fin 1) cc j) (flat_eq cc j)).trans
    ((extractStridedSlice_apply _ _ _ (ix3 (0 : Fin 1) cc j) (ix3 (1 : Fin 3) cc j) (fun a => match a with
        | ⟨0, _⟩ => rfl
        | ⟨1, _⟩ => (Nat.zero_add _).symm
        | ⟨2, _⟩ => (Nat.zero_add _).symm)).trans
      (transpose_apply _ _ _ (ix3 (1 : Fin 3) cc j) (ix3 (1 : Fin 3) j cc) (fun b => match b with
        | ⟨0, _⟩ => rfl
        | ⟨1, _⟩ => rfl
        | ⟨2, _⟩ => rfl)))

/-- The `2`-th weight matrix the host stretch hands to the second kernel, at `(cc, j)`, is `W[2, j, cc]`. -/
theorem kw2_at (x2 : (⟨S3x128x128, .f32⟩ : BufTy).Contents (Elt F)) (cc j : Fin 128) :
    shapeCast S128x128 (extractStridedSlice S1x128x128 ![2, 0, 0] (transpose S3x128x128 [0, 2, 1] x2 transposes_S3x128x128_S3x128x128_0_2_1) slices_S3x128x128_S1x128x128_2_0_0) shapeCasts_S1x128x128_S128x128 (ix2 cc j)
      = x2 (ix3 (2 : Fin 3) j cc) :=
  (shapeCast_apply _ _ (ix2 cc j) (ix3 (0 : Fin 1) cc j) (flat_eq cc j)).trans
    ((extractStridedSlice_apply _ _ _ (ix3 (0 : Fin 1) cc j) (ix3 (2 : Fin 3) cc j) (fun a => match a with
        | ⟨0, _⟩ => rfl
        | ⟨1, _⟩ => (Nat.zero_add _).symm
        | ⟨2, _⟩ => (Nat.zero_add _).symm)).trans
      (transpose_apply _ _ _ (ix3 (2 : Fin 3) cc j) (ix3 (2 : Fin 3) j cc) (fun b => match b with
        | ⟨0, _⟩ => rfl
        | ⟨1, _⟩ => rfl
        | ⟨2, _⟩ => rfl)))

end Cert.KernelIdeal.WeightsAt

end
-- ==== Proof.KI.ValueRun.lean ====
/-
  The whole program at the ideal instance: the result buffer at the return, read back through the second region, the
  host operations on the weights and the first region, is the Chebyshev graph convolution of the three arguments; and
  the run that says so.
-/
import proofs.«175496_j70763881168941_2_alg».proof.Proof.KI.Run
import proofs.«175496_j70763881168941_2_alg».proof.Proof.KI.Value0
import proofs.«175496_j70763881168941_2_alg».proof.Proof.KI.Value1
import proofs.«175496_j70763881168941_2_alg».proof.Proof.KI.WeightsAt
import proofs.«175496_j70763881168941_2_alg».proof.Proof.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.Ring
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable (m : (ℓ : Loc nD τ sig) → Buf (Elt Ideal) ℓ) (ρ : Dev nD → PrngReg)

/-! # The program's value at the ideal instance

The result buffer at the return is the second region's result array at what that region is entered from; read back
through the host operations and the first region, it is the Chebyshev graph convolution of the three arguments. -/

/-- What the second region is entered with, in terms of the arguments: `x`, `L`, `T₁ = L·x`, and the three weight
    matrices read at (cc, j) as `W[k, j, cc]`. -/
theorem enter1_x (c : Dev nD) : xIn (E2' m ρ) c = m ((c : Thread nD τ).loc main_arg0) := E2'_main_arg0 m ρ c
theorem enter1_L (c : Dev nD) : LIn (E2' m ρ) c = m ((c : Thread nD τ).loc main_arg1) := E2'_main_arg1 m ρ c
theorem enter1_T (c : Dev nD) : TIn (E2' m ρ) c = T1arr (E0' m ρ) c := (E2'_main_v0 m ρ c).trans (final0 (E0' m ρ) c)
theorem enter1_w0 (c : Dev nD) (cc j : Fin 128) :
    w0In (E2' m ρ) c (ix2 cc j) = (m ((c : Thread nD τ).loc main_arg2) : Cert.Spec.SW.Idx → EReal) (ix3 (0 : Fin 3) j cc) :=
  (congrFun (E2'_main_v3 m ρ c) (ix2 cc j)).trans (Cert.KernelIdeal.WeightsAt.kw0_at _ cc j)
theorem enter1_w1 (c : Dev nD) (cc j : Fin 128) :
    w1In (E2' m ρ) c (ix2 cc j) = (m ((c : Thread nD τ).loc main_arg2) : Cert.Spec.SW.Idx → EReal) (ix3 (1 : Fin 3) j cc) :=
  (congrFun (E2'_main_v5 m ρ c) (ix2 cc j)).trans (Cert.KernelIdeal.WeightsAt.kw1_at _ cc j)
theorem enter1_w2 (c : Dev nD) (cc j : Fin 128) :
    w2In (E2' m ρ) c (ix2 cc j) = (m ((c : Thread nD τ).loc main_arg2) : Cert.Spec.SW.Idx → EReal) (ix3 (2 : Fin 3) j cc) :=
  (congrFun (E2'_main_v7 m ρ c) (ix2 cc j)).trans (Cert.KernelIdeal.WeightsAt.kw2_at _ cc j)

/-- The result buffer at the return is the convolution of the three arguments. -/
theorem result_eq (c : Dev nD) :
    E3 m ρ c (Proc.devRef .tc main_v8)
      = Cert.Spec.G (m ((c : Thread nD τ).loc main_arg0)) (m ((c : Thread nD τ).loc main_arg1)) (m ((c : Thread nD τ).loc main_arg2)) := by
  refine (E3_main_v8 m ρ c).trans ((final1 (E2' m ρ) c).trans ?_)
  funext i
  obtain ⟨r, j, rfl⟩ : ∃ (r : Fin 8192) (j : Fin 128), i = ix2 r j := ⟨i 0, i 1, eq_ix2 (n0 := 8192) (n1 := 128) i⟩
  show out1val (E2' m ρ) c r j = Cert.Spec.out _ _ _ r j
  unfold out1val Cert.Spec.out Cert.Spec.lin Cert.Spec.T2 Cert.Spec.U
  rw [enter1_x, enter1_L, enter1_T]
  congr 1
  · congr 1
    · refine Finset.sum_congr rfl fun cc _ => ?_
      rw [enter1_w0]
    · refine Finset.sum_congr rfl fun cc _ => ?_
      rw [enter1_w1]; rfl
  · refine Finset.sum_congr rfl fun cc _ => ?_
    rw [enter1_w2]; rfl

/-- THE VALUE RUN: every execution terminates, the result buffer ends at the convolution of the arguments, and the
    three argument arrays end as launched. -/
theorem value_run : θ_run defs (onTc (τ := τ) (main (F := Ideal))) ⟨m, fun _ => 0, ρ⟩ (fun r => ∀ c : Dev nD,
      r.2.mem ((c.tc : Thread nD τ).loc main_v8)
          = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
    ⟨(h c _ (mem_unscoped main_v8 (by decide))).trans (result_eq m ρ c),
     (h c _ (mem_unscoped main_arg0 (by decide))).trans (E3_main_arg0 m ρ c),
     (h c _ (mem_unscoped main_arg1 (by decide))).trans (E3_main_arg1 m ρ c),
     (h c _ (mem_unscoped main_arg2 (by decide))).trans (E3_main_arg2 m ρ c)⟩) (run_all m ρ)

end Cert.KernelIdeal.Hand

end
-- ==== Proof.lean ====
/-
  Chebyshev graph convolution of order 3:  T1 = L·x,  T2 = 2·(L·T1) − x,  out = (x·W₀ᵀ + T1·W₁ᵀ) + T2·W₂ᵀ,
  for x : [8192, 128], L : [8192, 8192], W : [3, 128, 128].

  The kernel program computes it in two grid launches over 8 row blocks × 4 column blocks of L. In each, an accumulator
  of 1024 × 128 entries is reset where the column block is the first, gains (tile of L) · (2048 rows of the right-hand
  operand) at every column block, and is read where the column block is the last: the first launch stores the
  accumulated rows as the rows of T1; the second accumulates L·T1 the same way and stores (x·W₀ᵀ + T1·W₁ᵀ) +
  (2·acc − x)·W₂ᵀ for its row block. Between the launches the host transposes W and cuts out its three matrices.

  Frames: each launch is run point by point under an invariant that carries the accumulator's contents from one grid
  point to the next (the running sum over the column blocks met so far), and @main is the three segments in order.
  Value: over the extended reals the accumulator after the fourth column block is the four block sums added in order
  onto zero, which is the sum over all 8192 columns by associativity and commutativity of addition alone — no entry
  need be finite —, so both programs end at the same function of x, L, W, index by index; changes of float format
  are the identity there and the reference's transposes of W are the kernel's.
-/
import proofs.«175496_j70763881168941_2_alg».proof.Defs
import proofs.«175496_j70763881168941_2_alg».proof.Proof.Gen.Kernel
import proofs.«175496_j70763881168941_2_alg».proof.Proof.Gen.KernelIdeal
import proofs.«175496_j70763881168941_2_alg».proof.Proof.Gen.ReferenceIdeal
import proofs.«175496_j70763881168941_2_alg».proof.Proof.Gen.Pre_finite_inputs
import proofs.«175496_j70763881168941_2_alg».proof.Proof.Gen.ReferenceIdeal.Run
import proofs.«175496_j70763881168941_2_alg».proof.Proof.Gen.ReferenceIdeal.Read
import proofs.«175496_j70763881168941_2_alg».proof.Proof.RefIsSpec
import proofs.«175496_j70763881168941_2_alg».proof.Proof.K.Run
import proofs.«175496_j70763881168941_2_alg».proof.Proof.KI.ValueRun
import Idealize.ShloMosaic.Adequacy
import Idealize.ShloMosaic.Init

noncomputable section

namespace Cert.Proof

open Idealize.ShloMosaic Idealize.ShloMosaic.TcCoe Idealize.SL.Sem

/-- The word-level program runs to the end and leaves its arguments as launched. -/
theorem frame_kernel : Cert.frame_Kernel (hKernel := Cert.Kernel.Gen.facts) (hPre_finite_inputs := Cert.Pre_finite_inputs.Gen.facts) :=
  fun m ρ _ => Cert.Kernel.Hand.frame m ρ

/-- So does its reading over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run with the result forgotten. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both programs end at  out x L W  of their (agreeing) arguments. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' _ hagree
  refine ⟨_, Cert.KernelIdeal.Hand.value_run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact Cert.ReferenceIdeal.RefValue.run_term_eq _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
